-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S1024x1 : Shape := ⟨2, ![1024, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def k1_cond3 (i : grid1.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x1024 : S1024x1.Broadcasts S1024x1024
  iota_S1024x1024_d0_w32 : S1024x1024.Iotas .tc 32 [0]
  iota_S1024x1024_d1_w32 : S1024x1024.Iotas .tc 32 [1]
  dot_S512x1024_S1024x1024_S512x1024_1_1_0_0_n_n_wf : DotDims.WF S512x1024 S1024x1024 S512x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Region0.lean ====
/-
  The projection region: at each of its eight grid points the body reads a block of 512 rows of x and the three whole
  weight matrices, and writes the three products (rows of x against rows of a weight, summed over the 1024 input
  features) into the three output blocks. Nothing is kept between points. This module states what each output block
  holds after the body as a function of the input blocks, and proves the body's triple.
-/
import proofs.«164044_j26826365731266_2_alg».proof.Proof.Gen.KernelIdeal.Launch
import proofs.«164044_j26826365731266_2_alg».proof.Proof.Gen.KernelIdeal.Skeleton
import proofs.«164044_j26826365731266_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- The three output blocks after the body: one whole-block store each, of the product of the x block with a weight. -/
def outQ (x : Vec F S512x1024 .f32) (w : Vec F S1024x1024 .f32) : Vec F S512x1024 .bf16 :=
  View.canon [⟨rA, k0_pay2 (View.ld x rA) (View.ld w rW)⟩]
def outK (x : Vec F S512x1024 .f32) (w : Vec F S1024x1024 .f32) : Vec F S512x1024 .bf16 :=
  View.canon [⟨rA, k0_pay3 (View.ld x rA) (View.ld w rW)⟩]
def outV (x : Vec F S512x1024 .f32) (w : Vec F S1024x1024 .f32) : Vec F S512x1024 .bf16 :=
  View.canon [⟨rA, k0_pay4 (View.ld x rA) (View.ld w rW)⟩]

theorem coverA (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

set_option maxHeartbeats 4000000 in
/-- The body on whole staging memrefs: the four inputs kept, the three outputs at the products. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .f32) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA _)
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection region on core c: the arrays as the region finds them; after the body each input's
    buffer at its block and each output's at the product of the x block with its weight; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1Defs.lean ====
/-
  The attention region: a 4 × 4 grid of points (query block, key block), the key block innermost. Three scratch arrays
  are carried from point to point: per query row a running shift m, a running normaliser l, and a running numerator
  acc (one row of 1024 numbers per query row). At key block 0 they are reset; at a key block strictly below the diagonal
  the block's scores update them; at the diagonal block the scores, masked to the keys not after the query, update them
  and the output block is written as acc / l; above the diagonal nothing happens.
  This module states what each case of the body leaves in the scratch arrays and in the output block, and proves the
  body's triple case by case.
-/
import proofs.«164044_j26826365731266_2_alg».proof.Proof.Gen.KernelIdeal.Launch
import proofs.«164044_j26826365731266_2_alg».proof.Proof.Gen.KernelIdeal.Skeleton
import proofs.«164044_j26826365731266_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev rM : Rect S1024x1 := Rect.unit (s := S1024x1) ![0, 0] S1024x1.size inb_S1024x1_S1024x1_0_0
abbrev rS : Rect S1024x1024 := Rect.unit (s := S1024x1024) ![0, 0] S1024x1024.size inb_S1024x1024_S1024x1024_0_0

/-- The three conditions of the body, from the grid coordinates: key block 0; key block below the query block; key
    block on the diagonal. -/
abbrev cond1 (i : grid1.Coords) : Prop :=
  Scalar.cmpi .ne (Scalar.extui (Scalar.cmpi .eq (BitVec.ofNat 32 (i 1).val) 0#32) : BitVec 32) 0#32 = 1#1
abbrev cond2 (i : grid1.Coords) : Prop :=
  Scalar.cmpi .ne (Scalar.extui (Scalar.cmpi .slt (BitVec.ofNat 32 (i 1).val) (BitVec.ofNat 32 (i 0).val)) : BitVec 32) 0#32 = 1#1
abbrev cond3 (i : grid1.Coords) : Prop := k1_cond3 i = 1#1

theorem coverM (p0 : Vec F S1024x1 .f32) (y : S1024x1.Idx) :
    ∃ pc ∈ ([⟨rM, p0⟩] : List (View.Piece (Elt F) S1024x1 .f32)), y ∈ pc.1.set :=
  View.cover_of_tiled [⟨rM, p0⟩] S1024x1.size (by rfl) y
theorem coverS (p0 : Vec F S1024x1024 .f32) (y : S1024x1024.Idx) :
    ∃ pc ∈ ([⟨rS, p0⟩] : List (View.Piece (Elt F) S1024x1024 .f32)), y ∈ pc.1.set :=
  View.cover_of_tiled [⟨rS, p0⟩] S1024x1024.size (by rfl) y

/-- Every store and load of the body is through the whole-array rectangle at offset zero. -/
theorem hz2 : (![0, 0] : Fin 2 → Nat) = fun _ => 0 := by funext a; fin_cases a <;> rfl

/-- The scratch arrays: the running shift, normaliser and numerator. -/
structure Scr (F : FTy → Type) where
  m : Vec F S1024x1 .f32
  l : Vec F S1024x1 .f32
  a : Vec F S1024x1024 .f32

/-- The reset at key block 0: shift -∞, normaliser 0, numerator 0. -/
def initS : Scr F := ⟨k1_pay1, k1_pay2, k1_pay3⟩

/-- A key block strictly below the diagonal: the update by its (unmasked) scores. -/
def below (q k v : Vec F S1024x1024 .bf16) (s : Scr F) : Scr F :=
  ⟨k1_pay5 (k1_pay10 q k s.m), k1_pay13 q k s.m s.m s.l, k1_pay4 (k1_pay14 q k s.m s.m s.a v)⟩

/-- The diagonal key block: the update by its scores masked to the keys not after the query (the block coordinates
    enter the mask). -/
def diag (a0 a1 : BitVec 32) (q k v : Vec F S1024x1024 .bf16) (s : Scr F) : Scr F :=
  ⟨k1_pay7 (k1_pay16 a0 a1 q k s.m), k1_pay19 a0 a1 q k s.m s.m s.l,
    k1_pay6 (k1_pay17 a0 a1 q k s.m s.m) (k1_pay18 a0 a1 q k s.m) s.a v⟩

/-- The output block written on the diagonal: numerator over normaliser. -/
def outOf (s : Scr F) : Vec F S1024x1024 .f32 := k1_pay8 s.a s.l

/-- What a buffer reads after a list of stores whose LAST is a whole-array store: that store's payload. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (Ls : List (View.Piece (Elt F) S e)) :
    v.read (Elt F) (v.writes (Elt F) f (⟨Rect.unit off S.size inb, w⟩ :: Ls)) = w := by
  rw [View.read_writes_eq_canon _ _ _ (fun y => ⟨_, List.mem_cons.mpr (Or.inl rfl), View.mem_set_unit_zero h inb y⟩),
    View.canon_cons_unit_zero h]

/-- A whole-array load after such a list of stores reads the last store's payload. -/
theorem readCov_whole {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (Ls : List (View.Piece (Elt F) S e)) :
    v.readCov (⟨Rect.unit off S.size inb, w⟩ :: Ls) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

end Cert.KernelIdeal.Hand

end
-- ==== Proof.Region1_run_first_diag.lean ====
/-
  One control case of the attention body, run symbolically: Key block 0 on the diagonal (the first query block): reset, then the masked update, and the output block written.
-/
import proofs.«164044_j26826365731266_2_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- Key block 0 on the diagonal (the first query block): reset, then the masked update, and the output block written. -/
theorem run_first_diag (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : cond1 i) (hc2 : ¬cond2 i) (hc3 : cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (outOf (diag (BitVec.ofNat 32 (i 0).val) (BitVec.ofNat 32 (i 1).val) q k v initS))
            ∗ owns (c : Thread nD τ) arg6 fullShare (diag (BitVec.ofNat 32 (i 0).val) (BitVec.ofNat 32 (i 1).val) q k v initS).m ∗ owns (c : Thread nD τ) arg7 fullShare (diag (BitVec.ofNat 32 (i 0).val) (BitVec.ofNat 32 (i 1).val) q k v initS).l
            ∗ owns (c : Thread nD τ) arg8 fullShare (diag (BitVec.ofNat 32 (i 0).val) (BitVec.ofNat 32 (i 1).val) q k v initS).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.KernelIdeal.Hand

end
-- ==== Proof.Region1_run_first_below.lean ====
/-
  One control case of the attention body, run symbolically: Key block 0 below the diagonal: reset, then the update; the output block untouched.
-/
import proofs.«164044_j26826365731266_2_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- Key block 0 below the diagonal: reset, then the update; the output block untouched. -/
theorem run_first_below (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : cond1 i) (hc2 : cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (below q k v initS).m ∗ owns (c : Thread nD τ) arg7 fullShare (below q k v initS).l
            ∗ owns (c : Thread nD τ) arg8 fullShare (below q k v initS).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.KernelIdeal.Hand

end
-- ==== Proof.Region1_run_below.lean ====
/-
  One control case of the attention body, run symbolically: A later key block below the diagonal: the update; the output block untouched.
-/
import proofs.«164044_j26826365731266_2_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A later key block below the diagonal: the update; the output block untouched. -/
theorem run_below (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (below q k v s).m ∗ owns (c : Thread nD τ) arg7 fullShare (below q k v s).l
            ∗ owns (c : Thread nD τ) arg8 fullShare (below q k v s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.KernelIdeal.Hand

end
-- ==== Proof.Region1_run_diag.lean ====
/-
  One control case of the attention body, run symbolically: A later key block on the diagonal: the masked update, and the output block written.
-/
import proofs.«164044_j26826365731266_2_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A later key block on the diagonal: the masked update, and the output block written. -/
theorem run_diag (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : ¬cond2 i) (hc3 : cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (outOf (diag (BitVec.ofNat 32 (i 0).val) (BitVec.ofNat 32 (i 1).val) q k v s))
            ∗ owns (c : Thread nD τ) arg6 fullShare (diag (BitVec.ofNat 32 (i 0).val) (BitVec.ofNat 32 (i 1).val) q k v s).m ∗ owns (c : Thread nD τ) arg7 fullShare (diag (BitVec.ofNat 32 (i 0).val) (BitVec.ofNat 32 (i 1).val) q k v s).l
            ∗ owns (c : Thread nD τ) arg8 fullShare (diag (BitVec.ofNat 32 (i 0).val) (BitVec.ofNat 32 (i 1).val) q k v s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.KernelIdeal.Hand

end
-- ==== Proof.Region1_run_above.lean ====
/-
  One control case of the attention body, run symbolically: A key block above the diagonal: nothing is touched.
-/
import proofs.«164044_j26826365731266_2_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A key block above the diagonal: nothing is touched. -/
theorem run_above (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : ¬cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (s).m ∗ owns (c : Thread nD τ) arg7 fullShare (s).l
            ∗ owns (c : Thread nD τ) arg8 fullShare (s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  iexists _; isplitr
  swap; · iexact H8
  ipureintro
  exact harg8.read_unread _

end Cert.KernelIdeal.Hand

end
-- ==== Proof.Region1.lean ====
/-
  The attention region's proof data: what the scratch arrays hold from point to point (a recursion on the point: reset
  at key block 0, updated below and on the diagonal, untouched above it), what the output block holds once its row's
  diagonal point has written it, and the body obligation at every point from the five case runs.
-/
import proofs.«164044_j26826365731266_2_alg».proof.Proof.Region1Defs
import proofs.«164044_j26826365731266_2_alg».proof.Proof.Region1_run_first_diag
import proofs.«164044_j26826365731266_2_alg».proof.Proof.Region1_run_first_below
import proofs.«164044_j26826365731266_2_alg».proof.Proof.Region1_run_below
import proofs.«164044_j26826365731266_2_alg».proof.Proof.Region1_run_diag
import proofs.«164044_j26826365731266_2_alg».proof.Proof.Region1_run_above

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid: point t is (query block t / 4, key block t % 4) -/

theorem hc1 : ∀ t : Fin cfg1.N, cond1 (grid1.coords t) ↔ t.val % 4 = 0 :=
  (by decide +kernel : ∀ t : Fin grid1.N, cond1 (grid1.coords t) ↔ t.val % 4 = 0)
theorem hc2 : ∀ t : Fin cfg1.N, cond2 (grid1.coords t) ↔ t.val % 4 < t.val / 4 :=
  (by decide +kernel : ∀ t : Fin grid1.N, cond2 (grid1.coords t) ↔ t.val % 4 < t.val / 4)
theorem hc3 : ∀ t : Fin cfg1.N, cond3 (grid1.coords t) ↔ t.val % 4 = t.val / 4 :=
  (by decide +kernel : ∀ t : Fin grid1.N, cond3 (grid1.coords t) ↔ t.val % 4 = t.val / 4)
/-- The output window is idle exactly off the diagonal. -/
theorem idle3 : ∀ t : Fin cfg1.N, idle1 3 (grid1.coords t) = true ↔ ¬ t.val % 4 = t.val / 4 :=
  (by decide +kernel : ∀ t : Fin grid1.N, idle1 3 (grid1.coords t) = true ↔ ¬ t.val % 4 = t.val / 4)
theorem t_lt : ∀ t : Fin cfg1.N, t.val < 16 := fun t => lt_of_lt_of_eq t.isLt (N_1 : cfg1.N = 16)

/-! ## The scratch arrays from point to point -/

/-- One point's effect on the scratch arrays. -/
def step (c : Dev nD) (t : Fin cfg1.N) (s : Scr F) : Scr F :=
  if cond1 (grid1.coords t) then
    (if cond3 (grid1.coords t) then
      diag (BitVec.ofNat 32 (grid1.coords t 0).val) (BitVec.ofNat 32 (grid1.coords t 1).val) (iblk1 V c 0 t) (iblk1 V c 1 t) (iblk1 V c 2 t) initS
    else below (iblk1 V c 0 t) (iblk1 V c 1 t) (iblk1 V c 2 t) initS)
  else if cond2 (grid1.coords t) then below (iblk1 V c 0 t) (iblk1 V c 1 t) (iblk1 V c 2 t) s
  else if cond3 (grid1.coords t) then
    diag (BitVec.ofNat 32 (grid1.coords t 0).val) (BitVec.ofNat 32 (grid1.coords t 1).val) (iblk1 V c 0 t) (iblk1 V c 1 t) (iblk1 V c 2 t) s
  else s

/-- The scratch arrays after the first n points. -/
def scrAt (c : Dev nD) : Nat → Scr F
  | 0 => initS
  | n + 1 => if h : n < cfg1.N then step V c ⟨n, h⟩ (scrAt c n) else scrAt c n

theorem scrAt_succ (c : Dev nD) (t : Fin cfg1.N) : scrAt V c (t.val + 1) = step V c t (scrAt V c t.val) := by
  rw [scrAt, dif_pos t.isLt]

/-- The output block of point t's row: numerator over normaliser right after the row's diagonal point. -/
def outRow (c : Dev nD) (t : Fin cfg1.N) : Vec F S1024x1024 .f32 := outOf (scrAt V c (5 * (t.val / 4) + 1))

/-! ## The invariant: the scoped buffers no window stages, the scratch arrays at their running contents -/

/-- Before point n: the projection region's staging buffers and the generator register at anything, the three scratch
    arrays at the running state (at anything before the first point: the first point resets them). -/
def Phi1 (c : Dev nD) (n : Fin (cfg1.N + 1)) : sProp 𝕄 :=
  iprop((∃ r, prngReg c r) ∗ ((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))
    ∗ ∃ s : Scr F, ⌜n.val ≠ 0 → s = scrAt V c n.val⌝ ∗ owns (c : Thread nD τ) (Memref.whole cc1_scratch0) fullShare s.m
        ∗ owns (c : Thread nD τ) (Memref.whole cc1_scratch1) fullShare s.l ∗ owns (c : Thread nD τ) (Memref.whole cc1_scratch2) fullShare s.a)

/-- The proof data of the attention region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outRow V c t
  Φ n := Phi1 V c n
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outRow V c t := by dsimp only [dat1]
theorem Phi_eq1 (c : Dev nD) (n : Fin (cfg1.N + 1)) : (dat1 V c).Φ n = Phi1 V c n := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Above the diagonal the output window's buffer holds its row's output block: the diagonal point wrote it, and no
    point since has touched it or written it back. -/
theorem before1_3_above (c : Dev nD) : ∀ (n : Nat) (t : Fin cfg1.N), t.val = n → t.val / 4 < t.val % 4 → ∀ d,
    (dat1 V c).before 3 t d = outRow V c t := by
  intro n
  induction n using Nat.strong_induction_on with
  | _ n ih =>
    intro t htn habove d
    have hlt := t_lt t
    have ht0 : t.val ≠ 0 := by omega
    have hfl : (cfg1.win 3).flush ⟨t.val - 1, Nat.lt_of_le_of_lt (Nat.sub_le _ _) t.isLt⟩ = false := by
      rw [← Bool.not_eq_true, flush1_3]; show ¬ (t.val - 1) % 4 = 3; omega
    rw [(dat1 V c).before_of_pos 3 t ht0 rfl d, hfl, if_neg Bool.false_ne_true]
    unfold Dat.left
    by_cases hd : (t.val - 1) % 4 = (t.val - 1) / 4
    · have hidle : idle1 3 (grid1.coords ⟨t.val - 1, Nat.lt_of_le_of_lt (Nat.sub_le _ _) t.isLt⟩) = false := by
        rw [← Bool.not_eq_true, idle3]; exact not_not.mpr hd
      have hidle' : cfg1.idle 3 (cfg1.grid.coords ⟨t.val - 1, Nat.lt_of_le_of_lt (Nat.sub_le _ _) t.isLt⟩) = false := hidle
      rw [hidle']
      unfold Dat.kept
      rw [after1_3]
      show (cfg1.win 3).fill _ d ((cfg1.win 3).cut _ (outRow V c ⟨t.val - 1, _⟩)) = _
      rw [Pipeline.fill_of_clip_none (cfg := cfg1) 3 _ (fun _ => rfl) d (outRow V c ⟨t.val - 1, Nat.lt_of_le_of_lt (Nat.sub_le _ _) t.isLt⟩), Window.fill_cut]
      unfold outRow
      show outOf (scrAt V c (5 * ((t.val - 1) / 4) + 1)) = outOf (scrAt V c (5 * (t.val / 4) + 1))
      have : (t.val - 1) / 4 = t.val / 4 := by omega
      rw [this]
    · have hidle : idle1 3 (grid1.coords ⟨t.val - 1, Nat.lt_of_le_of_lt (Nat.sub_le _ _) t.isLt⟩) = true := by
        rw [idle3]; exact hd
      have hidle' : cfg1.idle 3 (cfg1.grid.coords ⟨t.val - 1, Nat.lt_of_le_of_lt (Nat.sub_le _ _) t.isLt⟩) = true := hidle
      rw [hidle']
      rw [ih (t.val - 1) (by omega) ⟨t.val - 1, Nat.lt_of_le_of_lt (Nat.sub_le _ _) t.isLt⟩ rfl (by show (t.val - 1) / 4 < (t.val - 1) % 4; omega) d]
      unfold outRow
      show outOf (scrAt V c (5 * ((t.val - 1) / 4) + 1)) = outOf (scrAt V c (5 * (t.val / 4) + 1))
      have : (t.val - 1) / 4 = t.val / 4 := by omega
      rw [this]

end Region1

end Cert.KernelIdeal.Hand

end
-- ==== Proof.Region1Body.lean ====
/-
  The attention region's body obligation: at every grid point, from the invariant and the windows' buffers, the body runs
  to the invariant at the next point and the buffers at what the proof data say — by the case the point falls in (key
  block 0 or later; below, on or above the diagonal), each case one of the five symbolic runs.
-/
import proofs.«164044_j26826365731266_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1Body

variable (V : (c : Dev nD) → (b : Ref sig .tc) → Buf (Elt F) ((c : Thread nD τ).loc b))

/-- What the body obligation asks of the output window's buffer after point t: on the diagonal the row's output block;
    off it, untouched — named again as the output block where the point writes it back. -/
def post3 (c : Dev nD) (t : Fin cfg1.N) : sProp 𝕄 :=
  match cfg1.idle 3 (cfg1.grid.coords t) with
  | true =>
    match (cfg1.win 3).flush t with
    | false => iprop(∃ d, owns (c : Thread nD τ) (st1_3 t) fullShare ((dat1 V c).before 3 t d))
    | true => owns (c : Thread nD τ) (st1_3 t) fullShare ((dat1 V c).after 3 t)
  | false => owns (c : Thread nD τ) (st1_3 t) fullShare ((dat1 V c).after 3 t)

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ post3 V c t)) := by
  have hlt := t_lt t
  have h1 := hc1 t; have h2 := hc2 t; have h3 := hc3 t
  rw [Phi_eq1, Phi_eq1, show (dat1 V c).owesAt () t.succ = (dat1 V c).owesAt () t.castSucc from rfl]
  simp only [before1_0, before1_1, before1_2, after1_0, after1_1, after1_2]
  unfold Phi1 bodyAt1 post3
  by_cases hk0 : t.val % 4 = 0
  · have c1 : cond1 (grid1.coords t) := h1.mpr hk0
    by_cases hq0 : t.val / 4 = 0
    · -- the first query block's diagonal point
      have c2 : ¬cond2 (grid1.coords t) := fun h => by have := h2.mp h; omega
      have c3 : cond3 (grid1.coords t) := h3.mpr (by omega)
      have hidle : cfg1.idle 3 (cfg1.grid.coords t) = false :=
        Bool.eq_false_iff.mpr fun h => (idle3 t).mp h (by omega)
      rw [hidle]; dsimp only
      iintro ⟨⟨Hp, Hrest, ⟨%s, %hs, Hm, Hl, Ha⟩⟩, Ho, ⟨%d0, H0⟩, ⟨%d1, H1⟩, ⟨%d2, H2⟩, ⟨%d3, H3⟩⟩
      iapply (run_first_diag c Set.univ (grid1.coords t) _ _ _ _ _ _ _ _ _ _ _ _ _ _ c1 c2 c3 (iblk1 V c 0 t) (iblk1 V c 1 t) (iblk1 V c 2 t) s ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (diag (BitVec.ofNat 32 (grid1.coords t 0).val) (BitVec.ofNat 32 (grid1.coords t 1).val) (iblk1 V c 0 t) (iblk1 V c 1 t) (iblk1 V c 2 t) initS); isplitr
        · ipureintro; intro _
          rw [Fin.val_succ, scrAt_succ]
          simp only [step, if_pos c1, if_pos c3]
        isplitl [Hm]; · iexact Hm
        isplitl [Hl]; · iexact Hl
        iexact Ha
      isplitl [Ho]; · iexact Ho
      isplitl [H0]; · iexact H0
      isplitl [H1]; · iexact H1
      isplitl [H2]; · iexact H2
      rw [after1_3]; unfold outRow
      have e : 5 * (t.val / 4) + 1 = t.val + 1 := by omega
      rw [e, scrAt_succ]; simp only [step, if_pos c1, if_pos c3]
      iexact H3
    · -- key block 0 below the diagonal
      have c2 : cond2 (grid1.coords t) := h2.mpr (by omega)
      have c3 : ¬cond3 (grid1.coords t) := fun h => by have := h3.mp h; omega
      have hidle : cfg1.idle 3 (cfg1.grid.coords t) = true := (idle3 t).mpr (by omega)
      have hfl : (cfg1.win 3).flush t = false := by rw [← Bool.not_eq_true, flush1_3]; omega
      rw [hidle, hfl]; dsimp only
      iintro ⟨⟨Hp, Hrest, ⟨%s, %hs, Hm, Hl, Ha⟩⟩, Ho, ⟨%d0, H0⟩, ⟨%d1, H1⟩, ⟨%d2, H2⟩, ⟨%d3, H3⟩⟩
      iapply (run_first_below c Set.univ (grid1.coords t) _ _ _ _ _ _ _ _ _ _ _ _ _ _ c1 c2 c3 (iblk1 V c 0 t) (iblk1 V c 1 t) (iblk1 V c 2 t) s ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (below (iblk1 V c 0 t) (iblk1 V c 1 t) (iblk1 V c 2 t) initS); isplitr
        · ipureintro; intro _
          rw [Fin.val_succ, scrAt_succ]
          simp only [step, if_pos c1, if_neg c3]
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
  · have c1 : ¬cond1 (grid1.coords t) := fun h => hk0 (h1.mp h)
    have ht0 : t.castSucc.val ≠ 0 := by rw [Fin.coe_castSucc]; omega
    by_cases hb : t.val % 4 < t.val / 4
    · -- a later key block below the diagonal
      have c2 : cond2 (grid1.coords t) := h2.mpr hb
      have c3 : ¬cond3 (grid1.coords t) := fun h => by have := h3.mp h; omega
      have hidle : cfg1.idle 3 (cfg1.grid.coords t) = true := (idle3 t).mpr (by omega)
      have hfl : (cfg1.win 3).flush t = false := by rw [← Bool.not_eq_true, flush1_3]; omega
      rw [hidle, hfl]; dsimp only
      iintro ⟨⟨Hp, Hrest, ⟨%s, %hs, Hm, Hl, Ha⟩⟩, Ho, ⟨%d0, H0⟩, ⟨%d1, H1⟩, ⟨%d2, H2⟩, ⟨%d3, H3⟩⟩
      obtain rfl : s = scrAt V c t.val := by have := hs ht0; rwa [Fin.coe_castSucc] at this
      iapply (run_below c Set.univ (grid1.coords t) _ _ _ _ _ _ _ _ _ _ _ _ _ _ c1 c2 c3 (iblk1 V c 0 t) (iblk1 V c 1 t) (iblk1 V c 2 t) (scrAt V c t.val) ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (below (iblk1 V c 0 t) (iblk1 V c 1 t) (iblk1 V c 2 t) (scrAt V c t.val)); isplitr
        · ipureintro; intro _
          rw [Fin.val_succ, scrAt_succ]
          simp only [step, if_neg c1, if_pos c2]
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
    · by_cases hd : t.val % 4 = t.val / 4
      · -- a later diagonal point
        have c2 : ¬cond2 (grid1.coords t) := fun h => hb (h2.mp h)
        have c3 : cond3 (grid1.coords t) := h3.mpr hd
        have hidle : cfg1.idle 3 (cfg1.grid.coords t) = false :=
          Bool.eq_false_iff.mpr fun h => (idle3 t).mp h hd
        rw [hidle]; dsimp only
        iintro ⟨⟨Hp, Hrest, ⟨%s, %hs, Hm, Hl, Ha⟩⟩, Ho, ⟨%d0, H0⟩, ⟨%d1, H1⟩, ⟨%d2, H2⟩, ⟨%d3, H3⟩⟩
        obtain rfl : s = scrAt V c t.val := by have := hs ht0; rwa [Fin.coe_castSucc] at this
        iapply (run_diag c Set.univ (grid1.coords t) _ _ _ _ _ _ _ _ _ _ _ _ _ _ c1 c2 c3 (iblk1 V c 0 t) (iblk1 V c 1 t) (iblk1 V c 2 t) (scrAt V c t.val) ((dat1 V c).before 3 t d3) _)
        isplitl [H0]; · iexact H0
        isplitl [H1]; · iexact H1
        isplitl [H2]; · iexact H2
        isplitl [H3]; · iexact H3
        isplitl [Hm]; · iexact Hm
        isplitl [Hl]; · iexact Hl
        isplitl [Ha]; · iexact Ha
        iintro ⟨H0, H1, H2, H3, Hm, Hl, Ha⟩
        isplitl [Hp Hrest Hm Hl Ha]
        · isplitl [Hp]; · iexact Hp
          isplitl [Hrest]; · iexact Hrest
          iexists (diag (BitVec.ofNat 32 (grid1.coords t 0).val) (BitVec.ofNat 32 (grid1.coords t 1).val) (iblk1 V c 0 t) (iblk1 V c 1 t) (iblk1 V c 2 t) (scrAt V c t.val)); isplitr
          · ipureintro; intro _
            rw [Fin.val_succ, scrAt_succ]
            simp only [step, if_neg c1, if_neg c2, if_pos c3]
          isplitl [Hm]; · iexact Hm
          isplitl [Hl]; · iexact Hl
          iexact Ha
        isplitl [Ho]; · iexact Ho
        isplitl [H0]; · iexact H0
        isplitl [H1]; · iexact H1
        isplitl [H2]; · iexact H2
        rw [after1_3]; unfold outRow
        have e : 5 * (t.val / 4) + 1 = t.val + 1 := by omega
        rw [e, scrAt_succ]; simp only [step, if_neg c1, if_neg c2, if_pos c3]
        iexact H3
      · -- above the diagonal
        have c2 : ¬cond2 (grid1.coords t) := fun h => hb (h2.mp h)
        have c3 : ¬cond3 (grid1.coords t) := fun h => hd (h3.mp h)
        have hidle : cfg1.idle 3 (cfg1.grid.coords t) = true := (idle3 t).mpr hd
        have habove : t.val / 4 < t.val % 4 := by omega
        by_cases hf : t.val % 4 = 3
        · have hfl : (cfg1.win 3).flush t = true := by rw [flush1_3]; exact hf
          rw [hidle, hfl]; dsimp only
          iintro ⟨⟨Hp, Hrest, ⟨%s, %hs, Hm, Hl, Ha⟩⟩, Ho, ⟨%d0, H0⟩, ⟨%d1, H1⟩, ⟨%d2, H2⟩, ⟨%d3, H3⟩⟩
          obtain rfl : s = scrAt V c t.val := by have := hs ht0; rwa [Fin.coe_castSucc] at this
          iapply (run_above c Set.univ (grid1.coords t) _ _ _ _ _ _ _ _ _ _ _ _ _ _ c1 c2 c3 (iblk1 V c 0 t) (iblk1 V c 1 t) (iblk1 V c 2 t) (scrAt V c t.val) ((dat1 V c).before 3 t d3) _)
          isplitl [H0]; · iexact H0
          isplitl [H1]; · iexact H1
          isplitl [H2]; · iexact H2
          isplitl [H3]; · iexact H3
          isplitl [Hm]; · iexact Hm
          isplitl [Hl]; · iexact Hl
          isplitl [Ha]; · iexact Ha
          iintro ⟨H0, H1, H2, H3, Hm, Hl, Ha⟩
          isplitl [Hp Hrest Hm Hl Ha]
          · isplitl [Hp]; · iexact Hp
            isplitl [Hrest]; · iexact Hrest
            iexists (scrAt V c t.val); isplitr
            · ipureintro; intro _
              rw [Fin.val_succ, scrAt_succ]
              simp only [step, if_neg c1, if_neg c2, if_neg c3]
            isplitl [Hm]; · iexact Hm
            isplitl [Hl]; · iexact Hl
            iexact Ha
          isplitl [Ho]; · iexact Ho
          isplitl [H0]; · iexact H0
          isplitl [H1]; · iexact H1
          isplitl [H2]; · iexact H2
          rw [before1_3_above V c t.val t rfl habove d3, after1_3]
          iexact H3
        · have hfl : (cfg1.win 3).flush t = false := by rw [← Bool.not_eq_true, flush1_3]; exact hf
          rw [hidle, hfl]; dsimp only
          iintro ⟨⟨Hp, Hrest, ⟨%s, %hs, Hm, Hl, Ha⟩⟩, Ho, ⟨%d0, H0⟩, ⟨%d1, H1⟩, ⟨%d2, H2⟩, ⟨%d3, H3⟩⟩
          obtain rfl : s = scrAt V c t.val := by have := hs ht0; rwa [Fin.coe_castSucc] at this
          iapply (run_above c Set.univ (grid1.coords t) _ _ _ _ _ _ _ _ _ _ _ _ _ _ c1 c2 c3 (iblk1 V c 0 t) (iblk1 V c 1 t) (iblk1 V c 2 t) (scrAt V c t.val) ((dat1 V c).before 3 t d3) _)
          isplitl [H0]; · iexact H0
          isplitl [H1]; · iexact H1
          isplitl [H2]; · iexact H2
          isplitl [H3]; · iexact H3
          isplitl [Hm]; · iexact Hm
          isplitl [Hl]; · iexact Hl
          isplitl [Ha]; · iexact Ha
          iintro ⟨H0, H1, H2, H3, Hm, Hl, Ha⟩
          isplitl [Hp Hrest Hm Hl Ha]
          · isplitl [Hp]; · iexact Hp
            isplitl [Hrest]; · iexact Hrest
            iexists (scrAt V c t.val); isplitr
            · ipureintro; intro _
              rw [Fin.val_succ, scrAt_succ]
              simp only [step, if_neg c1, if_neg c2, if_neg c3]
            isplitl [Hm]; · iexact Hm
            isplitl [Hl]; · iexact Hl
            iexact Ha
          isplitl [Ho]; · iexact Ho
          isplitl [H0]; · iexact H0
          isplitl [H1]; · iexact H1
          isplitl [H2]; · iexact H2
          iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Body

end Cert.KernelIdeal.Hand

end
-- ==== Proof.Run.lean ====
/-
  The whole run: @main is the projection region followed by the attention region, nothing else. The buffer contents at
  the two region boundaries are a fold from the launch memory (each region's arrays at what its write-backs leave, every
  other buffer as it was); the launch theorem for a list of regions then gives: every weakly fair execution terminates,
  and every unscoped buffer ends at the last boundary's contents — the arguments as launched, the result array at what
  the attention region's write-backs leave.
-/
import proofs.«164044_j26826365731266_2_alg».proof.Proof.Region0
import proofs.«164044_j26826365731266_2_alg».proof.Proof.Region1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core c's buffers at launch. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the projection region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Argument 0 ends as launched: the attention region does not stage it, and the projection region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl

/-- Argument 1 ends as launched: the attention region does not stage it, and the projection region only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl

/-- Argument 2 ends as launched: the attention region does not stage it, and the projection region only reads it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl

/-- Argument 3 ends as launched: the attention region does not stage it, and the projection region only reads it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W0 m c (Proc.devRef .tc main_arg3) := (W2_arr m c 3).trans (((dat0 (V1 m) c).arrAt_in 3 rfl _).trans (A_eq0 (V1 m) c 3))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- A whole buffer owned at some contents is held at some contents. -/
theorem owns_whole_ex (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole]; iintro H; iexists X; iexact H

/-! ## The regions as segments -/

set_option backward.isDefEq.respectTransparency.types false in
/-- The projection region: entered from every unscoped buffer at the launch contents, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W2, left at W3. The scratch arrays come out of the scoped
    buffers no window stages at the first point and go back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from Phi_eq1 (V2 m) c 0]; unfold Phi1
    have e : (Pipeline.scopedRest (Ix := Unit) (Name := ℕ) (U := UR sig nD τ) (Lvl := ℕ) (Val := Elt F) (Pipeline.pin (pcfgs (F := F)) adm 1).spec c : sProp 𝕄) = _ :=
      scopedRest1_eq (Ix := Unit) (Val := Elt F) (Name := ℕ) (U := UR sig nD τ) (Lvl := ℕ) c
    rw [e]
    iintro ⟨Hp, -, H1, H2, H3, H4, H5, H6, H7, H8, H9, H10, H11, ⟨%f0, Hs0⟩, ⟨%f1, Hs1⟩, ⟨%f2, Hs2⟩⟩
    isplitl [Hp]; · iexact Hp
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexists (⟨f0, f1, f2⟩ : Scr F)
    isplitr; · ipureintro; intro h; exact absurd rfl h
    rw [owns_whole, owns_whole, owns_whole]
    isplitl [Hs0]; · iexact Hs0
    isplitl [Hs1]; · iexact Hs1
    iexact Hs2
  hout c := by
    rw [Pipeline.ownSems0_none, show (pdats m 1 c).Φ (Fin.last _) = Phi1 (V2 m) c (Fin.last _) from Phi_eq1 (V2 m) c _]; unfold Phi1
    have e : (Pipeline.scopedRest (Ix := Unit) (Name := ℕ) (U := UR sig nD τ) (Lvl := ℕ) (Val := Elt F) (Pipeline.pin (pcfgs (F := F)) adm 1).spec c : sProp 𝕄) = _ :=
      scopedRest1_eq (Ix := Unit) (Val := Elt F) (Name := ℕ) (U := UR sig nD τ) (Lvl := ℕ) c
    rw [e]
    iintro ⟨Hp, ⟨H1, H2, H3, H4, H5, H6, H7, H8, H9, H10, H11⟩, ⟨%s, -, Hs0, Hs1, Hs2⟩⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hs0]; · iapply (owns_whole_ex c cc1_scratch0 s.m); iexact Hs0
    isplitl [Hs1]; · iapply (owns_whole_ex c cc1_scratch1 s.l); iexact Hs1
    iapply (owns_whole_ex c cc1_scratch2 s.a); iexact Hs2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

abbrev segs : List (Pipeline.Seg (pcfgs (F := F)) adm (pdats m) () defs₀ 𝒱₀ L lv) :=
  [ .region (reg0 m), .region (reg1 m) ]

set_option backward.isDefEq.respectTransparency.types false in
/-- THE RUN. From any memory with zero counters, every weakly fair execution of @main terminates, nothing faulting, and
    every unscoped buffer of every core ends at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched; and the result array ends at what the attention region's
    write-backs leave. -/
theorem run_post : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.KernelIdeal.Hand

end
-- ==== Proof.KRegion0.lean ====
/-
  The projection region: at each of its eight grid points the body reads a block of 512 rows of x and the three whole
  weight matrices, and writes the three products (rows of x against rows of a weight, summed over the 1024 input
  features) into the three output blocks. Nothing is kept between points. This module states what each output block
  holds after the body as a function of the input blocks, and proves the body's triple.
-/
import proofs.«164044_j26826365731266_2_alg».proof.Proof.Gen.Kernel.Launch
import proofs.«164044_j26826365731266_2_alg».proof.Proof.Gen.Kernel.Skeleton
import proofs.«164044_j26826365731266_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- The three output blocks after the body: one whole-block store each, of the product of the x block with a weight. -/
def outQ (x : Vec F S512x1024 .f32) (w : Vec F S1024x1024 .f32) : Vec F S512x1024 .bf16 :=
  View.canon [⟨rA, k0_pay2 (View.ld x rA) (View.ld w rW)⟩]
def outK (x : Vec F S512x1024 .f32) (w : Vec F S1024x1024 .f32) : Vec F S512x1024 .bf16 :=
  View.canon [⟨rA, k0_pay3 (View.ld x rA) (View.ld w rW)⟩]
def outV (x : Vec F S512x1024 .f32) (w : Vec F S1024x1024 .f32) : Vec F S512x1024 .bf16 :=
  View.canon [⟨rA, k0_pay4 (View.ld x rA) (View.ld w rW)⟩]

theorem coverA (p0 : Vec F S512x1024 .bf16) (y : S512x1024.Idx) :
    ∃ pc ∈ ([⟨rA, p0⟩] : List (View.Piece (Elt F) S512x1024 .bf16)), y ∈ pc.1.set :=
  View.cover_of_tiled [⟨rA, p0⟩] S512x1024.size (by rfl) y

set_option maxHeartbeats 4000000 in
/-- The body on whole staging memrefs: the four inputs kept, the three outputs at the products. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .f32) (K : PUnit → sProp 𝕄) :
    iprop(owns (c : Thread nD τ) arg1 fullShare x ∗ owns (c : Thread nD τ) arg2 fullShare wq ∗ owns (c : Thread nD τ) arg3 fullShare wk
        ∗ owns (c : Thread nD τ) arg4 fullShare wv
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare wk
            ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverA _)
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection region on core c: the arrays as the region finds them; after the body each input's
    buffer at its block and each output's at the product of the x block with its weight; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Defs.lean ====
/-
  The attention region: a 4 × 4 grid of points (query block, key block), the key block innermost. Three scratch arrays
  are carried from point to point: per query row a running shift m, a running normaliser l, and a running numerator
  acc (one row of 1024 numbers per query row). At key block 0 they are reset; at a key block strictly below the diagonal
  the block's scores update them; at the diagonal block the scores, masked to the keys not after the query, update them
  and the output block is written as acc / l; above the diagonal nothing happens.
  This module states what each case of the body leaves in the scratch arrays and in the output block, and proves the
  body's triple case by case.
-/
import proofs.«164044_j26826365731266_2_alg».proof.Proof.Gen.Kernel.Launch
import proofs.«164044_j26826365731266_2_alg».proof.Proof.Gen.Kernel.Skeleton
import proofs.«164044_j26826365731266_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rM : Rect S1024x1 := Rect.unit (s := S1024x1) ![0, 0] S1024x1.size inb_S1024x1_S1024x1_0_0
abbrev rS : Rect S1024x1024 := Rect.unit (s := S1024x1024) ![0, 0] S1024x1024.size inb_S1024x1024_S1024x1024_0_0

/-- The three conditions of the body, from the grid coordinates: key block 0; key block below the query block; key
    block on the diagonal. -/
abbrev cond1 (i : grid1.Coords) : Prop :=
  Scalar.cmpi .ne (Scalar.extui (Scalar.cmpi .eq (BitVec.ofNat 32 (i 1).val) 0#32) : BitVec 32) 0#32 = 1#1
abbrev cond2 (i : grid1.Coords) : Prop :=
  Scalar.cmpi .ne (Scalar.extui (Scalar.cmpi .slt (BitVec.ofNat 32 (i 1).val) (BitVec.ofNat 32 (i 0).val)) : BitVec 32) 0#32 = 1#1
abbrev cond3 (i : grid1.Coords) : Prop := k1_cond3 i = 1#1

theorem coverM (p0 : Vec F S1024x1 .f32) (y : S1024x1.Idx) :
    ∃ pc ∈ ([⟨rM, p0⟩] : List (View.Piece (Elt F) S1024x1 .f32)), y ∈ pc.1.set :=
  View.cover_of_tiled [⟨rM, p0⟩] S1024x1.size (by rfl) y
theorem coverS (p0 : Vec F S1024x1024 .f32) (y : S1024x1024.Idx) :
    ∃ pc ∈ ([⟨rS, p0⟩] : List (View.Piece (Elt F) S1024x1024 .f32)), y ∈ pc.1.set :=
  View.cover_of_tiled [⟨rS, p0⟩] S1024x1024.size (by rfl) y

/-- Every store and load of the body is through the whole-array rectangle at offset zero. -/
theorem hz2 : (![0, 0] : Fin 2 → Nat) = fun _ => 0 := by funext a; fin_cases a <;> rfl

/-- The scratch arrays: the running shift, normaliser and numerator. -/
structure Scr (F : FTy → Type) where
  m : Vec F S1024x1 .f32
  l : Vec F S1024x1 .f32
  a : Vec F S1024x1024 .f32

/-- The reset at key block 0: shift -∞, normaliser 0, numerator 0. -/
def initS : Scr F := ⟨k1_pay1, k1_pay2, k1_pay3⟩

/-- A key block strictly below the diagonal: the update by its (unmasked) scores. -/
def below (q k v : Vec F S1024x1024 .bf16) (s : Scr F) : Scr F :=
  ⟨k1_pay5 (k1_pay10 q k s.m), k1_pay13 q k s.m s.m s.l, k1_pay4 (k1_pay14 q k s.m s.m s.a v)⟩

/-- The diagonal key block: the update by its scores masked to the keys not after the query (the block coordinates
    enter the mask). -/
def diag (a0 a1 : BitVec 32) (q k v : Vec F S1024x1024 .bf16) (s : Scr F) : Scr F :=
  ⟨k1_pay7 (k1_pay16 a0 a1 q k s.m), k1_pay19 a0 a1 q k s.m s.m s.l,
    k1_pay6 (k1_pay17 a0 a1 q k s.m s.m) (k1_pay18 a0 a1 q k s.m) s.a v⟩

/-- The output block written on the diagonal: numerator over normaliser. -/
def outOf (s : Scr F) : Vec F S1024x1024 .f32 := k1_pay8 s.a s.l

/-- What a buffer reads after a list of stores whose LAST is a whole-array store: that store's payload. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (Ls : List (View.Piece (Elt F) S e)) :
    v.read (Elt F) (v.writes (Elt F) f (⟨Rect.unit off S.size inb, w⟩ :: Ls)) = w := by
  rw [View.read_writes_eq_canon _ _ _ (fun y => ⟨_, List.mem_cons.mpr (Or.inl rfl), View.mem_set_unit_zero h inb y⟩),
    View.canon_cons_unit_zero h]

/-- A whole-array load after such a list of stores reads the last store's payload. -/
theorem readCov_whole {sg : RefSig} {κ : Kind} {sp : Space} {S : Shape} {e : EltTy} (v : View sg κ sp S e)
    {off : Fin S.rank → Nat} (h : off = fun _ => 0) (inb : ∀ a, off a + S.size a ≤ S.size a) (w : S.Idx → Elt F e)
    (Ls : List (View.Piece (Elt F) S e)) :
    v.readCov (⟨Rect.unit off S.size inb, w⟩ :: Ls) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

end Cert.Kernel.Hand

end
-- ==== Proof.KRegion1_run_first_diag.lean ====
/-
  One control case of the attention body, run symbolically: Key block 0 on the diagonal (the first query block): reset, then the masked update, and the output block written.
-/
import proofs.«164044_j26826365731266_2_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Key block 0 on the diagonal (the first query block): reset, then the masked update, and the output block written. -/
theorem run_first_diag (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : cond1 i) (hc2 : ¬cond2 i) (hc3 : cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (outOf (diag (BitVec.ofNat 32 (i 0).val) (BitVec.ofNat 32 (i 1).val) q k v initS))
            ∗ owns (c : Thread nD τ) arg6 fullShare (diag (BitVec.ofNat 32 (i 0).val) (BitVec.ofNat 32 (i 1).val) q k v initS).m ∗ owns (c : Thread nD τ) arg7 fullShare (diag (BitVec.ofNat 32 (i 0).val) (BitVec.ofNat 32 (i 1).val) q k v initS).l
            ∗ owns (c : Thread nD τ) arg8 fullShare (diag (BitVec.ofNat 32 (i 0).val) (BitVec.ofNat 32 (i 1).val) q k v initS).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.Kernel.Hand

end
-- ==== Proof.KRegion1_run_first_below.lean ====
/-
  One control case of the attention body, run symbolically: Key block 0 below the diagonal: reset, then the update; the output block untouched.
-/
import proofs.«164044_j26826365731266_2_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Key block 0 below the diagonal: reset, then the update; the output block untouched. -/
theorem run_first_below (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : cond1 i) (hc2 : cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (below q k v initS).m ∗ owns (c : Thread nD τ) arg7 fullShare (below q k v initS).l
            ∗ owns (c : Thread nD τ) arg8 fullShare (below q k v initS).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.Kernel.Hand

end
-- ==== Proof.KRegion1_run_below.lean ====
/-
  One control case of the attention body, run symbolically: A later key block below the diagonal: the update; the output block untouched.
-/
import proofs.«164044_j26826365731266_2_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later key block below the diagonal: the update; the output block untouched. -/
theorem run_below (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (below q k v s).m ∗ owns (c : Thread nD τ) arg7 fullShare (below q k v s).l
            ∗ owns (c : Thread nD τ) arg8 fullShare (below q k v s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.Kernel.Hand

end
-- ==== Proof.KRegion1_run_diag.lean ====
/-
  One control case of the attention body, run symbolically: A later key block on the diagonal: the masked update, and the output block written.
-/
import proofs.«164044_j26826365731266_2_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A later key block on the diagonal: the masked update, and the output block written. -/
theorem run_diag (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : ¬cond2 i) (hc3 : cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (outOf (diag (BitVec.ofNat 32 (i 0).val) (BitVec.ofNat 32 (i 1).val) q k v s))
            ∗ owns (c : Thread nD τ) arg6 fullShare (diag (BitVec.ofNat 32 (i 0).val) (BitVec.ofNat 32 (i 1).val) q k v s).m ∗ owns (c : Thread nD τ) arg7 fullShare (diag (BitVec.ofNat 32 (i 0).val) (BitVec.ofNat 32 (i 1).val) q k v s).l
            ∗ owns (c : Thread nD τ) arg8 fullShare (diag (BitVec.ofNat 32 (i 0).val) (BitVec.ofNat 32 (i 1).val) q k v s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H6]
  · iexists _; isplitr
    swap; · iexact H6
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  isplitl [H7]
  · iexists _; isplitr
    swap; · iexact H7
    ipureintro
    sl_unfold_run_names
    refine (read_writes_whole _ _ hz2 _ _ _).trans ?_
    simp only [initS, below, diag, outOf, View.readAt_eq_ld, harg2.read_unread, harg3.read_unread, harg4.read_unread, harg5.read_unread,
      harg6.read_unread, harg7.read_unread, harg8.read_unread, View.ld_unit_zero (S := S1024x1024) hz2, View.ld_unit_zero (S := S1024x1) hz2,
  readCov_whole (S := S1024x1024) _ hz2, readCov_whole (S := S1024x1) _ hz2]
  iexists _; isplitr
  swap; · iexact H8
  ipureintro
  sl_unfold_run_names
  refine (read_writes_whole _ _ hz2 _ _ _).trans ?_
  simp only [initS, below, diag, outOf, View.readAt_eq_ld, harg2.read_unread, harg3.read_unread, harg4.read_unread, harg5.read_unread,
    harg6.read_unread, harg7.read_unread, harg8.read_unread, View.ld_unit_zero (S := S1024x1024) hz2, View.ld_unit_zero (S := S1024x1) hz2,
  readCov_whole (S := S1024x1024) _ hz2, readCov_whole (S := S1024x1) _ hz2]

end Cert.Kernel.Hand

end
-- ==== Proof.KRegion1_run_above.lean ====
/-
  One control case of the attention body, run symbolically: A key block above the diagonal: nothing is touched.
-/
import proofs.«164044_j26826365731266_2_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A key block above the diagonal: nothing is touched. -/
theorem run_above (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (hc1 : ¬cond1 i) (hc2 : ¬cond2 i) (hc3 : ¬cond3 i)
    (q k v : Vec F S1024x1024 .bf16) (s : Scr F) (o : Vec F S1024x1024 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare o
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v
            ∗ owns (c : Thread nD τ) arg5 fullShare (o)
            ∗ owns (c : Thread nD τ) arg6 fullShare (s).m ∗ owns (c : Thread nD τ) arg7 fullShare (s).l
            ∗ owns (c : Thread nD τ) arg8 fullShare (s).a) -∗ K ⟨⟩))
      ⊢ wp frame (wpE (defs₀ (F := F)) Variants.none c none) E (cc1__causal_attn_kernel i arg2 harg2 arg3 harg3 arg4 harg4 arg5 harg5 arg6 harg6 arg7 harg7 arg8 harg8) K := by
  simp only [cc1__causal_attn_kernel_eq_skeleton]; unfold cc1__causal_attn_kernel_skel
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5
  obtain rfl := harg6.eq_unread hf6; obtain rfl := harg7.eq_unread hf7; obtain rfl := harg8.eq_unread hf8
  sl_exec (disch := first | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  iexists _; isplitr
  swap; · iexact H8
  ipureintro
  exact harg8.read_unread _

end Cert.Kernel.Hand

end
-- ==== Proof.KRegion1.lean ====
/-
  The attention region's proof data: what the scratch arrays hold from point to point (a recursion on the point: reset
  at key block 0, updated below and on the diagonal, untouched above it), what the output block holds once its row's
  diagonal point has written it, and the body obligation at every point from the five case runs.
-/
import proofs.«164044_j26826365731266_2_alg».proof.Proof.KRegion1Defs
import proofs.«164044_j26826365731266_2_alg».proof.Proof.KRegion1_run_first_diag
import proofs.«164044_j26826365731266_2_alg».proof.Proof.KRegion1_run_first_below
import proofs.«164044_j26826365731266_2_alg».proof.Proof.KRegion1_run_below
import proofs.«164044_j26826365731266_2_alg».proof.Proof.KRegion1_run_diag
import proofs.«164044_j26826365731266_2_alg».proof.Proof.KRegion1_run_above

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid: point t is (query block t / 4, key block t % 4) -/

theorem hc1 : ∀ t : Fin cfg1.N, cond1 (grid1.coords t) ↔ t.val % 4 = 0 :=
  (by decide +kernel : ∀ t : Fin grid1.N, cond1 (grid1.coords t) ↔ t.val % 4 = 0)
theorem hc2 : ∀ t : Fin cfg1.N, cond2 (grid1.coords t) ↔ t.val % 4 < t.val / 4 :=
  (by decide +kernel : ∀ t : Fin grid1.N, cond2 (grid1.coords t) ↔ t.val % 4 < t.val / 4)
theorem hc3 : ∀ t : Fin cfg1.N, cond3 (grid1.coords t) ↔ t.val % 4 = t.val / 4 :=
  (by decide +kernel : ∀ t : Fin grid1.N, cond3 (grid1.coords t) ↔ t.val % 4 = t.val / 4)
/-- The output window is idle exactly off the diagonal. -/
theorem idle3 : ∀ t : Fin cfg1.N, idle1 3 (grid1.coords t) = true ↔ ¬ t.val % 4 = t.val / 4 :=
  (by decide +kernel : ∀ t : Fin grid1.N, idle1 3 (grid1.coords t) = true ↔ ¬ t.val % 4 = t.val / 4)
theorem t_lt : ∀ t : Fin cfg1.N, t.val < 16 := fun t => lt_of_lt_of_eq t.isLt (N_1 : cfg1.N = 16)

/-! ## The scratch arrays from point to point -/

/-- One point's effect on the scratch arrays. -/
def step (c : Dev nD) (t : Fin cfg1.N) (s : Scr F) : Scr F :=
  if cond1 (grid1.coords t) then
    (if cond3 (grid1.coords t) then
      diag (BitVec.ofNat 32 (grid1.coords t 0).val) (BitVec.ofNat 32 (grid1.coords t 1).val) (iblk1 V c 0 t) (iblk1 V c 1 t) (iblk1 V c 2 t) initS
    else below (iblk1 V c 0 t) (iblk1 V c 1 t) (iblk1 V c 2 t) initS)
  else if cond2 (grid1.coords t) then below (iblk1 V c 0 t) (iblk1 V c 1 t) (iblk1 V c 2 t) s
  else if cond3 (grid1.coords t) then
    diag (BitVec.ofNat 32 (grid1.coords t 0).val) (BitVec.ofNat 32 (grid1.coords t 1).val) (iblk1 V c 0 t) (iblk1 V c 1 t) (iblk1 V c 2 t) s
  else s

/-- The scratch arrays after the first n points. -/
def scrAt (c : Dev nD) : Nat → Scr F
  | 0 => initS
  | n + 1 => if h : n < cfg1.N then step V c ⟨n, h⟩ (scrAt c n) else scrAt c n

theorem scrAt_succ (c : Dev nD) (t : Fin cfg1.N) : scrAt V c (t.val + 1) = step V c t (scrAt V c t.val) := by
  rw [scrAt, dif_pos t.isLt]

/-- The output block of point t's row: numerator over normaliser right after the row's diagonal point. -/
def outRow (c : Dev nD) (t : Fin cfg1.N) : Vec F S1024x1024 .f32 := outOf (scrAt V c (5 * (t.val / 4) + 1))

/-! ## The invariant: the scoped buffers no window stages, the scratch arrays at their running contents -/

/-- Before point n: the projection region's staging buffers and the generator register at anything, the three scratch
    arrays at the running state (at anything before the first point: the first point resets them). -/
def Phi1 (c : Dev nD) (n : Fin (cfg1.N + 1)) : sProp 𝕄 :=
  iprop((∃ r, prngReg c r) ∗ ((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))
    ∗ ∃ s : Scr F, ⌜n.val ≠ 0 → s = scrAt V c n.val⌝ ∗ owns (c : Thread nD τ) (Memref.whole cc1_scratch0) fullShare s.m
        ∗ owns (c : Thread nD τ) (Memref.whole cc1_scratch1) fullShare s.l ∗ owns (c : Thread nD τ) (Memref.whole cc1_scratch2) fullShare s.a)

/-- The proof data of the attention region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outRow V c t
  Φ n := Phi1 V c n
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outRow V c t := by dsimp only [dat1]
theorem Phi_eq1 (c : Dev nD) (n : Fin (cfg1.N + 1)) : (dat1 V c).Φ n = Phi1 V c n := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Above the diagonal the output window's buffer holds its row's output block: the diagonal point wrote it, and no
    point since has touched it or written it back. -/
theorem before1_3_above (c : Dev nD) : ∀ (n : Nat) (t : Fin cfg1.N), t.val = n → t.val / 4 < t.val % 4 → ∀ d,
    (dat1 V c).before 3 t d = outRow V c t := by
  intro n
  induction n using Nat.strong_induction_on with
  | _ n ih =>
    intro t htn habove d
    have hlt := t_lt t
    have ht0 : t.val ≠ 0 := by omega
    have hfl : (cfg1.win 3).flush ⟨t.val - 1, Nat.lt_of_le_of_lt (Nat.sub_le _ _) t.isLt⟩ = false := by
      rw [← Bool.not_eq_true, flush1_3]; show ¬ (t.val - 1) % 4 = 3; omega
    rw [(dat1 V c).before_of_pos 3 t ht0 rfl d, hfl, if_neg Bool.false_ne_true]
    unfold Dat.left
    by_cases hd : (t.val - 1) % 4 = (t.val - 1) / 4
    · have hidle : idle1 3 (grid1.coords ⟨t.val - 1, Nat.lt_of_le_of_lt (Nat.sub_le _ _) t.isLt⟩) = false := by
        rw [← Bool.not_eq_true, idle3]; exact not_not.mpr hd
      have hidle' : cfg1.idle 3 (cfg1.grid.coords ⟨t.val - 1, Nat.lt_of_le_of_lt (Nat.sub_le _ _) t.isLt⟩) = false := hidle
      rw [hidle']
      unfold Dat.kept
      rw [after1_3]
      show (cfg1.win 3).fill _ d ((cfg1.win 3).cut _ (outRow V c ⟨t.val - 1, _⟩)) = _
      rw [Pipeline.fill_of_clip_none (cfg := cfg1) 3 _ (fun _ => rfl) d (outRow V c ⟨t.val - 1, Nat.lt_of_le_of_lt (Nat.sub_le _ _) t.isLt⟩), Window.fill_cut]
      unfold outRow
      show outOf (scrAt V c (5 * ((t.val - 1) / 4) + 1)) = outOf (scrAt V c (5 * (t.val / 4) + 1))
      have : (t.val - 1) / 4 = t.val / 4 := by omega
      rw [this]
    · have hidle : idle1 3 (grid1.coords ⟨t.val - 1, Nat.lt_of_le_of_lt (Nat.sub_le _ _) t.isLt⟩) = true := by
        rw [idle3]; exact hd
      have hidle' : cfg1.idle 3 (cfg1.grid.coords ⟨t.val - 1, Nat.lt_of_le_of_lt (Nat.sub_le _ _) t.isLt⟩) = true := hidle
      rw [hidle']
      rw [ih (t.val - 1) (by omega) ⟨t.val - 1, Nat.lt_of_le_of_lt (Nat.sub_le _ _) t.isLt⟩ rfl (by show (t.val - 1) / 4 < (t.val - 1) % 4; omega) d]
      unfold outRow
      show outOf (scrAt V c (5 * ((t.val - 1) / 4) + 1)) = outOf (scrAt V c (5 * (t.val / 4) + 1))
      have : (t.val - 1) / 4 = t.val / 4 := by omega
      rw [this]

end Region1

end Cert.Kernel.Hand

end
-- ==== Proof.KRegion1Body.lean ====
/-
  The attention region's body obligation: at every grid point, from the invariant and the windows' buffers, the body runs
  to the invariant at the next point and the buffers at what the proof data say — by the case the point falls in (key
  block 0 or later; below, on or above the diagonal), each case one of the five symbolic runs.
-/
import proofs.«164044_j26826365731266_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Body

variable (V : (c : Dev nD) → (b : Ref sig .tc) → Buf (Elt F) ((c : Thread nD τ).loc b))

/-- What the body obligation asks of the output window's buffer after point t: on the diagonal the row's output block;
    off it, untouched — named again as the output block where the point writes it back. -/
def post3 (c : Dev nD) (t : Fin cfg1.N) : sProp 𝕄 :=
  match cfg1.idle 3 (cfg1.grid.coords t) with
  | true =>
    match (cfg1.win 3).flush t with
    | false => iprop(∃ d, owns (c : Thread nD τ) (st1_3 t) fullShare ((dat1 V c).before 3 t d))
    | true => owns (c : Thread nD τ) (st1_3 t) fullShare ((dat1 V c).after 3 t)
  | false => owns (c : Thread nD τ) (st1_3 t) fullShare ((dat1 V c).after 3 t)

set_option maxHeartbeats 4000000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ post3 V c t)) := by
  have hlt := t_lt t
  have h1 := hc1 t; have h2 := hc2 t; have h3 := hc3 t
  rw [Phi_eq1, Phi_eq1, show (dat1 V c).owesAt () t.succ = (dat1 V c).owesAt () t.castSucc from rfl]
  simp only [before1_0, before1_1, before1_2, after1_0, after1_1, after1_2]
  unfold Phi1 bodyAt1 post3
  by_cases hk0 : t.val % 4 = 0
  · have c1 : cond1 (grid1.coords t) := h1.mpr hk0
    by_cases hq0 : t.val / 4 = 0
    · -- the first query block's diagonal point
      have c2 : ¬cond2 (grid1.coords t) := fun h => by have := h2.mp h; omega
      have c3 : cond3 (grid1.coords t) := h3.mpr (by omega)
      have hidle : cfg1.idle 3 (cfg1.grid.coords t) = false :=
        Bool.eq_false_iff.mpr fun h => (idle3 t).mp h (by omega)
      rw [hidle]; dsimp only
      iintro ⟨⟨Hp, Hrest, ⟨%s, %hs, Hm, Hl, Ha⟩⟩, Ho, ⟨%d0, H0⟩, ⟨%d1, H1⟩, ⟨%d2, H2⟩, ⟨%d3, H3⟩⟩
      iapply (run_first_diag c Set.univ (grid1.coords t) _ _ _ _ _ _ _ _ _ _ _ _ _ _ c1 c2 c3 (iblk1 V c 0 t) (iblk1 V c 1 t) (iblk1 V c 2 t) s ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (diag (BitVec.ofNat 32 (grid1.coords t 0).val) (BitVec.ofNat 32 (grid1.coords t 1).val) (iblk1 V c 0 t) (iblk1 V c 1 t) (iblk1 V c 2 t) initS); isplitr
        · ipureintro; intro _
          rw [Fin.val_succ, scrAt_succ]
          simp only [step, if_pos c1, if_pos c3]
        isplitl [Hm]; · iexact Hm
        isplitl [Hl]; · iexact Hl
        iexact Ha
      isplitl [Ho]; · iexact Ho
      isplitl [H0]; · iexact H0
      isplitl [H1]; · iexact H1
      isplitl [H2]; · iexact H2
      rw [after1_3]; unfold outRow
      have e : 5 * (t.val / 4) + 1 = t.val + 1 := by omega
      rw [e, scrAt_succ]; simp only [step, if_pos c1, if_pos c3]
      iexact H3
    · -- key block 0 below the diagonal
      have c2 : cond2 (grid1.coords t) := h2.mpr (by omega)
      have c3 : ¬cond3 (grid1.coords t) := fun h => by have := h3.mp h; omega
      have hidle : cfg1.idle 3 (cfg1.grid.coords t) = true := (idle3 t).mpr (by omega)
      have hfl : (cfg1.win 3).flush t = false := by rw [← Bool.not_eq_true, flush1_3]; omega
      rw [hidle, hfl]; dsimp only
      iintro ⟨⟨Hp, Hrest, ⟨%s, %hs, Hm, Hl, Ha⟩⟩, Ho, ⟨%d0, H0⟩, ⟨%d1, H1⟩, ⟨%d2, H2⟩, ⟨%d3, H3⟩⟩
      iapply (run_first_below c Set.univ (grid1.coords t) _ _ _ _ _ _ _ _ _ _ _ _ _ _ c1 c2 c3 (iblk1 V c 0 t) (iblk1 V c 1 t) (iblk1 V c 2 t) s ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (below (iblk1 V c 0 t) (iblk1 V c 1 t) (iblk1 V c 2 t) initS); isplitr
        · ipureintro; intro _
          rw [Fin.val_succ, scrAt_succ]
          simp only [step, if_pos c1, if_neg c3]
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
  · have c1 : ¬cond1 (grid1.coords t) := fun h => hk0 (h1.mp h)
    have ht0 : t.castSucc.val ≠ 0 := by rw [Fin.coe_castSucc]; omega
    by_cases hb : t.val % 4 < t.val / 4
    · -- a later key block below the diagonal
      have c2 : cond2 (grid1.coords t) := h2.mpr hb
      have c3 : ¬cond3 (grid1.coords t) := fun h => by have := h3.mp h; omega
      have hidle : cfg1.idle 3 (cfg1.grid.coords t) = true := (idle3 t).mpr (by omega)
      have hfl : (cfg1.win 3).flush t = false := by rw [← Bool.not_eq_true, flush1_3]; omega
      rw [hidle, hfl]; dsimp only
      iintro ⟨⟨Hp, Hrest, ⟨%s, %hs, Hm, Hl, Ha⟩⟩, Ho, ⟨%d0, H0⟩, ⟨%d1, H1⟩, ⟨%d2, H2⟩, ⟨%d3, H3⟩⟩
      obtain rfl : s = scrAt V c t.val := by have := hs ht0; rwa [Fin.coe_castSucc] at this
      iapply (run_below c Set.univ (grid1.coords t) _ _ _ _ _ _ _ _ _ _ _ _ _ _ c1 c2 c3 (iblk1 V c 0 t) (iblk1 V c 1 t) (iblk1 V c 2 t) (scrAt V c t.val) ((dat1 V c).before 3 t d3) _)
      isplitl [H0]; · iexact H0
      isplitl [H1]; · iexact H1
      isplitl [H2]; · iexact H2
      isplitl [H3]; · iexact H3
      isplitl [Hm]; · iexact Hm
      isplitl [Hl]; · iexact Hl
      isplitl [Ha]; · iexact Ha
      iintro ⟨H0, H1, H2, H3, Hm, Hl, Ha⟩
      isplitl [Hp Hrest Hm Hl Ha]
      · isplitl [Hp]; · iexact Hp
        isplitl [Hrest]; · iexact Hrest
        iexists (below (iblk1 V c 0 t) (iblk1 V c 1 t) (iblk1 V c 2 t) (scrAt V c t.val)); isplitr
        · ipureintro; intro _
          rw [Fin.val_succ, scrAt_succ]
          simp only [step, if_neg c1, if_pos c2]
        isplitl [Hm]; · iexact Hm
        isplitl [Hl]; · iexact Hl
        iexact Ha
      isplitl [Ho]; · iexact Ho
      isplitl [H0]; · iexact H0
      isplitl [H1]; · iexact H1
      isplitl [H2]; · iexact H2
      iexists d3; iexact H3
    · by_cases hd : t.val % 4 = t.val / 4
      · -- a later diagonal point
        have c2 : ¬cond2 (grid1.coords t) := fun h => hb (h2.mp h)
        have c3 : cond3 (grid1.coords t) := h3.mpr hd
        have hidle : cfg1.idle 3 (cfg1.grid.coords t) = false :=
          Bool.eq_false_iff.mpr fun h => (idle3 t).mp h hd
        rw [hidle]; dsimp only
        iintro ⟨⟨Hp, Hrest, ⟨%s, %hs, Hm, Hl, Ha⟩⟩, Ho, ⟨%d0, H0⟩, ⟨%d1, H1⟩, ⟨%d2, H2⟩, ⟨%d3, H3⟩⟩
        obtain rfl : s = scrAt V c t.val := by have := hs ht0; rwa [Fin.coe_castSucc] at this
        iapply (run_diag c Set.univ (grid1.coords t) _ _ _ _ _ _ _ _ _ _ _ _ _ _ c1 c2 c3 (iblk1 V c 0 t) (iblk1 V c 1 t) (iblk1 V c 2 t) (scrAt V c t.val) ((dat1 V c).before 3 t d3) _)
        isplitl [H0]; · iexact H0
        isplitl [H1]; · iexact H1
        isplitl [H2]; · iexact H2
        isplitl [H3]; · iexact H3
        isplitl [Hm]; · iexact Hm
        isplitl [Hl]; · iexact Hl
        isplitl [Ha]; · iexact Ha
        iintro ⟨H0, H1, H2, H3, Hm, Hl, Ha⟩
        isplitl [Hp Hrest Hm Hl Ha]
        · isplitl [Hp]; · iexact Hp
          isplitl [Hrest]; · iexact Hrest
          iexists (diag (BitVec.ofNat 32 (grid1.coords t 0).val) (BitVec.ofNat 32 (grid1.coords t 1).val) (iblk1 V c 0 t) (iblk1 V c 1 t) (iblk1 V c 2 t) (scrAt V c t.val)); isplitr
          · ipureintro; intro _
            rw [Fin.val_succ, scrAt_succ]
            simp only [step, if_neg c1, if_neg c2, if_pos c3]
          isplitl [Hm]; · iexact Hm
          isplitl [Hl]; · iexact Hl
          iexact Ha
        isplitl [Ho]; · iexact Ho
        isplitl [H0]; · iexact H0
        isplitl [H1]; · iexact H1
        isplitl [H2]; · iexact H2
        rw [after1_3]; unfold outRow
        have e : 5 * (t.val / 4) + 1 = t.val + 1 := by omega
        rw [e, scrAt_succ]; simp only [step, if_neg c1, if_neg c2, if_pos c3]
        iexact H3
      · -- above the diagonal
        have c2 : ¬cond2 (grid1.coords t) := fun h => hb (h2.mp h)
        have c3 : ¬cond3 (grid1.coords t) := fun h => hd (h3.mp h)
        have hidle : cfg1.idle 3 (cfg1.grid.coords t) = true := (idle3 t).mpr hd
        have habove : t.val / 4 < t.val % 4 := by omega
        by_cases hf : t.val % 4 = 3
        · have hfl : (cfg1.win 3).flush t = true := by rw [flush1_3]; exact hf
          rw [hidle, hfl]; dsimp only
          iintro ⟨⟨Hp, Hrest, ⟨%s, %hs, Hm, Hl, Ha⟩⟩, Ho, ⟨%d0, H0⟩, ⟨%d1, H1⟩, ⟨%d2, H2⟩, ⟨%d3, H3⟩⟩
          obtain rfl : s = scrAt V c t.val := by have := hs ht0; rwa [Fin.coe_castSucc] at this
          iapply (run_above c Set.univ (grid1.coords t) _ _ _ _ _ _ _ _ _ _ _ _ _ _ c1 c2 c3 (iblk1 V c 0 t) (iblk1 V c 1 t) (iblk1 V c 2 t) (scrAt V c t.val) ((dat1 V c).before 3 t d3) _)
          isplitl [H0]; · iexact H0
          isplitl [H1]; · iexact H1
          isplitl [H2]; · iexact H2
          isplitl [H3]; · iexact H3
          isplitl [Hm]; · iexact Hm
          isplitl [Hl]; · iexact Hl
          isplitl [Ha]; · iexact Ha
          iintro ⟨H0, H1, H2, H3, Hm, Hl, Ha⟩
          isplitl [Hp Hrest Hm Hl Ha]
          · isplitl [Hp]; · iexact Hp
            isplitl [Hrest]; · iexact Hrest
            iexists (scrAt V c t.val); isplitr
            · ipureintro; intro _
              rw [Fin.val_succ, scrAt_succ]
              simp only [step, if_neg c1, if_neg c2, if_neg c3]
            isplitl [Hm]; · iexact Hm
            isplitl [Hl]; · iexact Hl
            iexact Ha
          isplitl [Ho]; · iexact Ho
          isplitl [H0]; · iexact H0
          isplitl [H1]; · iexact H1
          isplitl [H2]; · iexact H2
          rw [before1_3_above V c t.val t rfl habove d3, after1_3]
          iexact H3
        · have hfl : (cfg1.win 3).flush t = false := by rw [← Bool.not_eq_true, flush1_3]; exact hf
          rw [hidle, hfl]; dsimp only
          iintro ⟨⟨Hp, Hrest, ⟨%s, %hs, Hm, Hl, Ha⟩⟩, Ho, ⟨%d0, H0⟩, ⟨%d1, H1⟩, ⟨%d2, H2⟩, ⟨%d3, H3⟩⟩
          obtain rfl : s = scrAt V c t.val := by have := hs ht0; rwa [Fin.coe_castSucc] at this
          iapply (run_above c Set.univ (grid1.coords t) _ _ _ _ _ _ _ _ _ _ _ _ _ _ c1 c2 c3 (iblk1 V c 0 t) (iblk1 V c 1 t) (iblk1 V c 2 t) (scrAt V c t.val) ((dat1 V c).before 3 t d3) _)
          isplitl [H0]; · iexact H0
          isplitl [H1]; · iexact H1
          isplitl [H2]; · iexact H2
          isplitl [H3]; · iexact H3
          isplitl [Hm]; · iexact Hm
          isplitl [Hl]; · iexact Hl
          isplitl [Ha]; · iexact Ha
          iintro ⟨H0, H1, H2, H3, Hm, Hl, Ha⟩
          isplitl [Hp Hrest Hm Hl Ha]
          · isplitl [Hp]; · iexact Hp
            isplitl [Hrest]; · iexact Hrest
            iexists (scrAt V c t.val); isplitr
            · ipureintro; intro _
              rw [Fin.val_succ, scrAt_succ]
              simp only [step, if_neg c1, if_neg c2, if_neg c3]
            isplitl [Hm]; · iexact Hm
            isplitl [Hl]; · iexact Hl
            iexact Ha
          isplitl [Ho]; · iexact Ho
          isplitl [H0]; · iexact H0
          isplitl [H1]; · iexact H1
          isplitl [H2]; · iexact H2
          iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Body

end Cert.Kernel.Hand

end
-- ==== Proof.KRun.lean ====
/-
  The whole run: @main is the projection region followed by the attention region, nothing else. The buffer contents at
  the two region boundaries are a fold from the launch memory (each region's arrays at what its write-backs leave, every
  other buffer as it was); the launch theorem for a list of regions then gives: every weakly fair execution terminates,
  and every unscoped buffer ends at the last boundary's contents — the arguments as launched, the result array at what
  the attention region's write-backs leave.
-/
import proofs.«164044_j26826365731266_2_alg».proof.Proof.KRegion0
import proofs.«164044_j26826365731266_2_alg».proof.Proof.KRegion1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core c's buffers at launch. -/
abbrev W0 : Dev nD → Valuation τ sig (Elt F) := fun c b => m ((c : Dev nD), b)
abbrev V1 : (c : Dev nD) → (b : Ref sig .tc) → Buf (Elt F) ((c : Thread nD τ).loc b) := fun c b => W0 m c b
/-- After the projection region: its arrays at what the pipeline leaves, every other buffer as entered. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Argument 0 ends as launched: the attention region does not stage it, and the projection region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl

/-- Argument 1 ends as launched: the attention region does not stage it, and the projection region only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl

/-- Argument 2 ends as launched: the attention region does not stage it, and the projection region only reads it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl

/-- Argument 3 ends as launched: the attention region does not stage it, and the projection region only reads it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W0 m c (Proc.devRef .tc main_arg3) := (W2_arr m c 3).trans (((dat0 (V1 m) c).arrAt_in 3 rfl _).trans (A_eq0 (V1 m) c 3))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- A whole buffer owned at some contents is held at some contents. -/
theorem owns_whole_ex (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole]; iintro H; iexists X; iexact H

/-! ## The regions as segments -/

set_option backward.isDefEq.respectTransparency.types false in
/-- The projection region: entered from every unscoped buffer at the launch contents, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W2, left at W3. The scratch arrays come out of the scoped
    buffers no window stages at the first point and go back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (V2 m) c 0 from Phi_eq1 (V2 m) c 0]; unfold Phi1
    have e : (Pipeline.scopedRest (Ix := Unit) (Name := ℕ) (U := UR sig nD τ) (Lvl := ℕ) (Val := Elt F) (Pipeline.pin (pcfgs (F := F)) adm 1).spec c : sProp 𝕄) = _ :=
      scopedRest1_eq (Ix := Unit) (Val := Elt F) (Name := ℕ) (U := UR sig nD τ) (Lvl := ℕ) c
    rw [e]
    iintro ⟨Hp, -, H1, H2, H3, H4, H5, H6, H7, H8, H9, H10, H11, ⟨%f0, Hs0⟩, ⟨%f1, Hs1⟩, ⟨%f2, Hs2⟩⟩
    isplitl [Hp]; · iexact Hp
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexists (⟨f0, f1, f2⟩ : Scr F)
    isplitr; · ipureintro; intro h; exact absurd rfl h
    rw [owns_whole, owns_whole, owns_whole]
    isplitl [Hs0]; · iexact Hs0
    isplitl [Hs1]; · iexact Hs1
    iexact Hs2
  hout c := by
    rw [Pipeline.ownSems0_none, show (pdats m 1 c).Φ (Fin.last _) = Phi1 (V2 m) c (Fin.last _) from Phi_eq1 (V2 m) c _]; unfold Phi1
    have e : (Pipeline.scopedRest (Ix := Unit) (Name := ℕ) (U := UR sig nD τ) (Lvl := ℕ) (Val := Elt F) (Pipeline.pin (pcfgs (F := F)) adm 1).spec c : sProp 𝕄) = _ :=
      scopedRest1_eq (Ix := Unit) (Val := Elt F) (Name := ℕ) (U := UR sig nD τ) (Lvl := ℕ) c
    rw [e]
    iintro ⟨Hp, ⟨H1, H2, H3, H4, H5, H6, H7, H8, H9, H10, H11⟩, ⟨%s, -, Hs0, Hs1, Hs2⟩⟩
    isplitl [Hp]; · iexact Hp
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hs0]; · iapply (owns_whole_ex c cc1_scratch0 s.m); iexact Hs0
    isplitl [Hs1]; · iapply (owns_whole_ex c cc1_scratch1 s.l); iexact Hs1
    iapply (owns_whole_ex c cc1_scratch2 s.a); iexact Hs2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

abbrev segs : List (Pipeline.Seg (pcfgs (F := F)) adm (pdats m) () defs₀ 𝒱₀ L lv) :=
  [ .region (reg0 m), .region (reg1 m) ]

set_option backward.isDefEq.respectTransparency.types false in
/-- THE RUN. From any memory with zero counters, every weakly fair execution of @main terminates, nothing faulting, and
    every unscoped buffer of every core ends at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched; and the result array ends at what the attention region's
    write-backs leave. -/
theorem run_post : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.Kernel.Hand

end
-- ==== Proof.AttnReads.lean ====
/-
  The attention body's pure values read at an index, at the ideal values (floats are extended reals, every operation
  exact, a change of format the identity). One query row r of the block against the block's keys j:
    the score  s r j = (∑_e q r e · k j e) · 2⁻⁵;   the row maximum, the row sum, the column and row broadcasts that
  carry the running shift, normaliser and numerator; the product of the weights with the values.
-/
import proofs.«164044_j26826365731266_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reads

open Cert.KernelIdeal Cert.KernelIdeal.Gen Idealize.ShloMosaic Idealize.ShloMosaic.ValueIdx

/-! ## Column forms and row reductions of a 1024 × 1024 matrix -/

/-- A vector of 1024 entries as a column: entry (r, 0) is entry r. -/
theorem cast_col {α : Type} (x : S1024.Idx → α) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_two, Shape.rowMajor_val_one]
    show r.val = r.val * 1 + u.val
    omega)

/-- A column broadcast along the rows: entry (r, j) is the column's entry (r, 0). -/
theorem bcast_col {α : Type} (v : S1024x1.Idx → α) (h : S1024x1.Broadcasts S1024x1024) (r j : Fin 1024) :
    broadcastTo S1024x1024 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The index a row reduction reads: row r, coordinate j. -/
theorem lift_row (h : S1024x1024.Reduces [1] S1024) (r j : Fin 1024) : h.lift (ix1 r) j = ix2 r j :=
  funext fun a => Fin.ext (by match a with | ⟨0, _⟩ => rfl | ⟨1, _⟩ => rfl)

/-- A row sum: entry r is the sum of row r. -/
theorem rowsum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 1024, src (ix2 r j) :=
  (Ideal.multiReduction_add_single src 0x00000000#32 h hφ hacc (ix1 r)).trans
    (Finset.sum_congr rfl fun j _ => congrArg src (lift_row h r j))

/-- The word 0xFF800000 denotes -∞. -/
theorem ofBits_neg_inf_f32 : Ideal.ofBits .f32 0xFF800000#32 = ⊥ := by simp [Ideal.ofBits, Ideal.ieee]

/-- A row maximum: entry r is the supremum of row r (from -∞). -/
theorem rowmax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r) = Finset.univ.sup fun j : Fin 1024 => src (ix2 r j) := by
  refine (Ideal.multiReduction_maximumf_single src 0xFF800000#32 h hφ hacc (ix1 r)).trans ?_
  show Finset.fold max (Ideal.ofBits .f32 0xFF800000#32) (src ∘ h.lift (ix1 r)) Finset.univ = _
  have e : (src ∘ h.lift (ix1 r)) = fun j : Fin 1024 => src (ix2 r j) := funext fun j => congrArg src (lift_row h r j)
  rw [e, ofBits_neg_inf_f32]
  rfl

/-! ## The matrix product of two 1024 × 1024 blocks -/

theorem lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into a zero accumulator: entry (r, f) is the sum over e of X (r, e) · W (e, f). -/
theorem mm_apply {φ₁ φ₂ : FTy} (X : FVec Ideal S1024x1024 φ₁) (W : FVec Ideal S1024x1024 φ₂) (r f : Fin 1024) :
    matmul (F := Ideal) dot_S1024x1024_S1024x1024_S1024x1024_1_0_0_1_n_n none X W (constant S1024x1024 .f32 0x00000000#32) (ix2 r f)
      = ∑ e : Fin 1024, X (ix2 r e) * W (ix2 e f) := by
  refine (Ideal.matmul_constant_zero_apply dot_S1024x1024_S1024x1024_S1024x1024_1_0_0_1_n_n none X W (ix2 r f)).trans ?_
  rw [← Equiv.sum_comp (contrEquiv1 dot_S1024x1024_S1024x1024_S1024x1024_1_0_0_1_n_n 1024 rfl rfl).symm]
  refine Finset.sum_congr rfl fun e _ => ?_
  have hk := contrEquiv1_symm_val dot_S1024x1024_S1024x1024_S1024x1024_1_0_0_1_n_n 1024 rfl rfl e
  have el : dot_S1024x1024_S1024x1024_S1024x1024_1_0_0_1_n_n.lhsIdx (ix2 r f) ((contrEquiv1 dot_S1024x1024_S1024x1024_S1024x1024_1_0_0_1_n_n 1024 rfl rfl).symm e) = ix2 r e :=
    funext fun a => Fin.ext (by
      match a with
      | ⟨0, _⟩ => exact lhs0 _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r f) ((contrEquiv1 dot_S1024x1024_S1024x1024_S1024x1024_1_0_0_1_n_n 1024 rfl rfl).symm e) = ix2 e f :=
    funext fun a => Fin.ext (by
      match a with
      | ⟨0, _⟩ => exact (dot_S1024x1024_S1024x1024_S1024x1024_1_0_0_1_n_n.rhsIdx_val_of_single rfl _ _).trans hk
      | ⟨1, _⟩ => exact rhs1 _ _)
  rw [el, er]

/-! ## The body's pure values at an index -/

section Payloads

variable (q k v : Vec Ideal S1024x1024 .bf16) (m m' l : Vec Ideal S1024x1 .f32) (a : Vec Ideal S1024x1024 .f32)

/-- The score of query row r against key row j of the blocks: (∑_e q r e · k j e) · 2⁻⁵. -/
def sc (r j : Fin 1024) : EReal := (∑ e : Fin 1024, q (ix2 r e) * k (ix2 j e)) * Ideal.ofBits .f32 0x3D000000#32

theorem pay9_apply (r j : Fin 1024) : k1_pay9 (F := Ideal) q k (ix2 r j) = sc q k r j := by
  unfold k1_pay9 sc
  try dsimp only
  refine (mulf_apply _ _ _).trans ?_
  refine congrArg₂ (· * ·) ?_ rfl
  refine (mm_apply _ _ r j).trans ?_
  refine Finset.sum_congr rfl fun e _ => ?_
  rw [shapeCast_self, transpose_ix2_apply, shapeCast_self]

/-- The new shift of row r: the old one against the row's largest score. -/
theorem pay10_apply (r : Fin 1024) (u : Fin 1) :
    k1_pay10 (F := Ideal) q k m (ix2 r u) = max (m (ix2 r u)) (Finset.univ.sup fun j : Fin 1024 => sc q k r j) := by
  unfold k1_pay10
  try dsimp only
  refine (maximumf_apply _ _ _).trans ?_
  refine congrArg (max (m (ix2 r u))) ?_
  refine (cast_col _ _ r u).trans ?_
  refine (rowmax_apply _ _ _ _ r).trans ?_
  exact congrArg Finset.univ.sup (funext fun j => pay9_apply q k r j)

theorem pay11_apply (r : Fin 1024) (u : Fin 1) :
    k1_pay11 (F := Ideal) q k m m' (ix2 r u) = Ideal.exp (m' (ix2 r u) - k1_pay10 (F := Ideal) q k m (ix2 r u)) := rfl

theorem pay12_apply (r j : Fin 1024) :
    k1_pay12 (F := Ideal) q k m (ix2 r j) = Ideal.exp (sc q k r j - k1_pay10 (F := Ideal) q k m (ix2 r (0 : Fin 1))) := by
  unfold k1_pay12
  try dsimp only
  refine congrArg Ideal.exp ?_
  refine (subf_apply _ _ _).trans ?_
  rw [bcast_col, pay9_apply]

theorem pay13_apply (r : Fin 1024) (u : Fin 1) :
    k1_pay13 (F := Ideal) q k m m' l (ix2 r u)
      = k1_pay11 (F := Ideal) q k m m' (ix2 r u) * l (ix2 r u) + ∑ j : Fin 1024, k1_pay12 (F := Ideal) q k m (ix2 r j) := by
  unfold k1_pay13
  try dsimp only
  refine (congrFun (shapeCast_self _ _) _).trans ?_
  refine (addf_apply _ _ _).trans ?_
  refine congrArg₂ (· + ·) (mulf_apply _ _ _) ?_
  refine (cast_col _ _ r u).trans ?_
  exact rowsum_apply _ _ _ _ r

theorem pay14_apply (r d : Fin 1024) :
    k1_pay14 (F := Ideal) q k m m' a v (ix2 r d)
      = k1_pay11 (F := Ideal) q k m m' (ix2 r (0 : Fin 1)) * a (ix2 r d) + ∑ j : Fin 1024, k1_pay12 (F := Ideal) q k m (ix2 r j) * v (ix2 j d) := by
  unfold k1_pay14
  try dsimp only
  refine (addf_apply _ _ _).trans ?_
  refine congrArg₂ (· + ·) ?_ ?_
  · refine (mulf_apply _ _ _).trans ?_
    rw [bcast_col]
  · refine (mm_apply _ _ r d).trans ?_
    refine Finset.sum_congr rfl fun j _ => ?_
    rw [shapeCast_self]
    rfl

theorem pay4_eq (x : FVec Ideal S1024x1024 .f32) : k1_pay4 (F := Ideal) x = x := shapeCast_self _ _
theorem pay5_eq (x : FVec Ideal S1024x1 .f32) : k1_pay5 (F := Ideal) x = x := shapeCast_self _ _
theorem pay7_eq (x : FVec Ideal S1024x1 .f32) : k1_pay7 (F := Ideal) x = x := shapeCast_self _ _

/-- The output block: numerator over normaliser, row by row. -/
theorem pay8_apply (r d : Fin 1024) : k1_pay8 (F := Ideal) a l (ix2 r d) = Ideal.div (a (ix2 r d)) (l (ix2 r (0 : Fin 1))) := by
  unfold k1_pay8
  refine (divf_apply _ _ _).trans ?_
  rw [bcast_col]

/-! ### The diagonal block: the scores masked to the keys not after the query -/

variable (a0 a1 : BitVec 32)

/-- The mask bit at (r, j): query position a0·1024 + r against key position a1·1024 + j, as signed 32-bit words. -/
def maskbit (r j : Fin 1024) : BitVec 1 :=
  IntOp.cmpi .sge (IntOp.addi (Scalar.muli a0 1024#32) (BitVec.ofNat 32 (0 * 1024 + r.val)))
    (IntOp.addi (Scalar.muli a1 1024#32) (BitVec.ofNat 32 (0 * 1024 + j.val)))

/-- The masked score: the score where the bit is set, -∞ where it is not. -/
def msc (r j : Fin 1024) : EReal := Scalar.select (maskbit a0 a1 r j) (sc q k r j) ⊥

theorem pay15_apply (r j : Fin 1024) : k1_pay15 (F := Ideal) a0 a1 q k (ix2 r j) = msc q k a0 a1 r j := by
  unfold k1_pay15 msc
  try dsimp only
  refine (select_apply _ _ _ _).trans ?_
  refine congr (congrArg₂ Scalar.select rfl ?_) rfl
  exact pay9_apply q k r j

theorem pay16_apply (r : Fin 1024) (u : Fin 1) :
    k1_pay16 (F := Ideal) a0 a1 q k m (ix2 r u) = max (m (ix2 r u)) (Finset.univ.sup fun j : Fin 1024 => msc q k a0 a1 r j) := by
  unfold k1_pay16
  try dsimp only
  refine (maximumf_apply _ _ _).trans ?_
  refine congrArg (max (m (ix2 r u))) ?_
  refine (cast_col _ _ r u).trans ?_
  refine (rowmax_apply _ _ _ _ r).trans ?_
  exact congrArg Finset.univ.sup (funext fun j => pay15_apply q k a0 a1 r j)

theorem pay17_apply (r : Fin 1024) (u : Fin 1) :
    k1_pay17 (F := Ideal) a0 a1 q k m m' (ix2 r u) = Ideal.exp (m' (ix2 r u) - k1_pay16 (F := Ideal) a0 a1 q k m (ix2 r u)) := rfl

theorem pay18_apply (r j : Fin 1024) :
    k1_pay18 (F := Ideal) a0 a1 q k m (ix2 r j) = Ideal.exp (msc q k a0 a1 r j - k1_pay16 (F := Ideal) a0 a1 q k m (ix2 r (0 : Fin 1))) := by
  unfold k1_pay18
  try dsimp only
  refine congrArg Ideal.exp ?_
  refine (subf_apply _ _ _).trans ?_
  rw [bcast_col, pay15_apply]

theorem pay19_apply (r : Fin 1024) (u : Fin 1) :
    k1_pay19 (F := Ideal) a0 a1 q k m m' l (ix2 r u)
      = k1_pay17 (F := Ideal) a0 a1 q k m m' (ix2 r u) * l (ix2 r u) + ∑ j : Fin 1024, k1_pay18 (F := Ideal) a0 a1 q k m (ix2 r j) := by
  unfold k1_pay19
  try dsimp only
  refine (congrFun (shapeCast_self _ _) _).trans ?_
  refine (addf_apply _ _ _).trans ?_
  refine congrArg₂ (· + ·) (mulf_apply _ _ _) ?_
  refine (cast_col _ _ r u).trans ?_
  exact rowsum_apply _ _ _ _ r

theorem pay6_apply (e : FVec Ideal S1024x1 .f32) (p : FVec Ideal S1024x1024 .f32) (r d : Fin 1024) :
    k1_pay6 (F := Ideal) e p a v (ix2 r d) = e (ix2 r (0 : Fin 1)) * a (ix2 r d) + ∑ j : Fin 1024, p (ix2 r j) * v (ix2 j d) := by
  unfold k1_pay6
  try dsimp only
  refine (congrFun (shapeCast_self _ _) _).trans ?_
  refine (addf_apply _ _ _).trans ?_
  refine congrArg₂ (· + ·) ?_ ?_
  · refine (mulf_apply _ _ _).trans ?_
    rw [bcast_col]
  · refine (mm_apply _ _ r d).trans ?_
    refine Finset.sum_congr rfl fun j _ => ?_
    rw [shapeCast_self]
    rfl

end Payloads

end Cert.KernelIdeal.Reads

end
-- ==== Proof.LibOnlineSoftmax.lean ====
/-
  Online softmax, as a general fact about extended reals.

  A softmax-weighted average  (∑_{j∈J} e^{t j} v j) / (∑_{j∈J} e^{t j})  over a finite key set J can be accumulated one
  block of keys at a time, carrying a running shift m, a running normaliser l and a running numerator a:

      m' = max m (max over the block of its scores),   l' = e^{m - m'} · l + ∑_block e^{s j - m'},
      a' = e^{m - m'} · a + ∑_block e^{s j - m'} · v j,

  started at m = -∞, l = 0, a = 0, where a masked key of a block carries the score -∞ (its weight e^{-∞} is 0).
  The invariant is that l and a are the sums of e^{t j - m} and e^{t j - m} · v j over the unmasked keys seen so far; it
  does not depend on m being the maximum, only on m being a real number once a key has been seen, because
  e^{m - m'} · e^{t - m} = e^{t - m'} for all reals. At the end a / l is the weighted average, the shift cancelling.

  The other half: a full softmax row (shift and normaliser over ALL keys), multiplied by a 0/1 mask and divided by the
  sum of what is left, is the same weighted average over the kept keys — the full normaliser and the shift cancel in
  the quotient.

  Everything is stated on the extended reals with the exact operations (sum, product, difference, max, the exponential
  with e^{-∞} = 0, and the quotient that is a product with the inverse for a nonzero real divisor), scores and values real.
-/
import Idealize.ShloMosaic.PureOps.Ideal

noncomputable section

namespace Cert.LibOnlineSoftmax

open Idealize.ShloMosaic

variable {ι : Type} [DecidableEq ι]

/-! ## Real sums inside the extended reals -/

/-- The coercion of a finite real sum is the sum of the coercions. -/
theorem coe_sum (S : Finset ι) (f : ι → ℝ) : ((∑ j ∈ S, f j : ℝ) : EReal) = ∑ j ∈ S, (f j : EReal) := by
  classical
  refine Finset.induction_on S (by simp) ?_
  intro a S ha ih
  rw [Finset.sum_insert ha, Finset.sum_insert ha, EReal.coe_add, ih]

/-! ## The shifted sums -/

/-- The normaliser over the keys J at shift μ: ∑ e^{t j - μ}. -/
def den (J : Finset ι) (t : ι → ℝ) (μ : ℝ) : ℝ := ∑ j ∈ J, Real.exp (t j - μ)

/-- The numerator over the keys J at shift μ: ∑ e^{t j - μ} · v j. -/
def num (J : Finset ι) (t v : ι → ℝ) (μ : ℝ) : ℝ := ∑ j ∈ J, Real.exp (t j - μ) * v j

/-- Changing the shift from μ to μ' multiplies the normaliser by e^{μ - μ'}. -/
theorem den_shift (J : Finset ι) (t : ι → ℝ) (μ μ' : ℝ) : Real.exp (μ - μ') * den J t μ = den J t μ' := by
  unfold den
  rw [Finset.mul_sum]
  refine Finset.sum_congr rfl fun j _ => ?_
  rw [← Real.exp_add]; congr 1; ring

/-- Changing the shift from μ to μ' multiplies the numerator by e^{μ - μ'}. -/
theorem num_shift (J : Finset ι) (t v : ι → ℝ) (μ μ' : ℝ) : Real.exp (μ - μ') * num J t v μ = num J t v μ' := by
  unfold num
  rw [Finset.mul_sum]
  refine Finset.sum_congr rfl fun j _ => ?_
  rw [← mul_assoc, ← Real.exp_add]; congr 2; ring

theorem den_pos {J : Finset ι} (hne : J.Nonempty) (t : ι → ℝ) (μ : ℝ) : 0 < den J t μ :=
  Finset.sum_pos (fun _ _ => Real.exp_pos _) hne

/-! ## One block of scores, some of them masked -/

/-- A block's exponentials at a real shift: a masked key (score -∞) weighs 0, so the block's sum is the real sum over
    its kept keys. -/
theorem sum_exp_masked (B : Finset ι) (keep : ι → Prop) [DecidablePred keep] (t : ι → ℝ) (s : ι → EReal)
    (hs : ∀ j ∈ B, s j = if keep j then (t j : EReal) else ⊥) (μ : ℝ) :
    ∑ j ∈ B, Ideal.exp (s j - (μ : EReal)) = ((den (B.filter keep) t μ : ℝ) : EReal) := by
  unfold den
  rw [coe_sum, Finset.sum_filter]
  refine Finset.sum_congr rfl fun j hj => ?_
  rw [hs j hj]
  by_cases hk : keep j
  · rw [if_pos hk, if_pos hk, ← EReal.coe_sub, Ideal.exp_coe]
  · rw [if_neg hk, if_neg hk, EReal.bot_sub, Ideal.exp_bot]

/-- The same with values: the block's weighted sum is the real weighted sum over its kept keys. -/
theorem sum_exp_mul_masked (B : Finset ι) (keep : ι → Prop) [DecidablePred keep] (t v : ι → ℝ) (s : ι → EReal)
    (hs : ∀ j ∈ B, s j = if keep j then (t j : EReal) else ⊥) (μ : ℝ) :
    ∑ j ∈ B, Ideal.exp (s j - (μ : EReal)) * (v j : EReal) = ((num (B.filter keep) t v μ : ℝ) : EReal) := by
  unfold num
  rw [coe_sum, Finset.sum_filter]
  refine Finset.sum_congr rfl fun j hj => ?_
  rw [hs j hj]
  by_cases hk : keep j
  · rw [if_pos hk, if_pos hk, ← EReal.coe_sub, Ideal.exp_coe, EReal.coe_mul]
  · rw [if_neg hk, if_neg hk, EReal.bot_sub, Ideal.exp_bot, zero_mul]

/-- The maximum of a block whose scores are reals or -∞ is a real or -∞. -/
theorem sup_real_or_bot (B : Finset ι) (s : ι → EReal) (hs : ∀ j ∈ B, s j = ⊥ ∨ ∃ r : ℝ, s j = (r : EReal)) :
    B.sup s = ⊥ ∨ ∃ ρ : ℝ, B.sup s = (ρ : EReal) := by
  classical
  induction B using Finset.induction_on with
  | empty => exact Or.inl Finset.sup_empty
  | insert a B ha ih =>
    rw [Finset.sup_insert]
    have h1 := hs a (Finset.mem_insert_self a B)
    have h2 := ih fun j hj => hs j (Finset.mem_insert_of_mem hj)
    rcases h1 with h1 | ⟨r, h1⟩ <;> rcases h2 with h2 | ⟨ρ, h2⟩
    · left; rw [h1, h2]; exact bot_sup_eq _
    · right; exact ⟨ρ, by rw [h1, h2]; exact bot_sup_eq _⟩
    · right; exact ⟨r, by rw [h1, h2]; exact sup_bot_eq _⟩
    · right; exact ⟨max r ρ, by rw [h1, h2]; exact (EReal.coe_strictMono.monotone.map_max).symm⟩

/-! ## The running state -/

/-- The running state (m, l, a) after the keys J: either nothing has been seen (m = -∞, l = a = 0), or m is a real
    shift and l, a are the normaliser and the numerator over J at that shift. -/
def State (J : Finset ι) (t v : ι → ℝ) (m l a : EReal) : Prop :=
  (m = ⊥ ∧ J = ∅ ∧ l = 0 ∧ a = 0) ∨
    ∃ μ : ℝ, m = (μ : EReal) ∧ l = ((den J t μ : ℝ) : EReal) ∧ a = ((num J t v μ : ℝ) : EReal)

/-- Before any key. -/
theorem State.init (t v : ι → ℝ) : State (∅ : Finset ι) t v ⊥ 0 0 := Or.inl ⟨rfl, rfl, rfl, rfl⟩

/-- ONE STEP. From the state after the keys J, a block B of new keys with scores s (a kept key's score its real score,
    a masked key's -∞), gives the state after J and B's kept keys — provided some key has been seen by then, so that
    the new shift is a real number. -/
theorem State.step {J B : Finset ι} {t v : ι → ℝ} {m l a : EReal} (h : State J t v m l a)
    (hd : Disjoint J B) (keep : ι → Prop) [DecidablePred keep] (s : ι → EReal)
    (hs : ∀ j ∈ B, s j = if keep j then (t j : EReal) else ⊥)
    (hne : m ≠ ⊥ ∨ (B.filter keep).Nonempty) :
    State (J ∪ B.filter keep) t v (max m (B.sup s))
      (Ideal.exp (m - max m (B.sup s)) * l + ∑ j ∈ B, Ideal.exp (s j - max m (B.sup s)))
      (Ideal.exp (m - max m (B.sup s)) * a + ∑ j ∈ B, Ideal.exp (s j - max m (B.sup s)) * (v j : EReal)) := by
  -- the new shift is a real number
  have hB : B.sup s = ⊥ ∨ ∃ ρ : ℝ, B.sup s = (ρ : EReal) :=
    sup_real_or_bot B s fun j hj => by
      rw [hs j hj]; by_cases hk : keep j
      · right; exact ⟨t j, if_pos hk⟩
      · left; exact if_neg hk
  obtain ⟨μ', hμ'⟩ : ∃ μ' : ℝ, max m (B.sup s) = (μ' : EReal) := by
    rcases h with ⟨hm, -, -, -⟩ | ⟨μ, hm, -, -⟩
    · rcases hne with hne | ⟨j, hj⟩
      · exact absurd hm hne
      · obtain ⟨hjB, hjk⟩ := Finset.mem_filter.mp hj
        have hle : ((t j : ℝ) : EReal) ≤ B.sup s := by
          have := Finset.le_sup (f := s) hjB
          rwa [hs j hjB, if_pos hjk] at this
        rcases hB with hB | ⟨ρ, hB⟩
        · rw [hB] at hle; exact absurd (le_bot_iff.mp hle) (EReal.coe_ne_bot _)
        · exact ⟨ρ, by rw [hm, hB]; exact bot_sup_eq _⟩
    · rcases hB with hB | ⟨ρ, hB⟩
      · exact ⟨μ, by rw [hm, hB]; exact sup_bot_eq _⟩
      · exact ⟨max μ ρ, by rw [hm, hB]; exact (EReal.coe_strictMono.monotone.map_max).symm⟩
  rw [hμ']
  have hdJ : Disjoint J (B.filter keep) := hd.mono_right (Finset.filter_subset _ _)
  refine Or.inr ⟨μ', rfl, ?_, ?_⟩
  · rw [sum_exp_masked B keep t s hs μ']
    rcases h with ⟨rfl, rfl, rfl, -⟩ | ⟨μ, rfl, rfl, -⟩
    · rw [EReal.bot_sub, Ideal.exp_bot, zero_mul, zero_add, Finset.empty_union]
    · rw [← EReal.coe_sub, Ideal.exp_coe, ← EReal.coe_mul, ← EReal.coe_add, den_shift]
      unfold den; rw [Finset.sum_union hdJ]
  · rw [sum_exp_mul_masked B keep t v s hs μ']
    rcases h with ⟨rfl, rfl, -, rfl⟩ | ⟨μ, rfl, -, rfl⟩
    · rw [EReal.bot_sub, Ideal.exp_bot, zero_mul, zero_add, Finset.empty_union]
    · rw [← EReal.coe_sub, Ideal.exp_coe, ← EReal.coe_mul, ← EReal.coe_add, num_shift]
      unfold num; rw [Finset.sum_union hdJ]

/-- ONE STEP, the block given by its own index type: a block of keys indexed by β and embedded among the keys, with
    its scores s (a kept key's its real score, a masked key's -∞) and its values w. The block's maximum and sums
    are then over β, as a kernel computes them. -/
theorem State.step_emb {β : Type} [Fintype β] {J : Finset ι} {t v : ι → ℝ} {m l a : EReal} (h : State J t v m l a)
    (emb : β ↪ ι) (hd : ∀ b, emb b ∉ J) (keep : ι → Prop) [DecidablePred keep] (s w : β → EReal)
    (hs : ∀ b, s b = if keep (emb b) then (t (emb b) : EReal) else ⊥) (hw : ∀ b, w b = (v (emb b) : EReal))
    (hne : m ≠ ⊥ ∨ ∃ b, keep (emb b)) :
    State (J ∪ (Finset.univ.map emb).filter keep) t v (max m (Finset.univ.sup s))
      (Ideal.exp (m - max m (Finset.univ.sup s)) * l + ∑ b, Ideal.exp (s b - max m (Finset.univ.sup s)))
      (Ideal.exp (m - max m (Finset.univ.sup s)) * a + ∑ b, Ideal.exp (s b - max m (Finset.univ.sup s)) * w b) := by
  classical
  have hsup : (Finset.univ.map emb).sup (fun i => if keep i then (t i : EReal) else ⊥) = Finset.univ.sup s := by
    rw [Finset.sup_map]; exact Finset.sup_congr rfl fun b _ => (hs b).symm
  have key := h.step (B := Finset.univ.map emb)
    (Finset.disjoint_right.mpr fun i hi => by
      obtain ⟨b, -, rfl⟩ := Finset.mem_map.mp hi; exact hd b)
    keep (fun i => if keep i then (t i : EReal) else ⊥) (fun _ _ => rfl)
    (hne.imp id fun ⟨b, hb⟩ => ⟨emb b, Finset.mem_filter.mpr ⟨Finset.mem_map_of_mem _ (Finset.mem_univ b), hb⟩⟩)
  rw [hsup, Finset.sum_map, Finset.sum_map] at key
  have e1 : ∑ b, Ideal.exp ((fun i => if keep i then (t i : EReal) else ⊥) (emb b) - max m (Finset.univ.sup s))
      = ∑ b, Ideal.exp (s b - max m (Finset.univ.sup s)) :=
    Finset.sum_congr rfl fun b _ => by rw [hs b]
  have e2 : ∑ b, Ideal.exp ((fun i => if keep i then (t i : EReal) else ⊥) (emb b) - max m (Finset.univ.sup s)) * ((v (emb b) : ℝ) : EReal)
      = ∑ b, Ideal.exp (s b - max m (Finset.univ.sup s)) * w b :=
    Finset.sum_congr rfl fun b _ => by rw [hs b, hw b]
  rw [e1, e2] at key
  exact key

/-- The normaliser after at least one key is a positive real: the final quotient divides by a nonzero number. -/
theorem State.den_real {J : Finset ι} {t v : ι → ℝ} {m l a : EReal} (h : State J t v m l a) (hne : J.Nonempty) :
    ∃ μ : ℝ, m = (μ : EReal) ∧ l = ((den J t μ : ℝ) : EReal) ∧ a = ((num J t v μ : ℝ) : EReal) ∧ 0 < den J t μ := by
  rcases h with ⟨-, rfl, -, -⟩ | ⟨μ, h1, h2, h3⟩
  · exact absurd hne (by simp)
  · exact ⟨μ, h1, h2, h3, den_pos hne t μ⟩

/-- The weighted average itself, with no shift. -/
def avg (J : Finset ι) (t v : ι → ℝ) : ℝ := (∑ j ∈ J, Real.exp (t j) * v j) / (∑ j ∈ J, Real.exp (t j))

/-- At any real shift, numerator over normaliser is the weighted average. -/
theorem num_div_den {J : Finset ι} (hne : J.Nonempty) (t v : ι → ℝ) (μ : ℝ) : num J t v μ * (1 / den J t μ) = avg J t v := by
  have e1 : den J t μ = Real.exp (-μ) * ∑ j ∈ J, Real.exp (t j) := by
    unfold den; rw [Finset.mul_sum]; refine Finset.sum_congr rfl fun j _ => ?_
    rw [← Real.exp_add]; congr 1; ring
  have e2 : num J t v μ = Real.exp (-μ) * ∑ j ∈ J, Real.exp (t j) * v j := by
    unfold num; rw [Finset.mul_sum]; refine Finset.sum_congr rfl fun j _ => ?_
    rw [← mul_assoc, ← Real.exp_add]; congr 2; ring
  have hD : 0 < ∑ j ∈ J, Real.exp (t j) := Finset.sum_pos (fun _ _ => Real.exp_pos _) hne
  have hE : Real.exp (-μ) ≠ 0 := (Real.exp_pos _).ne'
  unfold avg
  rw [e1, e2]
  field_simp

/-- THE END. After at least one key, a / l is the softmax-weighted average over the keys seen. -/
theorem State.ratio {J : Finset ι} {t v : ι → ℝ} {m l a : EReal} (h : State J t v m l a) (hne : J.Nonempty) :
    Ideal.div a l = ((avg J t v : ℝ) : EReal) := by
  obtain ⟨μ, -, rfl, rfl, hpos⟩ := h.den_real hne
  rw [Ideal.div_coe hpos.ne', ← EReal.coe_mul, num_div_den hne]

/-! ## The masked and renormalised full softmax row -/

/-- The masked sum of a row's weights, each scaled by z, is the normaliser over the kept keys scaled by z. -/
theorem masked_den (K J : Finset ι) (hJ : J ⊆ K) (t : ι → ℝ) (μ z : ℝ) :
    ∑ k ∈ K, (if k ∈ J then (1 : ℝ) else 0) * (Real.exp (t k - μ) * z) = den J t μ * z := by
  unfold den
  rw [Finset.sum_mul, ← Finset.sum_subset hJ (f := fun k => (if k ∈ J then (1 : ℝ) else 0) * (Real.exp (t k - μ) * z))
    (fun k _ hk => by rw [if_neg hk, zero_mul])]
  exact Finset.sum_congr rfl fun k hk => by rw [if_pos hk, one_mul]

/-- Over the reals: a softmax row over all keys K at any shift μ, multiplied by the indicator of J ⊆ K and divided by
    the sum of what is left, then averaged against v, is the weighted average over J. -/
theorem masked_renorm_real (K J : Finset ι) (hJ : J ⊆ K) (hne : J.Nonempty) (t v : ι → ℝ) (μ : ℝ) :
    ∑ j ∈ K, ((if j ∈ J then (1 : ℝ) else 0) * (Real.exp (t j - μ) * (1 / den K t μ)))
        * (1 / ∑ k ∈ K, (if k ∈ J then (1 : ℝ) else 0) * (Real.exp (t k - μ) * (1 / den K t μ))) * v j
      = avg J t v := by
  have hK : 0 < den K t μ := den_pos (hne.mono hJ) t μ
  have hJp : 0 < den J t μ := den_pos hne t μ
  rw [masked_den K J hJ t μ (1 / den K t μ), ← num_div_den hne t v μ]
  unfold num
  rw [Finset.sum_mul, ← Finset.sum_subset hJ
    (f := fun j => (if j ∈ J then (1 : ℝ) else 0) * (Real.exp (t j - μ) * (1 / den K t μ)) * (1 / (den J t μ * (1 / den K t μ))) * v j)
    (fun k _ hk => by rw [if_neg hk, zero_mul, zero_mul, zero_mul])]
  refine Finset.sum_congr rfl fun j hj => ?_
  rw [if_pos hj, one_mul]
  field_simp

/-- On the extended reals, with the exact operations: exponentials of the shifted scores, divided by their sum over
    all keys, multiplied by the 0/1 mask of J, divided by the sum of what is left, summed against the values. The
    shift M only has to be a real number. -/
theorem masked_renorm_row (K J : Finset ι) (hJ : J ⊆ K) (hne : J.Nonempty) (t v : ι → ℝ) (M : EReal) (μ : ℝ) (hM : M = (μ : EReal))
    (msk : ι → EReal) (hmsk : ∀ j ∈ K, msk j = if j ∈ J then (1 : EReal) else 0) :
    ∑ j ∈ K, Ideal.div (msk j * Ideal.div (Ideal.exp ((t j : EReal) - M)) (∑ k ∈ K, Ideal.exp ((t k : EReal) - M)))
        (∑ i ∈ K, msk i * Ideal.div (Ideal.exp ((t i : EReal) - M)) (∑ k ∈ K, Ideal.exp ((t k : EReal) - M))) * (v j : EReal)
      = ((avg J t v : ℝ) : EReal) := by
  subst hM
  have hK : 0 < den K t μ := den_pos (hne.mono hJ) t μ
  have hZ : ∑ k ∈ K, Ideal.exp ((t k : EReal) - (μ : EReal)) = ((den K t μ : ℝ) : EReal) := by
    unfold den; rw [coe_sum]; exact Finset.sum_congr rfl fun k _ => by rw [← EReal.coe_sub, Ideal.exp_coe]
  have hw : ∀ j ∈ K, msk j * Ideal.div (Ideal.exp ((t j : EReal) - (μ : EReal))) (∑ k ∈ K, Ideal.exp ((t k : EReal) - (μ : EReal)))
      = (((if j ∈ J then (1 : ℝ) else 0) * (Real.exp (t j - μ) * (1 / den K t μ)) : ℝ) : EReal) := by
    intro j hj
    rw [hZ, Ideal.div_coe hK.ne', ← EReal.coe_sub, Ideal.exp_coe, ← EReal.coe_mul, hmsk j hj, EReal.coe_mul]
    congr 1
    by_cases h : j ∈ J
    · rw [if_pos h, if_pos h]; rfl
    · rw [if_neg h, if_neg h]; rfl
  have hC : ∑ i ∈ K, msk i * Ideal.div (Ideal.exp ((t i : EReal) - (μ : EReal))) (∑ k ∈ K, Ideal.exp ((t k : EReal) - (μ : EReal)))
      = ((∑ i ∈ K, (if i ∈ J then (1 : ℝ) else 0) * (Real.exp (t i - μ) * (1 / den K t μ)) : ℝ) : EReal) := by
    rw [coe_sum]; exact Finset.sum_congr rfl hw
  have hCpos : (∑ i ∈ K, (if i ∈ J then (1 : ℝ) else 0) * (Real.exp (t i - μ) * (1 / den K t μ))) ≠ 0 := by
    have hJp : 0 < den J t μ := den_pos hne t μ
    rw [masked_den K J hJ t μ (1 / den K t μ)]; positivity
  rw [← masked_renorm_real K J hJ hne t v μ, coe_sum]
  refine Finset.sum_congr rfl fun j hj => ?_
  rw [hC, hw j hj, Ideal.div_coe hCpos, ← EReal.coe_mul, ← EReal.coe_mul]

end Cert.LibOnlineSoftmax

end
-- ==== Proof.LibCausalMaskBit.lean ====
/-
  A causal mask computed on signed 32-bit position words. A query at position a·1024 + r and a key at position
  a·1024 + j, both in one block of 1024 positions (a < 4, r, j < 1024), compared by "query ≥ key" as signed words:
  no word is near the sign bit, so the comparison is the comparison of r and j as natural numbers.
-/
import Idealize.ShloMosaic.PureOps.Ideal

namespace Cert.LibCausalMaskBit

open Idealize.ShloMosaic

theorem pos_toNat (a r : ℕ) (ha : a < 4) (hr : r < 1024) :
    (IntOp.addi (Scalar.muli (BitVec.ofNat 32 a) 1024#32) (BitVec.ofNat 32 (0 * 1024 + r))).toNat = a * 1024 + r := by
  show (BitVec.ofNat 32 a * 1024#32 + BitVec.ofNat 32 (0 * 1024 + r)).toNat = _
  simp only [BitVec.toNat_add, BitVec.toNat_mul, BitVec.toNat_ofNat]
  omega

theorem pos_toInt (a r : ℕ) (ha : a < 4) (hr : r < 1024) :
    (IntOp.addi (Scalar.muli (BitVec.ofNat 32 a) 1024#32) (BitVec.ofNat 32 (0 * 1024 + r))).toInt = ((a * 1024 + r : ℕ) : ℤ) := by
  rw [BitVec.toInt_eq_toNat_cond, pos_toNat a r ha hr]
  rw [if_pos (by omega)]

/-- The mask bit: set exactly when the key is not after the query. -/
theorem maskbit_eq (a r j : ℕ) (ha : a < 4) (hr : r < 1024) (hj : j < 1024) :
    IntOp.cmpi .sge (IntOp.addi (Scalar.muli (BitVec.ofNat 32 a) 1024#32) (BitVec.ofNat 32 (0 * 1024 + r)))
        (IntOp.addi (Scalar.muli (BitVec.ofNat 32 a) 1024#32) (BitVec.ofNat 32 (0 * 1024 + j)))
      = if j ≤ r then 1#1 else 0#1 := by
  show BitVec.ofBool (BitVec.sle _ _) = _
  unfold BitVec.sle
  rw [pos_toInt a r ha hr, pos_toInt a j ha hj]
  by_cases h : j ≤ r
  · rw [if_pos h, decide_eq_true (by omega)]; rfl
  · rw [if_neg h, decide_eq_false (by omega)]; rfl

end Cert.LibCausalMaskBit
-- ==== Proof.AttnRow.lean ====
/-
  One query row of the attention body as online softmax. For a query row r of the block, a key block contributes its
  1024 scores and value rows; the running shift, normaliser and numerator of the row after the block are one step of
  the online-softmax recurrence over the block's keys (all of them below the diagonal; on the diagonal those not after
  the query, the others carrying the score -∞), and the output entry is the weighted average over the keys seen.
-/
import proofs.«164044_j26826365731266_2_alg».proof.Proof.AttnReads
import proofs.«164044_j26826365731266_2_alg».proof.Proof.Region1Defs
import proofs.«164044_j26826365731266_2_alg».proof.Proof.LibOnlineSoftmax
import proofs.«164044_j26826365731266_2_alg».proof.Proof.LibCausalMaskBit

set_option maxRecDepth 16384

noncomputable section

namespace Cert.KernelIdeal.Row

open Cert.KernelIdeal Cert.KernelIdeal.Gen Cert.KernelIdeal.Hand Cert.KernelIdeal.Reads Cert.LibOnlineSoftmax
open Idealize.ShloMosaic Idealize.ShloMosaic.ValueIdx

/-- The column entry of row r. -/
abbrev c0 (r : Fin 1024) : S1024x1.Idx := ix2 r (0 : Fin 1)

/-! ## The reset -/

theorem init_m (r : Fin 1024) : (initS (F := Ideal)).m (c0 r) = ⊥ := by
  show k1_pay1 (F := Ideal) (c0 r) = ⊥
  unfold k1_pay1
  exact (congrFun (shapeCast_self _ _) _).trans ofBits_neg_inf_f32
theorem init_l (r : Fin 1024) : (initS (F := Ideal)).l (c0 r) = 0 := by
  show k1_pay2 (F := Ideal) (c0 r) = 0
  unfold k1_pay2
  exact (congrFun (shapeCast_self _ _) _).trans Ideal.ofBits_zero_f32
theorem init_a (r d : Fin 1024) : (initS (F := Ideal)).a (ix2 r d) = 0 := by
  show k1_pay3 (F := Ideal) (ix2 r d) = 0
  unfold k1_pay3
  exact (congrFun (shapeCast_self _ _) _).trans Ideal.ofBits_zero_f32

theorem init_state (t vd : Fin 4096 → ℝ) (r d : Fin 1024) :
    State (∅ : Finset (Fin 4096)) t vd ((initS (F := Ideal)).m (c0 r)) ((initS (F := Ideal)).l (c0 r)) ((initS (F := Ideal)).a (ix2 r d)) := by
  rw [init_m, init_l, init_a]; exact State.init t vd

section Step

variable (q k v : Vec Ideal S1024x1024 .bf16) (s : Scr Ideal) (r : Fin 1024)

/-! ## A block below the diagonal -/

theorem below_m : (below q k v s).m (c0 r) = max (s.m (c0 r)) (Finset.univ.sup fun j : Fin 1024 => sc q k r j) := by
  show k1_pay5 (F := Ideal) (k1_pay10 (F := Ideal) q k s.m) (c0 r) = _
  rw [pay5_eq]; exact pay10_apply q k s.m r 0

theorem below_m' : (below q k v s).m (c0 r) = k1_pay10 (F := Ideal) q k s.m (c0 r) := by
  show k1_pay5 (F := Ideal) (k1_pay10 (F := Ideal) q k s.m) (c0 r) = _
  rw [pay5_eq]

theorem below_l : (below q k v s).l (c0 r)
    = Ideal.exp (s.m (c0 r) - (below q k v s).m (c0 r)) * s.l (c0 r) + ∑ j : Fin 1024, Ideal.exp (sc q k r j - (below q k v s).m (c0 r)) := by
  rw [below_m']
  show k1_pay13 (F := Ideal) q k s.m s.m s.l (c0 r) = _
  rw [pay13_apply, pay11_apply]
  exact congrArg (_ + ·) (Finset.sum_congr rfl fun j _ => pay12_apply q k s.m r j)

theorem below_a (d : Fin 1024) : (below q k v s).a (ix2 r d)
    = Ideal.exp (s.m (c0 r) - (below q k v s).m (c0 r)) * s.a (ix2 r d)
      + ∑ j : Fin 1024, Ideal.exp (sc q k r j - (below q k v s).m (c0 r)) * v (ix2 j d) := by
  rw [below_m']
  show k1_pay4 (F := Ideal) (k1_pay14 (F := Ideal) q k s.m s.m s.a v) (ix2 r d) = _
  rw [pay4_eq, pay14_apply, pay11_apply]
  exact congrArg (_ + ·) (Finset.sum_congr rfl fun j _ => by rw [pay12_apply])

/-- ONE BLOCK BELOW THE DIAGONAL is one step of the recurrence over all its keys. -/
theorem below_state {J : Finset (Fin 4096)} {t vd : Fin 4096 → ℝ} (d : Fin 1024) (emb : Fin 1024 ↪ Fin 4096) (hd : ∀ j, emb j ∉ J)
    (hsc : ∀ j, sc q k r j = ((t (emb j) : ℝ) : EReal)) (hv : ∀ j, v (ix2 j d) = ((vd (emb j) : ℝ) : EReal))
    (h : State J t vd (s.m (c0 r)) (s.l (c0 r)) (s.a (ix2 r d))) :
    State (J ∪ Finset.univ.map emb) t vd ((below q k v s).m (c0 r)) ((below q k v s).l (c0 r)) ((below q k v s).a (ix2 r d)) := by
  have key := h.step_emb emb hd (fun _ => True) (fun j => sc q k r j) (fun j => v (ix2 j d))
    (fun j => by rw [if_pos trivial]; exact hsc j) hv (Or.inr ⟨0, trivial⟩)
  rw [Finset.filter_true_of_mem (fun _ _ => trivial)] at key
  rw [below_l, below_a, below_m]
  exact key

/-! ## The diagonal block -/

variable (a0 a1 : BitVec 32)

theorem diag_m' : (diag a0 a1 q k v s).m (c0 r) = k1_pay16 (F := Ideal) a0 a1 q k s.m (c0 r) := by
  show k1_pay7 (F := Ideal) (k1_pay16 (F := Ideal) a0 a1 q k s.m) (c0 r) = _
  rw [pay7_eq]

theorem diag_m : (diag a0 a1 q k v s).m (c0 r) = max (s.m (c0 r)) (Finset.univ.sup fun j : Fin 1024 => msc q k a0 a1 r j) := by
  rw [diag_m']; exact pay16_apply q k s.m a0 a1 r 0

theorem diag_l : (diag a0 a1 q k v s).l (c0 r)
    = Ideal.exp (s.m (c0 r) - (diag a0 a1 q k v s).m (c0 r)) * s.l (c0 r)
      + ∑ j : Fin 1024, Ideal.exp (msc q k a0 a1 r j - (diag a0 a1 q k v s).m (c0 r)) := by
  rw [diag_m']
  show k1_pay19 (F := Ideal) a0 a1 q k s.m s.m s.l (c0 r) = _
  rw [pay19_apply, pay17_apply]
  exact congrArg (_ + ·) (Finset.sum_congr rfl fun j _ => pay18_apply q k s.m a0 a1 r j)

theorem diag_a (d : Fin 1024) : (diag a0 a1 q k v s).a (ix2 r d)
    = Ideal.exp (s.m (c0 r) - (diag a0 a1 q k v s).m (c0 r)) * s.a (ix2 r d)
      + ∑ j : Fin 1024, Ideal.exp (msc q k a0 a1 r j - (diag a0 a1 q k v s).m (c0 r)) * v (ix2 j d) := by
  rw [diag_m']
  show k1_pay6 (F := Ideal) (k1_pay17 (F := Ideal) a0 a1 q k s.m s.m) (k1_pay18 (F := Ideal) a0 a1 q k s.m) s.a v (ix2 r d) = _
  rw [pay6_apply, pay17_apply]
  exact congrArg (_ + ·) (Finset.sum_congr rfl fun j _ => by rw [pay18_apply])

/-- THE DIAGONAL BLOCK is one step of the recurrence over its keys not after the query; the others carry -∞. -/
theorem diag_state {J : Finset (Fin 4096)} {t vd : Fin 4096 → ℝ} (d : Fin 1024) (emb : Fin 1024 ↪ Fin 4096) (hd : ∀ j, emb j ∉ J)
    (qpos : Fin 4096) (hbit : ∀ j, maskbit a0 a1 r j = if emb j ≤ qpos then 1#1 else 0#1)
    (hsc : ∀ j, sc q k r j = ((t (emb j) : ℝ) : EReal)) (hv : ∀ j, v (ix2 j d) = ((vd (emb j) : ℝ) : EReal))
    (hne : ∃ j, emb j ≤ qpos)
    (h : State J t vd (s.m (c0 r)) (s.l (c0 r)) (s.a (ix2 r d))) :
    State (J ∪ (Finset.univ.map emb).filter (· ≤ qpos)) t vd
      ((diag a0 a1 q k v s).m (c0 r)) ((diag a0 a1 q k v s).l (c0 r)) ((diag a0 a1 q k v s).a (ix2 r d)) := by
  have hms : ∀ j, msc q k a0 a1 r j = if emb j ≤ qpos then ((t (emb j) : ℝ) : EReal) else ⊥ := fun j => by
    unfold msc
    rw [hbit j, hsc j]
    by_cases hj : emb j ≤ qpos
    · rw [if_pos hj, if_pos hj]; exact select_one _ _
    · rw [if_neg hj, if_neg hj]; exact select_zero _ _
  have key := h.step_emb emb hd (· ≤ qpos) (fun j => msc q k a0 a1 r j) (fun j => v (ix2 j d)) hms hv (Or.inr hne)
  rw [diag_l, diag_a, diag_m]
  exact key

end Step

/-- THE OUTPUT ENTRY: numerator over normaliser is the weighted average over the keys seen. -/
theorem out_entry (s : Scr Ideal) (r d : Fin 1024) {J : Finset (Fin 4096)} {t vd : Fin 4096 → ℝ} (hne : J.Nonempty)
    (h : State J t vd (s.m (c0 r)) (s.l (c0 r)) (s.a (ix2 r d))) :
    outOf s (ix2 r d) = ((avg J t vd : ℝ) : EReal) := by
  show k1_pay8 (F := Ideal) s.a s.l (ix2 r d) = _
  rw [pay8_apply]
  exact h.ratio hne

end Cert.KernelIdeal.Row

end
-- ==== Proof.Spec.lean ====
/-
  The function both programs compute, stated on the argument arrays alone (extended-real entries):
    the three projections  P = x · Wᵀ  (rows of x against rows of a weight),
    the score of query i against key j  (Q i · K j) · 2⁻⁵,
    and, per query i and feature d, the softmax-weighted average of the values over the keys not after the query.
  The average is taken over the real parts of the scores and values: on real inputs every score and value is a real number.
-/
import proofs.«164044_j26826365731266_2_alg».proof.Proof.LibOnlineSoftmax
import Idealize.ShloMosaic.Lib.ValueIdx

noncomputable section

namespace Cert.Spec

open Idealize.ShloMosaic Idealize.ShloMosaic.ValueIdx

abbrev A4096 : Shape := ⟨2, ![4096, 1024]⟩
abbrev A1024 : Shape := ⟨2, ![1024, 1024]⟩

/-- Every entry of an array is a real number. -/
def IsReal {s : Shape} (x : s.Idx → EReal) : Prop := ∀ i, ∃ r : ℝ, x i = (r : EReal)

/-- A projection: entry (i, f) is the sum over the input features k of x (i, k) · W (f, k). -/
def proj (x : A4096.Idx → EReal) (W : A1024.Idx → EReal) : A4096.Idx → EReal :=
  fun i => ∑ k : Fin 1024, x (ix2 (i 0) k) * W (ix2 (i 1) k)

/-- The scale 2⁻⁵ = 1 / √1024, as the kernel's word. -/
def scale : EReal := Ideal.ofBits .f32 0x3D000000#32

/-- The score of query i against key j. -/
def score (Q K : A4096.Idx → EReal) (i j : Fin 4096) : EReal := (∑ e : Fin 1024, Q (ix2 i e) * K (ix2 j e)) * scale

/-- The keys not after query i. -/
def causal (i : Fin 4096) : Finset (Fin 4096) := Finset.univ.filter fun j => j ≤ i

/-- Causal attention over given queries, keys and values. -/
def attend (Q K V : A4096.Idx → EReal) : A4096.Idx → EReal :=
  fun i => ((LibOnlineSoftmax.avg (causal (i 0)) (fun j => (score Q K (i 0) j).toReal) (fun j => (V (ix2 j (i 1))).toReal) : ℝ) : EReal)

/-- The whole function of the four arguments. -/
def G (x : A4096.Idx → EReal) (Wq Wk Wv : A1024.Idx → EReal) : A4096.Idx → EReal :=
  attend (proj x Wq) (proj x Wk) (proj x Wv)

/-- The scale is the real number 1/32. -/
theorem scale_eq : scale = ((1 / 32 : ℝ) : EReal) := by
  unfold scale
  simp [Ideal.ofBits, Ideal.ieee]
  rw [← EReal.coe_mul]
  norm_num

end Cert.Spec

end
-- ==== Proof.AttnGrid.lean ====
/-
  The attention region's grid and blocks: point t is (query block t / 4, key block t % 4); the query block handed to the
  body is rows 1024 (t / 4) … of the query array, the key and value blocks rows 1024 · min (t % 4) (t / 4) … of theirs.
-/
import proofs.«164044_j26826365731266_2_alg».proof.Proof.AttnRow
import proofs.«164044_j26826365731266_2_alg».proof.Proof.Region1
import proofs.«164044_j26826365731266_2_alg».proof.Proof.Spec

set_option maxRecDepth 16384

noncomputable section

namespace Cert.KernelIdeal.AttnGrid

open Cert.KernelIdeal Cert.KernelIdeal.Gen Cert.KernelIdeal.Hand Cert.KernelIdeal.Reads Cert.KernelIdeal.Row Cert.LibOnlineSoftmax
open Idealize.ShloMosaic Idealize.ShloMosaic.ValueIdx Idealize.ShloMosaic.TcCoe

/-! ## The grid: point t is (query block t / 4, key block t % 4) -/

theorem coords1 : ∀ t : Fin cfg1.N, (grid1.coords t 0).val = t.val / 4 ∧ (grid1.coords t 1).val = t.val % 4 :=
  (by decide +kernel : ∀ t : Fin grid1.N, (grid1.coords t 0).val = t.val / 4 ∧ (grid1.coords t 1).val = t.val % 4)

theorem idx1 : ∀ t : Fin cfg1.N, win1_0.index t (0 : Fin 2) = t.val / 4 ∧ win1_0.index t (1 : Fin 2) = 0
    ∧ win1_1.index t (0 : Fin 2) = min (t.val % 4) (t.val / 4) ∧ win1_1.index t (1 : Fin 2) = 0
    ∧ win1_2.index t (0 : Fin 2) = min (t.val % 4) (t.val / 4) ∧ win1_2.index t (1 : Fin 2) = 0
    ∧ win1_3.index t (0 : Fin 2) = t.val / 4 ∧ win1_3.index t (1 : Fin 2) = 0 :=
  (by decide +kernel : ∀ t : Fin grid1.N, _)

/-- Row r of block b, as a row of the whole array. -/
def grow (b : ℕ) (hb : b < 4) (r : Fin 1024) : Fin 4096 := ⟨1024 * b + r.val, by have := r.isLt; omega⟩

/-- The keys of block b among all keys. -/
def kemb (b : ℕ) (hb : b < 4) : Fin 1024 ↪ Fin 4096 :=
  ⟨grow b hb, fun x y h => Fin.ext (by have := congrArg Fin.val h; simp only [grow] at this; omega)⟩

theorem mem_kemb (b : ℕ) (hb : b < 4) (g : Fin 4096) :
    g ∈ Finset.univ.map (kemb b hb) ↔ 1024 * b ≤ g.val ∧ g.val < 1024 * (b + 1) := by
  constructor
  · rintro h
    obtain ⟨j, -, rfl⟩ := Finset.mem_map.mp h
    have := j.isLt
    show 1024 * b ≤ 1024 * b + j.val ∧ 1024 * b + j.val < 1024 * (b + 1)
    omega
  · rintro ⟨h1, h2⟩
    refine Finset.mem_map.mpr ⟨⟨g.val - 1024 * b, by omega⟩, Finset.mem_univ _, Fin.ext ?_⟩
    show 1024 * b + (g.val - 1024 * b) = g.val
    omega

section Blocks

variable (V : (c : Dev nD) → (b : Ref sig .tc) → Buf (Elt Ideal) ((c : Thread nD τ).loc b)) (c : Dev nD)

theorem t_lt' (t : Fin cfg1.N) : t.val / 4 < 4 := by have := t_lt t; omega
theorem t_lt'' (t : Fin cfg1.N) : min (t.val % 4) (t.val / 4) < 4 := by have := t_lt t; omega

/-- The query block of point t is rows 1024 (t / 4) … of the query array. -/
theorem iblk_q (t : Fin cfg1.N) (r e : Fin 1024) :
    iblk1 V c 0 t (ix2 r e) = V c main_v0_0 (ix2 (grow (t.val / 4) (t_lt' t) r) e) := by
  obtain ⟨e0, e1, -⟩ := idx1 t
  unfold iblk1
  show V c main_v0_0 (((cfg1.win 0).blk t).view.emb (ix2 r e)) = _
  refine congrArg (V c main_v0_0) (funext fun a => Fin.ext ?_)
  match a with
  | ⟨0, _⟩ => show win1_0.index t (0 : Fin 2) * 1024 + 1 * r.val = 1024 * (t.val / 4) + r.val; omega
  | ⟨1, _⟩ => show win1_0.index t (1 : Fin 2) * 1024 + 1 * e.val = e.val; omega

/-- The key block of point t is rows 1024 · min (t % 4) (t / 4) … of the key array; -/
theorem iblk_k (t : Fin cfg1.N) (j e : Fin 1024) :
    iblk1 V c 1 t (ix2 j e) = V c main_v0_1 (ix2 (grow (min (t.val % 4) (t.val / 4)) (t_lt'' t) j) e) := by
  obtain ⟨-, -, e0, e1, -⟩ := idx1 t
  unfold iblk1
  show V c main_v0_1 (((cfg1.win 1).blk t).view.emb (ix2 j e)) = _
  refine congrArg (V c main_v0_1) (funext fun a => Fin.ext ?_)
  match a with
  | ⟨0, _⟩ => show win1_1.index t (0 : Fin 2) * 1024 + 1 * j.val = 1024 * (min (t.val % 4) (t.val / 4)) + j.val; omega
  | ⟨1, _⟩ => show win1_1.index t (1 : Fin 2) * 1024 + 1 * e.val = e.val; omega

/-- and the value block the same rows of the value array. -/
theorem iblk_v (t : Fin cfg1.N) (j d : Fin 1024) :
    iblk1 V c 2 t (ix2 j d) = V c main_v0_2 (ix2 (grow (min (t.val % 4) (t.val / 4)) (t_lt'' t) j) d) := by
  obtain ⟨-, -, -, -, e0, e1, -⟩ := idx1 t
  unfold iblk1
  show V c main_v0_2 (((cfg1.win 2).blk t).view.emb (ix2 j d)) = _
  refine congrArg (V c main_v0_2) (funext fun a => Fin.ext ?_)
  match a with
  | ⟨0, _⟩ => show win1_2.index t (0 : Fin 2) * 1024 + 1 * j.val = 1024 * (min (t.val % 4) (t.val / 4)) + j.val; omega
  | ⟨1, _⟩ => show win1_2.index t (1 : Fin 2) * 1024 + 1 * d.val = d.val; omega

end Blocks

end Cert.KernelIdeal.AttnGrid

end
-- ==== Proof.AttnValue.lean ====
/-
  The attention region along a row of points. For the query rows of block t / 4, after the point with key block
  t % 4 ≤ t / 4 the scratch arrays hold, row by row, the online-softmax state over the keys of the key blocks seen so far
  that are not after the query; so the diagonal point's output entry is the weighted average over all keys not after the
  query. Queries, keys and values are arrays of real numbers here.
-/
import proofs.«164044_j26826365731266_2_alg».proof.Proof.AttnGrid

set_option maxRecDepth 16384

noncomputable section

namespace Cert.KernelIdeal.AttnValue

open Cert.KernelIdeal Cert.KernelIdeal.Gen Cert.KernelIdeal.Hand Cert.KernelIdeal.Reads Cert.KernelIdeal.Row Cert.KernelIdeal.AttnGrid
open Cert.LibOnlineSoftmax Idealize.ShloMosaic Idealize.ShloMosaic.ValueIdx Idealize.ShloMosaic.TcCoe

/-! ## Real numbers among the extended reals -/

theorem coe_toReal_of {x : EReal} (h : ∃ ρ : ℝ, x = (ρ : EReal)) : x = ((x.toReal : ℝ) : EReal) := by
  obtain ⟨ρ, rfl⟩ := h; rw [EReal.toReal_coe]

theorem real_mul {x y : EReal} (hx : ∃ ρ : ℝ, x = (ρ : EReal)) (hy : ∃ ρ : ℝ, y = (ρ : EReal)) : ∃ ρ : ℝ, x * y = (ρ : EReal) := by
  obtain ⟨a, rfl⟩ := hx; obtain ⟨b, rfl⟩ := hy; exact ⟨a * b, (EReal.coe_mul a b).symm⟩

theorem real_sum {n : ℕ} (f : Fin n → EReal) (h : ∀ e, ∃ ρ : ℝ, f e = (ρ : EReal)) : ∃ ρ : ℝ, ∑ e, f e = (ρ : EReal) := by
  choose g hg using h
  exact ⟨∑ e, g e, by rw [coe_sum]; exact Finset.sum_congr rfl fun e _ => hg e⟩

theorem score_is_real (Q K : Spec.A4096.Idx → EReal) (hQ : Spec.IsReal Q) (hK : Spec.IsReal K) (i j : Fin 4096) :
    ∃ ρ : ℝ, Spec.score Q K i j = (ρ : EReal) := by
  unfold Spec.score
  exact real_mul (real_sum _ fun e => real_mul (hQ _) (hK _)) ⟨1 / 32, Spec.scale_eq⟩

/-! ## The keys seen -/

/-- The keys of the key blocks 0 … b that are not after query i. -/
def Jset (b : ℕ) (i : Fin 4096) : Finset (Fin 4096) := Finset.univ.filter fun g => g.val < 1024 * (b + 1) ∧ g ≤ i

theorem mem_Jset (b : ℕ) (i g : Fin 4096) : g ∈ Jset b i ↔ g.val < 1024 * (b + 1) ∧ g.val ≤ i.val := by
  unfold Jset; rw [Finset.mem_filter]; exact ⟨fun h => ⟨h.2.1, h.2.2⟩, fun h => ⟨Finset.mem_univ _, h.1, h.2⟩⟩

section Value

variable (V : (c : Dev nD) → (b : Ref sig .tc) → Buf (Elt Ideal) ((c : Thread nD τ).loc b)) (c : Dev nD)

/-- The query, key and value arrays as the region finds them. -/
abbrev Qa : Spec.A4096.Idx → EReal := V c main_v0_0
abbrev Ka : Spec.A4096.Idx → EReal := V c main_v0_1
abbrev Va : Spec.A4096.Idx → EReal := V c main_v0_2

/-- The real scores of query i, and the real values of feature d. -/
def tS (i : Fin 4096) : Fin 4096 → ℝ := fun g => (Spec.score (Qa V c) (Ka V c) i g).toReal
def vS (d : Fin 1024) : Fin 4096 → ℝ := fun g => (Va V c (ix2 g d)).toReal

variable (hQ : Spec.IsReal (Qa V c)) (hK : Spec.IsReal (Ka V c)) (hV : Spec.IsReal (Va V c))

include hQ hK in
/-- The body's score of row r against key j of the blocks of point t is the real score of the query against that key. -/
theorem sc_eq (t : Fin cfg1.N) (r j : Fin 1024) :
    sc (iblk1 V c 0 t) (iblk1 V c 1 t) r j
      = ((tS V c (grow (t.val / 4) (t_lt' t) r) (kemb (min (t.val % 4) (t.val / 4)) (t_lt'' t) j) : ℝ) : EReal) := by
  have e : sc (iblk1 V c 0 t) (iblk1 V c 1 t) r j
      = Spec.score (Qa V c) (Ka V c) (grow (t.val / 4) (t_lt' t) r) (grow (min (t.val % 4) (t.val / 4)) (t_lt'' t) j) := by
    unfold sc Spec.score Spec.scale
    refine congrArg (· * Ideal.ofBits .f32 0x3D000000#32) (Finset.sum_congr rfl fun e _ => ?_)
    rw [iblk_q, iblk_k]
  rw [e]
  exact coe_toReal_of (score_is_real _ _ hQ hK _ _)

include hV in
theorem v_eq (t : Fin cfg1.N) (j d : Fin 1024) :
    iblk1 V c 2 t (ix2 j d) = ((vS V c d (kemb (min (t.val % 4) (t.val / 4)) (t_lt'' t) j) : ℝ) : EReal) := by
  rw [iblk_v]
  exact coe_toReal_of (hV _)

end Value

/-! ## The state along a row of points -/

theorem grow_val (b : ℕ) (hb : b < 4) (r : Fin 1024) : (grow b hb r).val = 1024 * b + r.val := rfl

theorem kemb_le_iff (b : ℕ) (hb : b < 4) (j : Fin 1024) (i : Fin 4096) : kemb b hb j ≤ i ↔ 1024 * b + j.val ≤ i.val := Iff.rfl

/-- On the diagonal the body's mask bit says "the key is not after the query". -/
theorem hbit_diag (t : Fin cfg1.N) (hd : t.val % 4 = t.val / 4) (r j : Fin 1024) :
    maskbit (BitVec.ofNat 32 (grid1.coords t 0).val) (BitVec.ofNat 32 (grid1.coords t 1).val) r j
      = if kemb (min (t.val % 4) (t.val / 4)) (t_lt'' t) j ≤ grow (t.val / 4) (t_lt' t) r then 1#1 else 0#1 := by
  obtain ⟨hco0, hco1⟩ := coords1 t
  have hlt := t_lt t
  have e : maskbit (BitVec.ofNat 32 (grid1.coords t 0).val) (BitVec.ofNat 32 (grid1.coords t 1).val) r j
      = if j.val ≤ r.val then 1#1 else 0#1 := by
    unfold maskbit
    rw [hco0, hco1, congrArg (BitVec.ofNat 32) hd]
    exact Cert.LibCausalMaskBit.maskbit_eq (t.val / 4) r.val j.val (by omega) r.isLt j.isLt
  rw [e]
  have hiff : (kemb (min (t.val % 4) (t.val / 4)) (t_lt'' t) j ≤ grow (t.val / 4) (t_lt' t) r) ↔ j.val ≤ r.val := by
    rw [kemb_le_iff, grow_val]; omega
  by_cases hjr : j.val ≤ r.val
  · rw [if_pos hjr, if_pos (hiff.mpr hjr)]
  · rw [if_neg hjr, if_neg (fun h => hjr (hiff.mp h))]

section Invariant

variable (V : (c : Dev nD) → (b : Ref sig .tc) → Buf (Elt Ideal) ((c : Thread nD τ).loc b)) (c : Dev nD)
variable (hQ : Spec.IsReal (Qa V c)) (hK : Spec.IsReal (Ka V c)) (hV : Spec.IsReal (Va V c))

include hQ hK hV in
/-- After the point t on or below the diagonal, row r of the scratch arrays is the online-softmax state of query
    1024 (t / 4) + r over the keys of blocks 0 … t % 4 not after it. -/
theorem row_state : ∀ (n : ℕ) (t : Fin cfg1.N), t.val = n → t.val % 4 ≤ t.val / 4 → ∀ (r d : Fin 1024),
    State (Jset (t.val % 4) (grow (t.val / 4) (t_lt' t) r)) (tS V c (grow (t.val / 4) (t_lt' t) r)) (vS V c d)
      ((scrAt V c (t.val + 1)).m (c0 r)) ((scrAt V c (t.val + 1)).l (c0 r)) ((scrAt V c (t.val + 1)).a (ix2 r d)) := by
  intro n
  induction n using Nat.strong_induction_on with
  | _ n ih =>
    intro t htn hle r d
    have hlt := t_lt t
    have h1 := hc1 t; have h2 := hc2 t; have h3 := hc3 t
    have hival : (grow (t.val / 4) (t_lt' t) r).val = 1024 * (t.val / 4) + r.val := rfl
    have hr := r.isLt
    rw [scrAt_succ]
    by_cases hk0 : t.val % 4 = 0
    · have c1 : cond1 (grid1.coords t) := h1.mpr hk0
      by_cases hq0 : t.val / 4 = 0
      · -- the first block's diagonal point: from the reset, the masked step
        have c3 : cond3 (grid1.coords t) := h3.mpr (by omega)
        simp only [step, if_pos c1, if_pos c3]
        have key := diag_state (iblk1 V c 0 t) (iblk1 V c 1 t) (iblk1 V c 2 t) initS r
          (BitVec.ofNat 32 (grid1.coords t 0).val) (BitVec.ofNat 32 (grid1.coords t 1).val) d
          (kemb (min (t.val % 4) (t.val / 4)) (t_lt'' t)) (fun j => Finset.notMem_empty _)
          (grow (t.val / 4) (t_lt' t) r) (hbit_diag t (by omega) r) (sc_eq V c hQ hK t r) (fun j => v_eq V c hV t j d)
          ⟨r, by rw [kemb_le_iff, grow_val]; omega⟩ (init_state _ _ r d)
        have hJ : (∅ : Finset (Fin 4096)) ∪ (Finset.univ.map (kemb (min (t.val % 4) (t.val / 4)) (t_lt'' t))).filter (· ≤ grow (t.val / 4) (t_lt' t) r)
            = Jset (t.val % 4) (grow (t.val / 4) (t_lt' t) r) := by
          ext g
          rw [Finset.empty_union, Finset.mem_filter, mem_kemb, mem_Jset, Fin.le_def, hival]
          omega
        rw [hJ] at key; exact key
      · -- key block 0 below the diagonal: from the reset, the plain step
        have c3 : ¬cond3 (grid1.coords t) := fun h => by have := h3.mp h; omega
        simp only [step, if_pos c1, if_neg c3]
        have key := below_state (iblk1 V c 0 t) (iblk1 V c 1 t) (iblk1 V c 2 t) initS r d
          (kemb (min (t.val % 4) (t.val / 4)) (t_lt'' t)) (fun j => Finset.notMem_empty _)
          (sc_eq V c hQ hK t r) (fun j => v_eq V c hV t j d) (init_state _ _ r d)
        have hJ : (∅ : Finset (Fin 4096)) ∪ Finset.univ.map (kemb (min (t.val % 4) (t.val / 4)) (t_lt'' t))
            = Jset (t.val % 4) (grow (t.val / 4) (t_lt' t) r) := by
          ext g
          rw [Finset.empty_union, mem_kemb, mem_Jset, hival]
          omega
        rw [hJ] at key; exact key
    · have c1 : ¬cond1 (grid1.coords t) := fun h => hk0 (h1.mp h)
      -- the point before, in the same row
      have hlt' : t.val - 1 < cfg1.N := Nat.lt_of_le_of_lt (Nat.sub_le _ _) t.isLt
      have ih' := ih (t.val - 1) (by omega) ⟨t.val - 1, hlt'⟩ rfl (by show (t.val - 1) % 4 ≤ (t.val - 1) / 4; omega) r d
      have eg : grow ((⟨t.val - 1, hlt'⟩ : Fin cfg1.N).val / 4) (t_lt' _) r = grow (t.val / 4) (t_lt' t) r :=
        Fin.ext (by show 1024 * ((t.val - 1) / 4) + r.val = 1024 * (t.val / 4) + r.val; omega)
      have en : (⟨t.val - 1, hlt'⟩ : Fin cfg1.N).val + 1 = t.val := by show t.val - 1 + 1 = t.val; omega
      have ek : (⟨t.val - 1, hlt'⟩ : Fin cfg1.N).val % 4 = t.val % 4 - 1 := by show (t.val - 1) % 4 = t.val % 4 - 1; omega
      rw [eg, en, ek] at ih'
      by_cases hb : t.val % 4 < t.val / 4
      · -- a later block below the diagonal
        have c2 : cond2 (grid1.coords t) := h2.mpr hb
        simp only [step, if_neg c1, if_pos c2]
        have key := below_state (iblk1 V c 0 t) (iblk1 V c 1 t) (iblk1 V c 2 t) (scrAt V c t.val) r d
          (kemb (min (t.val % 4) (t.val / 4)) (t_lt'' t))
          (fun j hj => by
            have := (mem_Jset _ _ _).mp hj
            have hj' := j.isLt
            have hv : (kemb (min (t.val % 4) (t.val / 4)) (t_lt'' t) j).val = 1024 * (min (t.val % 4) (t.val / 4)) + j.val := rfl
            omega)
          (sc_eq V c hQ hK t r) (fun j => v_eq V c hV t j d) ih'
        have hJ : Jset (t.val % 4 - 1) (grow (t.val / 4) (t_lt' t) r) ∪ Finset.univ.map (kemb (min (t.val % 4) (t.val / 4)) (t_lt'' t))
            = Jset (t.val % 4) (grow (t.val / 4) (t_lt' t) r) := by
          ext g
          rw [Finset.mem_union, mem_kemb, mem_Jset, mem_Jset, hival]
          omega
        rw [hJ] at key; exact key
      · -- a later diagonal point
        have hd : t.val % 4 = t.val / 4 := by omega
        have c2 : ¬cond2 (grid1.coords t) := fun h => hb (h2.mp h)
        have c3 : cond3 (grid1.coords t) := h3.mpr hd
        simp only [step, if_neg c1, if_neg c2, if_pos c3]
        have key := diag_state (iblk1 V c 0 t) (iblk1 V c 1 t) (iblk1 V c 2 t) (scrAt V c t.val) r
          (BitVec.ofNat 32 (grid1.coords t 0).val) (BitVec.ofNat 32 (grid1.coords t 1).val) d
          (kemb (min (t.val % 4) (t.val / 4)) (t_lt'' t))
          (fun j hj => by
            have := (mem_Jset _ _ _).mp hj
            have hj' := j.isLt
            have hv : (kemb (min (t.val % 4) (t.val / 4)) (t_lt'' t) j).val = 1024 * (min (t.val % 4) (t.val / 4)) + j.val := rfl
            omega)
          (grow (t.val / 4) (t_lt' t) r) (hbit_diag t hd r) (sc_eq V c hQ hK t r) (fun j => v_eq V c hV t j d)
          ⟨r, by rw [kemb_le_iff, grow_val]; omega⟩ ih'
        have hJ : Jset (t.val % 4 - 1) (grow (t.val / 4) (t_lt' t) r)
              ∪ (Finset.univ.map (kemb (min (t.val % 4) (t.val / 4)) (t_lt'' t))).filter (· ≤ grow (t.val / 4) (t_lt' t) r)
            = Jset (t.val % 4) (grow (t.val / 4) (t_lt' t) r) := by
          ext g
          rw [Finset.mem_union, Finset.mem_filter, mem_kemb, mem_Jset, mem_Jset, Fin.le_def, hival]
          omega
        rw [hJ] at key; exact key

include hQ hK hV in
/-- THE OUTPUT BLOCK of point t's row: entry (r, d) is causal attention's value at query 1024 (t / 4) + r, feature d. -/
theorem outRow_eq (t : Fin cfg1.N) (r d : Fin 1024) :
    outRow V c t (ix2 r d) = Spec.attend (Qa V c) (Ka V c) (Va V c) (ix2 (grow (t.val / 4) (t_lt' t) r) d) := by
  have hlt := t_lt t
  -- the row's diagonal point
  have hdl : 5 * (t.val / 4) < cfg1.N := by have : cfg1.N = 16 := N_1; omega
  have hs := row_state V c hQ hK hV (5 * (t.val / 4)) ⟨5 * (t.val / 4), hdl⟩ rfl (by show 5 * (t.val / 4) % 4 ≤ 5 * (t.val / 4) / 4; omega) r d
  have eg : grow ((⟨5 * (t.val / 4), hdl⟩ : Fin cfg1.N).val / 4) (t_lt' _) r = grow (t.val / 4) (t_lt' t) r :=
    Fin.ext (by show 1024 * (5 * (t.val / 4) / 4) + r.val = 1024 * (t.val / 4) + r.val; omega)
  rw [eg] at hs
  have hJ : Jset ((⟨5 * (t.val / 4), hdl⟩ : Fin cfg1.N).val % 4) (grow (t.val / 4) (t_lt' t) r) = Spec.causal (grow (t.val / 4) (t_lt' t) r) := by
    ext g
    have hg := g.isLt
    have hr := r.isLt
    rw [mem_Jset]
    unfold Spec.causal
    rw [Finset.mem_filter, Fin.le_def]
    show g.val < 1024 * (5 * (t.val / 4) % 4 + 1) ∧ g.val ≤ 1024 * (t.val / 4) + r.val ↔ g ∈ Finset.univ ∧ g.val ≤ 1024 * (t.val / 4) + r.val
    constructor
    · intro h; exact ⟨Finset.mem_univ _, h.2⟩
    · intro h; exact ⟨by omega, h.2⟩
  rw [hJ] at hs
  unfold outRow
  have := out_entry (scrAt V c (5 * (t.val / 4) + 1)) r d ⟨grow (t.val / 4) (t_lt' t) r, by unfold Spec.causal; rw [Finset.mem_filter]; exact ⟨Finset.mem_univ _, le_refl _⟩⟩ hs
  rw [this]
  rfl

end Invariant

end Cert.KernelIdeal.AttnValue

end
-- ==== Proof.AttnFinal.lean ====
/-
  THE ATTENTION REGION'S RESULT ARRAY FROM ITS BLOCKS.
  The region's output window moves in blocks of 1024 rows: at point t it is block t / 4 of the result array, and the
  block is written back exactly at the last point of each query block (t % 4 = 3), holding the row block's output.
  So if the output of point t, at (r, d), is G at row 1024 (t / 4) + r and column d — for every point — then what each
  write-back writes is its block of G; row i of the array lies in the block written back at point 4 (i / 1024) + 3; and
  after the last point the result array is G.
-/
import proofs.«164044_j26826365731266_2_alg».proof.Proof.Region1
import proofs.«164044_j26826365731266_2_alg».proof.Proof.Spec
import proofs.«164044_j26826365731266_2_alg».proof.Proof.AttnGrid
import Idealize.ShloMosaic.Lib.ValueIdx
import Idealize.ShloMosaic.Lib.Pipeline.Value

set_option maxRecDepth 16384

noncomputable section

namespace Cert.KernelIdeal.AttnFinal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- A block of 1024 rows that is rows 1024 b … of G, entry by entry: entry y of the block is G at (1024 b + y₀, y₁). -/
theorem row_block (G : Cert.Spec.A4096.Idx → EReal) (o : Vec Ideal S1024x1024 .f32) (b : ℕ) (hb : b < 4)
    (ho : ∀ r d : Fin 1024, o (ix2 r d) = G (ix2 (AttnGrid.grow b hb r) d))
    (y : S1024x1024.Idx) (i : Cert.Spec.A4096.Idx) (h0 : (i 0).val = b * 1024 + (y 0).val) (h1 : (i 1).val = (y 1).val) :
    o y = G i :=
  (congrArg o (eq_ix2 y)).trans ((ho (y 0) (y 1)).trans (congrArg G (funext fun a => Fin.ext (by
    match a with
    | ⟨0, _⟩ => show 1024 * b + (y 0).val = (i 0).val; omega
    | ⟨1, _⟩ => exact h1.symm))))

section Blocks

variable (V : (c : Dev nD) → (b : Ref sig .tc) → Buf (Elt Ideal) ((c : Thread nD τ).loc b))

/-- What a point writes back into the result array is its block of G. -/
theorem flushed_eq (c : Dev nD) (G : Cert.Spec.A4096.Idx → EReal)
    (hrow : ∀ (t : Fin cfg1.N) (r d : Fin 1024),
      outRow (F := Ideal) V c t (ix2 r d) = G (ix2 (AttnGrid.grow (t.val / 4) (AttnGrid.t_lt' t) r) d))
    (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  obtain ⟨-, -, -, -, -, -, e0, e1⟩ := AttnGrid.idx1 t
  funext j
  show outRow (F := Ideal) V c t j = G (((cfg1.win 3).blk t).view.emb j)
  refine row_block G (outRow (F := Ideal) V c t) (t.val / 4) (AttnGrid.t_lt' t) (hrow t) j (((cfg1.win 3).blk t).view.emb j) ?_ ?_
  · show win1_3.index t (0 : Fin 2) * 1024 + 1 * (j 0).val = t.val / 4 * 1024 + (j 0).val
    omega
  · show win1_3.index t (1 : Fin 2) * 1024 + 1 * (j 1).val = (j 1).val
    omega

/-- An index of the result array is in point t's block iff each coordinate is in the block's range on its axis. -/
theorem mem_blk (t : Fin cfg1.N) (i : S4096x1024.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- Row i of the result array is written back by the last point of its query block, point 4 (i / 1024) + 3. -/
theorem cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ : ∃ t : Fin cfg1.N, t.val = 4 * ((i 0).val / 1024) + 3 :=
    ⟨⟨4 * ((i 0).val / 1024) + 3, by show _ < grid1.N; rw [N_1]; omega⟩, rfl⟩
  obtain ⟨-, -, -, -, -, -, e0, e1⟩ := AttnGrid.idx1 t
  refine ⟨t, (flush1_3 t).mpr (by omega), ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- After the region the result array is G, if every point's output block is its block of rows of G. -/
theorem final_attn (c : Dev nD) (G : Cert.Spec.A4096.Idx → EReal)
    (hrow : ∀ (t : Fin cfg1.N) (r d : Fin 1024),
      outRow (F := Ideal) V c t (ix2 r d) = G (ix2 (AttnGrid.grow (t.val / 4) (AttnGrid.t_lt' t) r) d)) :
    (dat1 (F := Ideal) V c).arrAt 3 cfg1.N = G :=
  (dat1 (F := Ideal) V c).arrAt_eq_of_cover 3 G (fun t _ => flushed_eq V c G hrow t) cover

end Blocks

end Cert.KernelIdeal.AttnFinal

end
-- ==== Proof.ProjValue.lean ====
/-
  WHAT THE PROJECTION REGION LEAVES IN ITS THREE OUTPUT ARRAYS, at the ideal values (floats are extended reals, every
  operation exact, a change of format the identity).
  At grid point t the body multiplies rows 512 t … 512 t + 511 of x against the rows of each weight W, summing over the
  1024 input features: entry (r, f) of the product is ∑ k, x (512 t + r, k) · W (f, k). That is rows 512 t … 512 t + 511
  of the projection of x by W; every point writes its block back, and row r of an output array lies in the block of
  point r / 512, so after the last point each output array is the whole projection.
-/
import proofs.«164044_j26826365731266_2_alg».proof.Proof.Region0
import proofs.«164044_j26826365731266_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.ProjValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product of a 512 × 1024 block with a 1024 × 1024 weight, both contracted along their second axis -/

/-- The row of the left operand is the row of the output entry. -/
theorem lhs_row (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The row of the right operand is the column of the output entry. -/
theorem rhs_row (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The product into a zero accumulator: entry (r, f) is the sum over k of X (r, k) · W (f, k). -/
theorem mm_apply {φ₁ φ₂ : FTy} (X : FVec Ideal S512x1024 φ₁) (W : FVec Ideal S1024x1024 φ₂) (r : Fin 512) (f : Fin 1024) :
    matmul (F := Ideal) dot_S512x1024_S1024x1024_S512x1024_1_1_0_0_n_n none X W (constant S512x1024 .f32 0x00000000#32) (ix2 r f)
      = ∑ k : Fin 1024, X (ix2 r k) * W (ix2 f k) := by
  refine (Ideal.matmul_constant_zero_apply dot_S512x1024_S1024x1024_S512x1024_1_1_0_0_n_n none X W (ix2 r f)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r f) ((contrEquiv1 dot_S512x1024_S1024x1024_S512x1024_1_1_0_0_n_n 1024 rfl rfl).symm k) = ix2 r k :=
    funext fun a => Fin.ext (by
      match a with
      | ⟨0, _⟩ => exact lhs_row _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r f) ((contrEquiv1 dot_S512x1024_S1024x1024_S512x1024_1_1_0_0_n_n 1024 rfl rfl).symm k) = ix2 f k :=
    funext fun a => Fin.ext (by
      match a with
      | ⟨0, _⟩ => exact rhs_row _ _
      | ⟨1, _⟩ => exact (dot_S512x1024_S1024x1024_S512x1024_1_1_0_0_n_n.rhsIdx_val_of_single rfl _ _).trans hk)
  rw [el, er]

/-- What the body stores into an output block, entry by entry: a change of format is the identity at the ideal values,
    so it is the product itself. -/
theorem pay2_apply (x : Vec Ideal S512x1024 .f32) (w : Vec Ideal S1024x1024 .f32) (r : Fin 512) (f : Fin 1024) :
    k0_pay2 (F := Ideal) x w (ix2 r f) = ∑ k : Fin 1024, x (ix2 r k) * w (ix2 f k) := by
  unfold k0_pay2 k0_pay1
  exact mm_apply (φ₁ := .bf16) (φ₂ := .bf16) x w r f

theorem pay3_apply (x : Vec Ideal S512x1024 .f32) (w : Vec Ideal S1024x1024 .f32) (r : Fin 512) (f : Fin 1024) :
    k0_pay3 (F := Ideal) x w (ix2 r f) = ∑ k : Fin 1024, x (ix2 r k) * w (ix2 f k) := by
  unfold k0_pay3 k0_pay1
  exact mm_apply (φ₁ := .bf16) (φ₂ := .bf16) x w r f

theorem pay4_apply (x : Vec Ideal S512x1024 .f32) (w : Vec Ideal S1024x1024 .f32) (r : Fin 512) (f : Fin 1024) :
    k0_pay4 (F := Ideal) x w (ix2 r f) = ∑ k : Fin 1024, x (ix2 r k) * w (ix2 f k) := by
  unfold k0_pay4 k0_pay1
  exact mm_apply (φ₁ := .bf16) (φ₂ := .bf16) x w r f

/-! ## The region's blocks as parts of the arrays -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the block of x and the three output blocks are block t of their arrays
    (rows 512 t … 512 t + 511, all columns); the block of each weight is the whole weight. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry y of the block of x at point t is entry (512 t + y₀, y₁) of x. -/
theorem xblk_apply (c : Dev nD) (t : Fin cfg0.N) (y : S512x1024.Idx) (i : S4096x1024.Idx)
    (h0 : (i 0).val = t.val * 512 + (y 0).val) (h1 : (i 1).val = (y 1).val) :
    (iblk0 (F := Ideal) V c 0 t : Vec Ideal S512x1024 .f32) y = (V c main_arg0 : S4096x1024.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The block of the first weight is the whole weight, at every point. -/
theorem wblk1_eq (c : Dev nD) (t : Fin cfg0.N) :
    (iblk0 (F := Ideal) V c 1 t : Vec Ideal S1024x1024 .f32) = (V c main_arg1 : S1024x1024.Idx → EReal) := by
  obtain ⟨-, -, e0, e1, -⟩ := idx_facts t
  funext y
  unfold iblk0
  rw [View.read_apply]
  show V c main_arg1 _ = V c main_arg1 _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The block of the second weight is the whole weight. -/
theorem wblk2_eq (c : Dev nD) (t : Fin cfg0.N) :
    (iblk0 (F := Ideal) V c 2 t : Vec Ideal S1024x1024 .f32) = (V c main_arg2 : S1024x1024.Idx → EReal) := by
  obtain ⟨-, -, -, -, e0, e1, -⟩ := idx_facts t
  funext y
  unfold iblk0
  rw [View.read_apply]
  show V c main_arg2 _ = V c main_arg2 _
  congr 1
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The block of the third weight is the whole weight. -/
theorem wblk3_eq (c : Dev nD) (t : Fin cfg0.N) :
    (iblk0 (F := Ideal) V c 3 t : Vec Ideal S1024x1024 .f32) = (V c main_arg3 : S1024x1024.Idx → EReal) := by
  obtain ⟨-, -, -, -, -, -, e0, e1, -⟩ := idx_facts t
  funext y
  unfold iblk0
  rw [View.read_apply]
  show V c main_arg3 _ = V c main_arg3 _
  congr 1
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- A product of a block of rows of X with W is that block of rows of the projection: if x is rows 512 t … of X, then
    entry y of the product x · Wᵀ is entry (512 t + y₀, y₁) of the projection of X by W. -/
theorem sum_block (X : S4096x1024.Idx → EReal) (W : S1024x1024.Idx → EReal) (x : S512x1024.Idx → EReal) (t : ℕ)
    (hx : ∀ (y : S512x1024.Idx) (i : S4096x1024.Idx), (i 0).val = t * 512 + (y 0).val → (i 1).val = (y 1).val → x y = X i)
    (y : S512x1024.Idx) (i : S4096x1024.Idx) (h0 : (i 0).val = t * 512 + (y 0).val) (h1 : (i 1).val = (y 1).val) :
    (∑ k : Fin 1024, x (ix2 (y 0) k) * W (ix2 (y 1) k)) = Cert.Spec.proj X W i := by
  unfold Cert.Spec.proj
  refine Finset.sum_congr rfl fun k _ => ?_
  have ex : x (ix2 (y 0) k) = X (ix2 (i 0) k) := hx _ _ h0 rfl
  have ew : (ix2 (y 1) k : S1024x1024.Idx) = ix2 (i 1) k :=
    funext fun a => Fin.ext (by
      match a with
      | ⟨0, _⟩ => exact h1.symm
      | ⟨1, _⟩ => rfl)
  exact congrArg₂ (· * ·) ex (congrArg W ew)

/-- The same for what the body stores: entry y of the stored product is entry (512 t + y₀, y₁) of the projection. -/
theorem pay2_block (X : S4096x1024.Idx → EReal) (W : Vec Ideal S1024x1024 .f32) (x : Vec Ideal S512x1024 .f32) (t : ℕ)
    (hx : ∀ (y : S512x1024.Idx) (i : S4096x1024.Idx), (i 0).val = t * 512 + (y 0).val → (i 1).val = (y 1).val → x y = X i)
    (y : S512x1024.Idx) (i : S4096x1024.Idx) (h0 : (i 0).val = t * 512 + (y 0).val) (h1 : (i 1).val = (y 1).val) :
    k0_pay2 (F := Ideal) x W y = Cert.Spec.proj X W i :=
  ((congrArg (k0_pay2 (F := Ideal) x W) (eq_ix2 y)).trans (pay2_apply x W (y 0) (y 1))).trans (sum_block X W x t hx y i h0 h1)

theorem pay3_block (X : S4096x1024.Idx → EReal) (W : Vec Ideal S1024x1024 .f32) (x : Vec Ideal S512x1024 .f32) (t : ℕ)
    (hx : ∀ (y : S512x1024.Idx) (i : S4096x1024.Idx), (i 0).val = t * 512 + (y 0).val → (i 1).val = (y 1).val → x y = X i)
    (y : S512x1024.Idx) (i : S4096x1024.Idx) (h0 : (i 0).val = t * 512 + (y 0).val) (h1 : (i 1).val = (y 1).val) :
    k0_pay3 (F := Ideal) x W y = Cert.Spec.proj X W i :=
  ((congrArg (k0_pay3 (F := Ideal) x W) (eq_ix2 y)).trans (pay3_apply x W (y 0) (y 1))).trans (sum_block X W x t hx y i h0 h1)

theorem pay4_block (X : S4096x1024.Idx → EReal) (W : Vec Ideal S1024x1024 .f32) (x : Vec Ideal S512x1024 .f32) (t : ℕ)
    (hx : ∀ (y : S512x1024.Idx) (i : S4096x1024.Idx), (i 0).val = t * 512 + (y 0).val → (i 1).val = (y 1).val → x y = X i)
    (y : S512x1024.Idx) (i : S4096x1024.Idx) (h0 : (i 0).val = t * 512 + (y 0).val) (h1 : (i 1).val = (y 1).val) :
    k0_pay4 (F := Ideal) x W y = Cert.Spec.proj X W i :=
  ((congrArg (k0_pay4 (F := Ideal) x W) (eq_ix2 y)).trans (pay4_apply x W (y 0) (y 1))).trans (sum_block X W x t hx y i h0 h1)

/-- What a point writes back into the first output is its block of the projection of x by the first weight. -/
theorem flushedQ_eq (c : Dev nD) (t : Fin cfg0.N) :
    (dat0 (F := Ideal) V c).flushed 4 t
      = ((cfg0.win 4).blk t).view.read (Elt Ideal) (Cert.Spec.proj (V c main_arg0) (V c main_arg1)) := by
  show (cfg0.win 4).cut (grid0.coords t) ((dat0 (F := Ideal) V c).after 4 t) = _
  rw [after0_4]
  unfold outQ
  rw [View.canon_unit_zero hz]
  simp only [View.ld_unit_zero (S := S512x1024) hz, View.ld_unit_zero (S := S1024x1024) hz]
  rw [wblk1_eq]
  obtain ⟨-, -, -, -, -, -, -, -, e0, e1, -⟩ := idx_facts t
  funext j
  show k0_pay2 (F := Ideal) (iblk0 (F := Ideal) V c 0 t) (V c main_arg1) j
      = Cert.Spec.proj (V c main_arg0) (V c main_arg1) (((cfg0.win 4).blk t).view.emb j)
  refine pay2_block (V c main_arg0) (V c main_arg1) (iblk0 (F := Ideal) V c 0 t) t.val
    (fun y i h0 h1 => xblk_apply V c t y i h0 h1) j (((cfg0.win 4).blk t).view.emb j) ?_ ?_
  · show win0_4.index t (0 : Fin 2) * 512 + 1 * (j 0).val = t.val * 512 + (j 0).val
    omega
  · show win0_4.index t (1 : Fin 2) * 1024 + 1 * (j 1).val = (j 1).val
    omega

/-- An index of the first output is in point t's block iff each coordinate is in the block's range on its axis. -/
theorem mem_blkQ (t : Fin cfg0.N) (i : S4096x1024.Idx) :
    i ∈ ((cfg0.win 4).blk t).view.set
      ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

/-- Row r of the first output is written back by point r / 512. -/
theorem coverQ (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, -, -, e0, e1, -⟩ := idx_facts t
  refine ⟨t, flush0_4 t, ?_⟩
  rw [mem_blkQ]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- After the region the first output array is the projection of x by the first weight. -/
theorem projQ (c : Dev nD) :
    (dat0 (F := Ideal) V c).arrAt 4 cfg0.N = Cert.Spec.proj (V c main_arg0) (V c main_arg1) :=
  (dat0 (F := Ideal) V c).arrAt_eq_of_cover 4 (Cert.Spec.proj (V c main_arg0) (V c main_arg1))
    (fun t _ => flushedQ_eq V c t) coverQ

/-- What a point writes back into the second output is its block of the projection of x by the second weight. -/
theorem flushedK_eq (c : Dev nD) (t : Fin cfg0.N) :
    (dat0 (F := Ideal) V c).flushed 5 t
      = ((cfg0.win 5).blk t).view.read (Elt Ideal) (Cert.Spec.proj (V c main_arg0) (V c main_arg2)) := by
  show (cfg0.win 5).cut (grid0.coords t) ((dat0 (F := Ideal) V c).after 5 t) = _
  rw [after0_5]
  unfold outK
  rw [View.canon_unit_zero hz]
  simp only [View.ld_unit_zero (S := S512x1024) hz, View.ld_unit_zero (S := S1024x1024) hz]
  rw [wblk2_eq]
  obtain ⟨-, -, -, -, -, -, -, -, -, -, e0, e1, -⟩ := idx_facts t
  funext j
  show k0_pay3 (F := Ideal) (iblk0 (F := Ideal) V c 0 t) (V c main_arg2) j
      = Cert.Spec.proj (V c main_arg0) (V c main_arg2) (((cfg0.win 5).blk t).view.emb j)
  refine pay3_block (V c main_arg0) (V c main_arg2) (iblk0 (F := Ideal) V c 0 t) t.val
    (fun y i h0 h1 => xblk_apply V c t y i h0 h1) j (((cfg0.win 5).blk t).view.emb j) ?_ ?_
  · show win0_5.index t (0 : Fin 2) * 512 + 1 * (j 0).val = t.val * 512 + (j 0).val
    omega
  · show win0_5.index t (1 : Fin 2) * 1024 + 1 * (j 1).val = (j 1).val
    omega

/-- An index of the second output is in point t's block iff each coordinate is in the block's range on its axis. -/
theorem mem_blkK (t : Fin cfg0.N) (i : S4096x1024.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

/-- Row r of the second output is written back by point r / 512. -/
theorem coverK (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, -, -, -, -, e0, e1, -⟩ := idx_facts t
  refine ⟨t, flush0_5 t, ?_⟩
  rw [mem_blkK]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- After the region the second output array is the projection of x by the second weight. -/
theorem projK (c : Dev nD) :
    (dat0 (F := Ideal) V c).arrAt 5 cfg0.N = Cert.Spec.proj (V c main_arg0) (V c main_arg2) :=
  (dat0 (F := Ideal) V c).arrAt_eq_of_cover 5 (Cert.Spec.proj (V c main_arg0) (V c main_arg2))
    (fun t _ => flushedK_eq V c t) coverK

/-- What a point writes back into the third output is its block of the projection of x by the third weight. -/
theorem flushedV_eq (c : Dev nD) (t : Fin cfg0.N) :
    (dat0 (F := Ideal) V c).flushed 6 t
      = ((cfg0.win 6).blk t).view.read (Elt Ideal) (Cert.Spec.proj (V c main_arg0) (V c main_arg3)) := by
  show (cfg0.win 6).cut (grid0.coords t) ((dat0 (F := Ideal) V c).after 6 t) = _
  rw [after0_6]
  unfold outV
  rw [View.canon_unit_zero hz]
  simp only [View.ld_unit_zero (S := S512x1024) hz, View.ld_unit_zero (S := S1024x1024) hz]
  rw [wblk3_eq]
  obtain ⟨-, -, -, -, -, -, -, -, -, -, -, -, e0, e1⟩ := idx_facts t
  funext j
  show k0_pay4 (F := Ideal) (iblk0 (F := Ideal) V c 0 t) (V c main_arg3) j
      = Cert.Spec.proj (V c main_arg0) (V c main_arg3) (((cfg0.win 6).blk t).view.emb j)
  refine pay4_block (V c main_arg0) (V c main_arg3) (iblk0 (F := Ideal) V c 0 t) t.val
    (fun y i h0 h1 => xblk_apply V c t y i h0 h1) j (((cfg0.win 6).blk t).view.emb j) ?_ ?_
  · show win0_6.index t (0 : Fin 2) * 512 + 1 * (j 0).val = t.val * 512 + (j 0).val
    omega
  · show win0_6.index t (1 : Fin 2) * 1024 + 1 * (j 1).val = (j 1).val
    omega

/-- An index of the third output is in point t's block iff each coordinate is in the block's range on its axis. -/
theorem mem_blkV (t : Fin cfg0.N) (i : S4096x1024.Idx) :
    i ∈ ((cfg0.win 6).blk t).view.set
      ↔ ∀ a : Fin 2, win0_6.index t a * S512x1024.size a ≤ (i a).val ∧ (i a).val < win0_6.index t a * S512x1024.size a + S512x1024.size a := by
  show i ∈ ((View.whole main_v0_2).slice (win0_6.rect t)).set ↔ _
  rw [View.set_slice_whole, Rect.mem_set_unit]
  exact Iff.rfl

/-- Row r of the third output is written back by point r / 512. -/
theorem coverV (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, -, -, -, -, -, -, e0, e1⟩ := idx_facts t
  refine ⟨t, flush0_6 t, ?_⟩
  rw [mem_blkV]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- After the region the third output array is the projection of x by the third weight. -/
theorem projV (c : Dev nD) :
    (dat0 (F := Ideal) V c).arrAt 6 cfg0.N = Cert.Spec.proj (V c main_arg0) (V c main_arg3) :=
  (dat0 (F := Ideal) V c).arrAt_eq_of_cover 6 (Cert.Spec.proj (V c main_arg0) (V c main_arg3))
    (fun t _ => flushedV_eq V c t) coverV

end Blocks

end Cert.KernelIdeal.ProjValue

end
-- ==== Proof.ProjReal.lean ====
/-
  REAL INPUTS GIVE REAL PROJECTIONS AND REAL SCORES.
  A finite sum of products of real numbers, computed in the extended reals, is a real number: it is the coercion of the
  real sum of the real products. Hence every entry of a projection of real arrays is real, and so is every score
  (a sum of products of real entries times the real scale 1/32). An extended real that is a real number is the
  coercion of its real part.
-/
import proofs.«164044_j26826365731266_2_alg».proof.Proof.Spec
import proofs.«164044_j26826365731266_2_alg».proof.Proof.LibOnlineSoftmax

noncomputable section

namespace Cert.Spec

open Idealize.ShloMosaic Idealize.ShloMosaic.ValueIdx

/-- An extended real that is a real number is the coercion of its real part. -/
theorem coe_toReal_of_real {x : EReal} (h : ∃ ρ : ℝ, x = (ρ : EReal)) : x = ((x.toReal : ℝ) : EReal) := by
  obtain ⟨ρ, rfl⟩ := h
  rw [EReal.toReal_coe]

/-- A finite sum of products of real numbers is a real number. -/
theorem sum_mul_real {n : ℕ} (a b : Fin n → EReal) (ha : ∀ k, ∃ ρ : ℝ, a k = (ρ : EReal))
    (hb : ∀ k, ∃ ρ : ℝ, b k = (ρ : EReal)) : ∃ ρ : ℝ, ∑ k, a k * b k = (ρ : EReal) := by
  choose α hα using ha
  choose β hβ using hb
  refine ⟨∑ k, α k * β k, ?_⟩
  rw [LibOnlineSoftmax.coe_sum]
  refine Finset.sum_congr rfl fun k _ => ?_
  rw [hα k, hβ k, EReal.coe_mul]

/-- Every entry of a projection of real arrays is real. -/
theorem proj_real (x : A4096.Idx → EReal) (W : A1024.Idx → EReal) (hx : IsReal x) (hW : IsReal W) : IsReal (proj x W) :=
  fun i => sum_mul_real (fun k => x (ix2 (i 0) k)) (fun k => W (ix2 (i 1) k)) (fun _ => hx _) (fun _ => hW _)

/-- Every score of real queries against real keys is real. -/
theorem score_real (Q K : A4096.Idx → EReal) (hQ : IsReal Q) (hK : IsReal K) (i j : Fin 4096) :
    ∃ ρ : ℝ, score Q K i j = (ρ : EReal) := by
  obtain ⟨σ, hσ⟩ := sum_mul_real (fun e : Fin 1024 => Q (ix2 i e)) (fun e => K (ix2 j e)) (fun _ => hQ _) (fun _ => hK _)
  refine ⟨σ * (1 / 32), ?_⟩
  unfold score
  rw [scale_eq, EReal.coe_mul]
  exact congrArg (· * ((1 / 32 : ℝ) : EReal)) hσ

end Cert.Spec

end
-- ==== Proof.LibFiniteReal.lean ====
/-
  FROM "EVERY ENTRY IS BELOW +∞ IN ABSOLUTE VALUE" TO "EVERY ENTRY IS A REAL NUMBER", at the ideal values
  (floats are extended reals), independent of any particular program.
  A precondition "every entry of `x` is finite" prints, per float array `x`, as: the absolute value of `x`, the
  f32 word 0x7F800000 broadcast to `x`'s shape, their elementwise ordered less-than (an array of one-bit words), and the
  reduction of that array by `and` over all axes from the constant 1. This file reads that back:
  • `real_of_abs_lt_top`: an extended real whose absolute value compares below +∞ is a real number;
  • `ofBits_inf_f32`, `broadcast_inf_apply`: the word 0x7F800000 is +∞, and so is its broadcast at every index;
  • `forall_real_of_all_abs_lt`: if the reduction is 1 then every entry of `x` is a real number, against any array that
    is +∞ everywhere; `forall_real_of_all_abs_lt_inf`: the same against the broadcast word, the form a printed
    precondition has.
  The conclusion is spelt out, `∀ i, ∃ r : ℝ, x i = (r : EReal)`: the statement that `x` is an array of real numbers.
-/
import Idealize.ShloMosaic.Lib.ReduceAll
import Idealize.ShloMosaic.PureOps.Ideal

noncomputable section

namespace FiniteReal

open Idealize.ShloMosaic

/-- An extended real whose absolute value `max x (-x)` compares (ordered less-than, as a one-bit word) below +∞ is a
    real number: at ⊥ and at ⊤ the absolute value is ⊤, and ⊤ < ⊤ is false. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- The f32 word 0x7F800000 denotes +∞. -/
theorem ofBits_inf_f32 : Ideal.ofBits .f32 0x7F800000#32 = ⊤ := by simp [Ideal.ofBits, Ideal.ieee]

/-- The word 0x7F800000 as a constant of any shape, broadcast to any shape, reads +∞ at every index. -/
theorem broadcast_inf_apply {u s : Shape} (dims : Fin u.rank → Fin s.rank) (hb : u.BroadcastsInDim s dims) (i : s.Idx) :
    broadcastInDim s dims hb (constant (F := Ideal) u .f32 0x7F800000#32) i = ⊤ := by
  unfold broadcastInDim
  exact ofBits_inf_f32

/-- If the `and` over ALL entries of "the absolute value of `x` is below `B`" is 1, and `B` is +∞ everywhere, then
    every entry of `x` is a real number. (`t` has one index: the reduction is over all axes.) -/
theorem forall_real_of_all_abs_lt {s t u : Shape} {axes : List (Fin s.rank)} [Subsingleton t.Idx]
    (x B : FVec Ideal s .f32) (hB : ∀ i, B i = ⊤) (init : u.Idx → BitVec 1) (h : s.ReducesTo axes t) (hu : 0 < u.numel)
    (j : t.Idx) (e : Host.reduce IntOp.andi (cmpf .olt (Host.absf x) B) init h hu j = 1#1) :
    ∀ i, ∃ r : ℝ, x i = (r : EReal) := fun i => by
  have hi := Host.reduce_andi_all (cmpf .olt (Host.absf x) B) init h hu j e i
  refine real_of_abs_lt_top (x i) ?_
  have : cmpf .olt (Host.absf x) B i = Ideal.cmp .olt (max (x i) (-(x i))) (B i) := rfl
  rw [this, hB i] at hi
  exact hi

/-- The printed form: against the word 0x7F800000 broadcast to `x`'s shape. -/
theorem forall_real_of_all_abs_lt_inf {s t u v : Shape} {axes : List (Fin s.rank)} [Subsingleton t.Idx]
    (x : FVec Ideal s .f32) (dims : Fin v.rank → Fin s.rank) (hb : v.BroadcastsInDim s dims)
    (init : u.Idx → BitVec 1) (h : s.ReducesTo axes t) (hu : 0 < u.numel) (j : t.Idx)
    (e : Host.reduce IntOp.andi
          (cmpf .olt (Host.absf x) (broadcastInDim s dims hb (constant (F := Ideal) v .f32 0x7F800000#32))) init h hu j = 1#1) :
    ∀ i, ∃ r : ℝ, x i = (r : EReal) :=
  forall_real_of_all_abs_lt x _ (broadcast_inf_apply dims hb) init h hu j e

end FiniteReal

end
-- ==== Proof.FiniteArgs.lean ====
/-
  FROM THE PRECONDITION TO REAL INPUTS.
  The precondition says: for each of the four argument arrays, the "and" over all entries of "the absolute value of the
  entry is below +∞" is 1, and the "and" of those four one-bit words is 1. Hence each of the four words is 1, and an
  array all of whose entries are below +∞ in absolute value is an array of real numbers.
-/
import proofs.«164044_j26826365731266_2_alg».proof.Defs
import proofs.«164044_j26826365731266_2_alg».proof.Proof.Gen.Pre_finite_inputs
import proofs.«164044_j26826365731266_2_alg».proof.Proof.LibFiniteReal
import proofs.«164044_j26826365731266_2_alg».proof.Proof.Spec
import Idealize.ShloMosaic.Lib.Affine
import Idealize.ShloMosaic.Lib.ValueIdx

noncomputable section

namespace Cert.KernelIdeal.FiniteArgs

open Idealize.ShloMosaic Idealize.SL.Sem Idealize.ShloMosaic.ValueIdx

/-- The shape with no axes has exactly one index. -/
instance : Subsingleton Cert.Pre_finite_inputs.S_.Idx := ⟨fun a b => funext fun d => d.elim0⟩

/-- The four words of the precondition, separately: if the function of the precondition is 1 on four arrays, then each of
    them is an array of real numbers. -/
theorem real_of_fn (a0 : FVec Ideal Cert.Pre_finite_inputs.S4096x1024 .f32)
    (a1 a2 a3 : FVec Ideal Cert.Pre_finite_inputs.S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨FiniteReal.forall_real_of_all_abs_lt_inf a0 _ _ _ _ _ _ h0',
    FiniteReal.forall_real_of_all_abs_lt_inf a1 _ _ _ _ _ _ h1,
    FiniteReal.forall_real_of_all_abs_lt_inf a2 _ _ _ _ _ _ h2,
    FiniteReal.forall_real_of_all_abs_lt_inf a3 _ _ _ _ _ _ h3⟩

/-- Under the precondition, on every device, the four argument arrays are arrays of real numbers. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (s := Cert.Spec.A4096) (m ((c.tc : Thread Cert.KernelIdeal.nD Cert.KernelIdeal.τ).loc Cert.KernelIdeal.main_arg0))
    ∧ Cert.Spec.IsReal (s := Cert.Spec.A1024) (m ((c.tc : Thread Cert.KernelIdeal.nD Cert.KernelIdeal.τ).loc Cert.KernelIdeal.main_arg1))
    ∧ Cert.Spec.IsReal (s := Cert.Spec.A1024) (m ((c.tc : Thread Cert.KernelIdeal.nD Cert.KernelIdeal.τ).loc Cert.KernelIdeal.main_arg2))
    ∧ Cert.Spec.IsReal (s := Cert.Spec.A1024) (m ((c.tc : Thread Cert.KernelIdeal.nD Cert.KernelIdeal.τ).loc Cert.KernelIdeal.main_arg3)) :=
  real_of_fn _ _ _ _ (h c)

end Cert.KernelIdeal.FiniteArgs

end
-- ==== Proof.KernelValue.lean ====
/-
  The kernel's result array as a function of its arguments. The projection region leaves the three projections of x in
  the query, key and value arrays; on real inputs these are arrays of real numbers; the attention region then leaves causal
  attention over them in the result array.
-/
import proofs.«164044_j26826365731266_2_alg».proof.Proof.Run
import proofs.«164044_j26826365731266_2_alg».proof.Proof.AttnValue
import proofs.«164044_j26826365731266_2_alg».proof.Proof.AttnFinal
import proofs.«164044_j26826365731266_2_alg».proof.Proof.ProjValue
import proofs.«164044_j26826365731266_2_alg».proof.Proof.ProjReal
import proofs.«164044_j26826365731266_2_alg».proof.Proof.FiniteArgs
import proofs.«164044_j26826365731266_2_alg».proof.Defs

set_option maxRecDepth 16384

noncomputable section

namespace Cert.KernelIdeal.KernelValue

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ)

/-- The query array the attention region finds is the projection of x by the first weight; -/
theorem v2_q (c : Dev nD) : AttnValue.Qa (V2 m) c = Spec.proj (m ((c.tc : Thread nD τ).loc main_arg0)) (m ((c.tc : Thread nD τ).loc main_arg1)) :=
  (W2_arr m c 4).trans (ProjValue.projQ (V1 m) c)
/-- the key array by the second; -/
theorem v2_k (c : Dev nD) : AttnValue.Ka (V2 m) c = Spec.proj (m ((c.tc : Thread nD τ).loc main_arg0)) (m ((c.tc : Thread nD τ).loc main_arg2)) :=
  (W2_arr m c 5).trans (ProjValue.projK (V1 m) c)
/-- the value array by the third. -/
theorem v2_v (c : Dev nD) : AttnValue.Va (V2 m) c = Spec.proj (m ((c.tc : Thread nD τ).loc main_arg0)) (m ((c.tc : Thread nD τ).loc main_arg3)) :=
  (W2_arr m c 6).trans (ProjValue.projV (V1 m) c)

/-- THE KERNEL'S VALUE: under the precondition the result array ends at the common function of the four arguments. -/
theorem kernel_value (h : Cert.Pre_KernelIdeal m) (c : Dev nD) :
    (dat1 (F := Ideal) (V2 m) c).arrAt 3 cfg1.N
      = Spec.G (m ((c.tc : Thread nD τ).loc main_arg0)) (m ((c.tc : Thread nD τ).loc main_arg1))
          (m ((c.tc : Thread nD τ).loc main_arg2)) (m ((c.tc : Thread nD τ).loc main_arg3)) := by
  obtain ⟨hx, hq, hk, hv⟩ := FiniteArgs.real_of_pre m h c
  have hQ : Spec.IsReal (AttnValue.Qa (V2 m) c) := by rw [v2_q]; exact Spec.proj_real _ _ hx hq
  have hK : Spec.IsReal (AttnValue.Ka (V2 m) c) := by rw [v2_k]; exact Spec.proj_real _ _ hx hk
  have hV : Spec.IsReal (AttnValue.Va (V2 m) c) := by rw [v2_v]; exact Spec.proj_real _ _ hx hv
  refine (AttnFinal.final_attn (V2 m) c (Spec.attend (AttnValue.Qa (V2 m) c) (AttnValue.Ka (V2 m) c) (AttnValue.Va (V2 m) c))
    (fun t r d => AttnValue.outRow_eq (V2 m) c hQ hK hV t r d)).trans ?_
  unfold Spec.G
  rw [v2_q, v2_k, v2_v]

end Cert.KernelIdeal.KernelValue

end
-- ==== Proof.RefProj.lean ====
/-
  The reference's three projections. Each is a transpose of a weight followed by a contraction of the input's feature
  axis against the transposed weight's first axis: entry (i, f) is the sum over k of x (i, k) · W (f, k). On real
  inputs every entry of a projection is a real number.
-/
import proofs.«164044_j26826365731266_2_alg».proof.Proof.Gen.ReferenceIdeal.Read
import proofs.«164044_j26826365731266_2_alg».proof.Proof.Spec

noncomputable section

namespace Cert.ReferenceIdeal.RefProj

open Cert.ReferenceIdeal Cert.ReferenceIdeal.Read Idealize.ShloMosaic Idealize.ShloMosaic.ValueIdx

/-- The array types of the input and of a weight. -/
abbrev XT : Type := (⟨S4096x1024, .f32⟩ : BufTy).Contents (Elt Ideal)
abbrev WT : Type := (⟨S1024x1024, .f32⟩ : BufTy).Contents (Elt Ideal)

/-- The query projection. -/
theorem v1_eq (x : XT) (w : WT) : val_main_v1 (F := Ideal) x w = Cert.Spec.proj x w := by
  funext i
  rw [val_main_v1_apply]
  refine Finset.sum_congr rfl fun k _ => ?_
  rw [val_main_v0_apply]
  have e1 : lidx_main_v1 i k = ix2 (i 0) k :=
    funext fun a => Fin.ext (by match a with | ⟨0, _⟩ => rfl | ⟨1, _⟩ => rfl)
  have e2 : idx_main_v0 (ridx_main_v1 i k) = ix2 (i 1) k :=
    funext fun a => Fin.ext (by match a with | ⟨0, _⟩ => rfl | ⟨1, _⟩ => rfl)
  rw [e1, e2]
  rfl

/-- The key projection. -/
theorem v3_eq (x : XT) (w : WT) : val_main_v3 (F := Ideal) x w = Cert.Spec.proj x w := by
  funext i
  rw [val_main_v3_apply]
  refine Finset.sum_congr rfl fun k _ => ?_
  rw [val_main_v2_apply]
  have e1 : lidx_main_v3 i k = ix2 (i 0) k :=
    funext fun a => Fin.ext (by match a with | ⟨0, _⟩ => rfl | ⟨1, _⟩ => rfl)
  have e2 : idx_main_v2 (ridx_main_v3 i k) = ix2 (i 1) k :=
    funext fun a => Fin.ext (by match a with | ⟨0, _⟩ => rfl | ⟨1, _⟩ => rfl)
  rw [e1, e2]
  rfl

/-- The value projection. -/
theorem v5_eq (x : XT) (w : WT) : val_main_v5 (F := Ideal) x w = Cert.Spec.proj x w := by
  funext i
  rw [val_main_v5_apply]
  refine Finset.sum_congr rfl fun k _ => ?_
  rw [val_main_v4_apply]
  have e1 : lidx_main_v5 i k = ix2 (i 0) k :=
    funext fun a => Fin.ext (by match a with | ⟨0, _⟩ => rfl | ⟨1, _⟩ => rfl)
  have e2 : idx_main_v4 (ridx_main_v5 i k) = ix2 (i 1) k :=
    funext fun a => Fin.ext (by match a with | ⟨0, _⟩ => rfl | ⟨1, _⟩ => rfl)
  rw [e1, e2]
  rfl

/-! ## Real entries -/

/-- A finite sum of products of reals is a real. -/
theorem sum_mul_real {ι : Type} (S : Finset ι) (f g : ι → EReal) (hf : ∀ k, ∃ r : ℝ, f k = (r : EReal))
    (hg : ∀ k, ∃ r : ℝ, g k = (r : EReal)) : ∃ r : ℝ, ∑ k ∈ S, f k * g k = (r : EReal) := by
  classical
  choose a ha using hf
  choose b hb using hg
  refine ⟨∑ k ∈ S, a k * b k, ?_⟩
  rw [Cert.LibOnlineSoftmax.coe_sum]
  exact Finset.sum_congr rfl fun k _ => by rw [ha k, hb k, EReal.coe_mul]

/-- A projection of real arrays is a real array. -/
theorem proj_real (x : XT) (w : WT) (hx : Cert.Spec.IsReal x) (hw : Cert.Spec.IsReal w) :
    Cert.Spec.IsReal (Cert.Spec.proj x w) := fun i =>
  sum_mul_real Finset.univ (fun k => x (ix2 (i 0) k)) (fun k => w (ix2 (i 1) k)) (fun k => hx _) (fun k => hw _)

end Cert.ReferenceIdeal.RefProj

end
-- ==== Proof.RefScore.lean ====
/-
  The reference's scores and its causal mask, read at an index.
  The product of the queries with the transposed keys has entry (a, b) = ∑_e Q (a, e) · K (b, e); it is divided by the
  square root of the constant 1024, which is 32, so entry (a, b) is the specification's score of query a against key b.
  On real queries and keys every score is a real number.
  The mask compares a row counter with a column counter as signed 32-bit words; both are below 4096, so the comparison
  is the comparison of the numbers: the mask is 1 where the key is not after the query and 0 elsewhere.
-/
import proofs.«164044_j26826365731266_2_alg».proof.Proof.RefProj

noncomputable section

namespace Cert.ReferenceIdeal.RefScore

open Cert.ReferenceIdeal Cert.ReferenceIdeal.Read Cert.ReferenceIdeal.RefProj Idealize.ShloMosaic Idealize.ShloMosaic.ValueIdx

/-! ## The constants -/

theorem ofBits_1024 : Ideal.ofBits .f32 0x44800000#32 = ((1024 : ℝ) : EReal) := by
  simp [Ideal.ofBits, Ideal.ieee]
  rw [← EReal.coe_mul]
  norm_num

theorem ofBits_one : Ideal.ofBits .f32 0x3F800000#32 = (1 : EReal) := by
  simp [Ideal.ofBits, Ideal.ieee]
  rw [← EReal.coe_mul]
  norm_num

theorem ofBits_neg_inf : Ideal.ofBits .f32 0xFF800000#32 = (⊥ : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-! ## The mask -/

/-- A number below 4096, as a 32-bit word read as a signed integer, is itself. -/
theorem toInt_small (n : Nat) (hn : n < 4096) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The signed comparison "row counter plus zero ≥ column counter" is the comparison of the two numbers. -/
theorem sge_small (a b : Fin 4096) :
    IntOp.cmpi .sge (IntOp.addi (BitVec.ofNat 32 a.val) 0#32) (BitVec.ofNat 32 b.val) = if b ≤ a then 1#1 else 0#1 := by
  show BitVec.ofBool ((BitVec.ofNat 32 b.val).sle (BitVec.ofNat 32 a.val + 0#32)) = _
  rw [BitVec.add_zero, BitVec.sle_eq_decide, toInt_small _ a.isLt, toInt_small _ b.isLt]
  by_cases h : b ≤ a
  · rw [if_pos h, decide_eq_true (by exact_mod_cast h)]; rfl
  · rw [if_neg h, decide_eq_false (by exact_mod_cast h)]; rfl

/-- The mask at (a, b): 1 where key b is not after query a, else 0. -/
theorem mask_apply (a b : Fin 4096) :
    val_main_v23 (F := Ideal) (ix2 a b) = if b ≤ a then (1 : EReal) else 0 := by
  rw [val_main_v23_apply, val_main_call0_v4_apply, val_main_call0_v2_apply, val_main_call0_v0_apply, val_main_call0_v1_apply,
    val_main_call0_c_apply, val_main_call0_v3_apply, val_main_v22_apply, val_main_cst_3_apply, val_main_call0_v5_apply,
    val_main_call0_cst_apply]
  show Scalar.select (IntOp.cmpi .sge (IntOp.addi (BitVec.ofNat 32 a.val) 0#32) (BitVec.ofNat 32 b.val))
    (Ideal.ofBits .f32 0x3F800000#32) (Ideal.ofBits .f32 0x00000000#32) = _
  rw [sge_small, ofBits_one, Ideal.ofBits_zero_f32]
  by_cases h : b ≤ a
  · rw [if_pos h, if_pos h]; exact select_one _ _
  · rw [if_neg h, if_neg h]; exact select_zero _ _

/-! ## The scores -/

/-- The product of the queries with the transposed keys at (a, b). -/
theorem v7_apply (x : XT) (wq wk : WT) (a b : Fin 4096) :
    val_main_v7 (F := Ideal) x wq wk (ix2 a b)
      = ∑ e : Fin 1024, Cert.Spec.proj x wq (ix2 a e) * Cert.Spec.proj x wk (ix2 b e) := by
  rw [val_main_v7_apply]
  refine Finset.sum_congr rfl fun k _ => ?_
  rw [val_main_v6_apply, v1_eq, v3_eq]
  have e1 : lidx_main_v7 (ix2 a b) k = ix2 a k :=
    funext fun c => Fin.ext (by match c with | ⟨0, _⟩ => rfl | ⟨1, _⟩ => rfl)
  have e2 : idx_main_v6 (ridx_main_v7 (ix2 a b) k) = ix2 b k :=
    funext fun c => Fin.ext (by match c with | ⟨0, _⟩ => rfl | ⟨1, _⟩ => rfl)
  rw [e1, e2]

/-- The divisor: the square root of 1024, at every index. -/
theorem v9_apply (i : S4096x4096.Idx) : val_main_v9 (F := Ideal) i = ((32 : ℝ) : EReal) := by
  rw [val_main_v9_apply, val_main_v8_apply, val_main_cst_apply]
  show Ideal.sqrt (Ideal.ofBits .f32 0x44800000#32) = _
  rw [ofBits_1024, sqrt_1024]

/-- The scaled scores are the specification's scores. -/
theorem v10_apply (x : XT) (wq wk : WT) (a b : Fin 4096) :
    val_main_v10 (F := Ideal) x wq wk (ix2 a b) = Cert.Spec.score (Cert.Spec.proj x wq) (Cert.Spec.proj x wk) a b := by
  rw [val_main_v10_apply, v9_apply, v7_apply]
  show Ideal.div _ _ = _
  rw [Ideal.div_coe (by norm_num : (32 : ℝ) ≠ 0)]
  unfold Cert.Spec.score
  rw [Cert.Spec.scale_eq]

/-- A score of real queries and keys is a real number. -/
theorem score_real (Q K : XT) (hQ : Cert.Spec.IsReal Q) (hK : Cert.Spec.IsReal K) (a b : Fin 4096) :
    ∃ r : ℝ, Cert.Spec.score Q K a b = (r : EReal) := by
  obtain ⟨r, hr⟩ := sum_mul_real Finset.univ (fun e : Fin 1024 => Q (ix2 a e)) (fun e => K (ix2 b e))
    (fun _ => hQ _) (fun _ => hK _)
  refine ⟨r * (1 / 32), ?_⟩
  unfold Cert.Spec.score
  rw [Cert.Spec.scale_eq, EReal.coe_mul]
  exact congrArg (fun z => z * ((1 / 32 : ℝ) : EReal)) hr

/-- A real score is the coercion of its real part. -/
theorem score_coe (Q K : XT) (hQ : Cert.Spec.IsReal Q) (hK : Cert.Spec.IsReal K) (a b : Fin 4096) :
    Cert.Spec.score Q K a b = (((Cert.Spec.score Q K a b).toReal : ℝ) : EReal) := by
  obtain ⟨r, hr⟩ := score_real Q K hQ hK a b
  rw [hr, EReal.toReal_coe]

end Cert.ReferenceIdeal.RefScore

end
-- ==== Proof.RefRow.lean ====
/-
  One query row of the reference, stage by stage.
  The shift of row a is the maximum of the row's scores taken from -∞ (and once more against -∞, which changes
  nothing); over real scores and a nonempty row it is a real number. The later stages at (a, b), writing s for the
  scores of row a and M for its shift:
    the exponentials  e^{s b - M};   their row sum;   the softmax weight  e^{s b - M} / ∑_k e^{s k - M};
    the masked weight (mask · weight);   its row sum;   the renormalised weight (masked weight / that sum).
  A float sum starts from the zero word, which is 0.
-/
import proofs.«164044_j26826365731266_2_alg».proof.Proof.RefScore
import Idealize.ShloMosaic.PureOps.Reduce

noncomputable section

namespace Cert.ReferenceIdeal.RefRow

open Cert.ReferenceIdeal Cert.ReferenceIdeal.Gen Cert.ReferenceIdeal.Read Cert.ReferenceIdeal.RefProj Cert.ReferenceIdeal.RefScore
open Idealize.ShloMosaic Idealize.ShloMosaic.ValueIdx

/-! ## The row maximum is real -/

/-- A maximum from -∞ over a nonempty finite family of reals is a real. -/
theorem fold_max_real {ι : Type} [Fintype ι] [Nonempty ι] (f : ι → EReal) (hf : ∀ k, ∃ r : ℝ, f k = (r : EReal)) :
    ∃ μ : ℝ, (Finset.univ : Finset ι).fold max ⊥ f = (μ : EReal) := by
  classical
  have h0 : (Finset.univ : Finset ι).fold max ⊥ f = Finset.univ.sup f := rfl
  rw [h0]
  rcases Cert.LibOnlineSoftmax.sup_real_or_bot Finset.univ f (fun j _ => Or.inr (hf j)) with h | h
  · exfalso
    obtain ⟨k⟩ := ‹Nonempty ι›
    obtain ⟨r, hr⟩ := hf k
    have hle := Finset.le_sup (f := f) (Finset.mem_univ k)
    rw [h, hr] at hle
    exact EReal.coe_ne_bot r (le_bot_iff.mp hle)
  · exact h

/-- The reference's shift of a row whose scaled scores are all real is a real number. -/
theorem v13_real (x : XT) (wq wk : WT) (hs : ∀ i, ∃ r : ℝ, val_main_v10 (F := Ideal) x wq wk i = (r : EReal))
    (j : S4096.Idx) : ∃ μ : ℝ, val_main_v13 (F := Ideal) x wq wk j = (μ : EReal) := by
  rw [val_main_v13_apply, val_main_v12_apply, val_main_cst_1_apply]
  show ∃ μ : ℝ, max (Ideal.ofBits .f32 0xFF800000#32) (val_main_v11 (F := Ideal) x wq wk j) = (μ : EReal)
  rw [ofBits_neg_inf, max_bot_left]
  unfold val_main_v11
  have hR : S4096x4096.Reduces [1] S4096 := by decide
  rw [Host.reduce_eq_fold_single FloatOps.maximumf _ _ reducesTo_S4096x4096_S4096_d1 hR h_S_]
  show ∃ μ : ℝ, (Finset.univ : Finset (Fin (S4096x4096.size 1))).fold max (Ideal.ofBits .f32 0xFF800000#32)
    (val_main_v10 (F := Ideal) x wq wk ∘ hR.lift j) = (μ : EReal)
  rw [ofBits_neg_inf]
  haveI : Nonempty (Fin (S4096x4096.size 1)) := ⟨⟨0, by decide⟩⟩
  exact fold_max_real _ fun k => hs _

/-! ## The stages of a row at an index -/

section Stages

variable (x : XT) (wq wk : WT)

/-! Below, the score of query a against key b is the specification's score on the reference's queries and keys, and the
    shift of row a is the reference's maximum stage at a. -/

theorem v15_apply (a b : Fin 4096) : val_main_v15 (F := Ideal) x wq wk (ix2 a b) = val_main_v13 (F := Ideal) x wq wk (ix1 a) := by
  rw [val_main_v15_apply, val_main_v14_apply]
  exact congrArg (val_main_v13 (F := Ideal) x wq wk) (funext fun c => Fin.ext (by match c with | ⟨0, _⟩ => rfl))

theorem v17_apply (a b : Fin 4096) :
    val_main_v17 (F := Ideal) x wq wk (ix2 a b) = Ideal.exp (Cert.Spec.score (Cert.Spec.proj x wq) (Cert.Spec.proj x wk) a b - val_main_v13 (F := Ideal) x wq wk (ix1 a)) := by
  rw [val_main_v17_apply, val_main_v16_apply, v15_apply, v10_apply]
  rfl

theorem v18_apply (a : Fin 4096) :
    val_main_v18 (F := Ideal) x wq wk (ix1 a) = ∑ k : Fin 4096, Ideal.exp (Cert.Spec.score (Cert.Spec.proj x wq) (Cert.Spec.proj x wk) a k - val_main_v13 (F := Ideal) x wq wk (ix1 a)) := by
  rw [val_main_v18_apply]
  show Ideal.ofBits .f32 0x00000000#32 + _ = _
  rw [Ideal.ofBits_zero_f32, zero_add]
  refine Finset.sum_congr rfl fun k _ => ?_
  have e : idx_main_v18 (ix1 a) k = ix2 a k :=
    funext fun c => Fin.ext (by match c with | ⟨0, _⟩ => rfl | ⟨1, _⟩ => rfl)
  rw [e, v17_apply]

theorem v20_apply (a b : Fin 4096) :
    val_main_v20 (F := Ideal) x wq wk (ix2 a b) = val_main_v18 (F := Ideal) x wq wk (ix1 a) := by
  rw [val_main_v20_apply, val_main_v19_apply]
  exact congrArg (val_main_v18 (F := Ideal) x wq wk) (funext fun c => Fin.ext (by match c with | ⟨0, _⟩ => rfl))

/-- The softmax weight of key b in row a. -/
theorem v21_apply (a b : Fin 4096) :
    val_main_v21 (F := Ideal) x wq wk (ix2 a b)
      = Ideal.div (Ideal.exp (Cert.Spec.score (Cert.Spec.proj x wq) (Cert.Spec.proj x wk) a b - val_main_v13 (F := Ideal) x wq wk (ix1 a))) (∑ k : Fin 4096, Ideal.exp (Cert.Spec.score (Cert.Spec.proj x wq) (Cert.Spec.proj x wk) a k - val_main_v13 (F := Ideal) x wq wk (ix1 a))) := by
  rw [val_main_v21_apply, v20_apply, v18_apply, v17_apply]
  rfl

/-- The masked weight. -/
theorem v24_apply (a b : Fin 4096) :
    val_main_v24 (F := Ideal) x wq wk (ix2 a b)
      = (if b ≤ a then (1 : EReal) else 0)
        * Ideal.div (Ideal.exp (Cert.Spec.score (Cert.Spec.proj x wq) (Cert.Spec.proj x wk) a b - val_main_v13 (F := Ideal) x wq wk (ix1 a))) (∑ k : Fin 4096, Ideal.exp (Cert.Spec.score (Cert.Spec.proj x wq) (Cert.Spec.proj x wk) a k - val_main_v13 (F := Ideal) x wq wk (ix1 a))) := by
  rw [val_main_v24_apply, mask_apply, v21_apply]
  rfl

theorem v25_apply (a : Fin 4096) :
    val_main_v25 (F := Ideal) x wq wk (ix1 a) = ∑ k : Fin 4096, val_main_v24 (F := Ideal) x wq wk (ix2 a k) := by
  rw [val_main_v25_apply]
  show Ideal.ofBits .f32 0x00000000#32 + _ = _
  rw [Ideal.ofBits_zero_f32, zero_add]
  refine Finset.sum_congr rfl fun k _ => ?_
  have e : idx_main_v25 (ix1 a) k = ix2 a k :=
    funext fun c => Fin.ext (by match c with | ⟨0, _⟩ => rfl | ⟨1, _⟩ => rfl)
  rw [e]

theorem v27_apply (a b : Fin 4096) :
    val_main_v27 (F := Ideal) x wq wk (ix2 a b) = val_main_v25 (F := Ideal) x wq wk (ix1 a) := by
  rw [val_main_v27_apply, val_main_v26_apply]
  exact congrArg (val_main_v25 (F := Ideal) x wq wk) (funext fun c => Fin.ext (by match c with | ⟨0, _⟩ => rfl))

/-- The renormalised masked weight. -/
theorem v28_apply (a b : Fin 4096) :
    val_main_v28 (F := Ideal) x wq wk (ix2 a b)
      = Ideal.div (val_main_v24 (F := Ideal) x wq wk (ix2 a b)) (∑ k : Fin 4096, val_main_v24 (F := Ideal) x wq wk (ix2 a k)) := by
  rw [val_main_v28_apply, v27_apply, v25_apply]
  rfl

end Stages

end Cert.ReferenceIdeal.RefRow

end
-- ==== Proof.RefValue.lean ====
/-
  The reference's value is the specification.
  At output entry (a, d) the reference sums, over all keys j, the renormalised masked softmax weight of key j in row a
  times the value V (j, d). On real inputs the scores of row a, the values and the row's shift are real numbers, and a
  full softmax row at any real shift, masked to the keys not after the query and renormalised, summed against the values,
  is the softmax-weighted average over the keys not after the query.
-/
import proofs.«164044_j26826365731266_2_alg».proof.Proof.RefRow

noncomputable section

namespace Cert.ReferenceIdeal.RefValue

open Cert.ReferenceIdeal Cert.ReferenceIdeal.Read Cert.ReferenceIdeal.RefProj Cert.ReferenceIdeal.RefScore Cert.ReferenceIdeal.RefRow
open Idealize.ShloMosaic Idealize.ShloMosaic.ValueIdx

/-- A real entry is the coercion of its real part. -/
theorem coe_toReal_of_real {z : EReal} (h : ∃ r : ℝ, z = (r : EReal)) : z = ((z.toReal : ℝ) : EReal) := by
  obtain ⟨r, rfl⟩ := h
  rw [EReal.toReal_coe]

/-- Key j is not after query a exactly when j ≤ a. -/
theorem mem_causal (a j : Fin 4096) : j ∈ Cert.Spec.causal a ↔ j ≤ a := by
  unfold Cert.Spec.causal
  rw [Finset.mem_filter]
  exact ⟨fun h => h.2, fun h => ⟨Finset.mem_univ _, h⟩⟩

/-- Query a is itself a key not after query a. -/
theorem causal_nonempty (a : Fin 4096) : (Cert.Spec.causal a).Nonempty :=
  ⟨a, Finset.mem_filter.mpr ⟨Finset.mem_univ _, le_refl a⟩⟩

/-- One row: the masked, renormalised softmax weights of row a at a real shift M, summed against real values, are the
    weighted average over the keys not after a. -/
theorem row_avg (a : Fin 4096) (t v : Fin 4096 → ℝ) (M : EReal) (μ : ℝ) (hM : M = (μ : EReal)) :
    ∑ j : Fin 4096,
      Ideal.div
          ((if j ≤ a then (1 : EReal) else 0)
            * Ideal.div (Ideal.exp ((t j : EReal) - M)) (∑ k : Fin 4096, Ideal.exp ((t k : EReal) - M)))
          (∑ i : Fin 4096, (if i ≤ a then (1 : EReal) else 0)
            * Ideal.div (Ideal.exp ((t i : EReal) - M)) (∑ k : Fin 4096, Ideal.exp ((t k : EReal) - M)))
        * (v j : EReal)
      = ((Cert.LibOnlineSoftmax.avg (Cert.Spec.causal a) t v : ℝ) : EReal) :=
  Cert.LibOnlineSoftmax.masked_renorm_row Finset.univ (Cert.Spec.causal a) (Finset.subset_univ _) (causal_nonempty a) t v M μ hM
    (fun j => if j ≤ a then (1 : EReal) else 0) (fun j _ => by
      by_cases h : j ≤ a
      · rw [if_pos h, if_pos ((mem_causal a j).mpr h)]
      · rw [if_neg h, if_neg (fun hj => h ((mem_causal a j).mp hj))])

/-- The reference computes the specification on real inputs. -/
theorem ref_eq (x : (⟨Cert.ReferenceIdeal.S4096x1024, .f32⟩ : BufTy).Contents (Elt Ideal))
    (wq wk wv : (⟨Cert.ReferenceIdeal.S1024x1024, .f32⟩ : BufTy).Contents (Elt Ideal))
    (hx : Cert.Spec.IsReal x) (hq : Cert.Spec.IsReal wq) (hk : Cert.Spec.IsReal wk) (hv : Cert.Spec.IsReal wv) :
    Cert.ReferenceIdeal.Read.val_main_v29 (F := Ideal) x wq wk wv = Cert.Spec.G x wq wk wv := by
  funext i
  obtain ⟨a, d, rfl⟩ : ∃ (a : Fin 4096) (d : Fin 1024), i = ix2 a d := ⟨i 0, i 1, eq_ix2 i⟩
  have hQ := proj_real x wq hx hq
  have hK := proj_real x wk hx hk
  have hV := proj_real x wv hx hv
  -- the row's scores, the values of column d and the row's shift, as reals
  obtain ⟨t, ht⟩ : ∃ t : Fin 4096 → ℝ, ∀ j, Cert.Spec.score (Cert.Spec.proj x wq) (Cert.Spec.proj x wk) a j = (t j : EReal) :=
    ⟨fun j => (Cert.Spec.score (Cert.Spec.proj x wq) (Cert.Spec.proj x wk) a j).toReal, fun j => score_coe _ _ hQ hK a j⟩
  obtain ⟨v, hv'⟩ : ∃ v : Fin 4096 → ℝ, ∀ j, Cert.Spec.proj x wv (ix2 j d) = (v j : EReal) :=
    ⟨fun j => (Cert.Spec.proj x wv (ix2 j d)).toReal, fun j => coe_toReal_of_real (hV (ix2 j d))⟩
  obtain ⟨μ, hμ⟩ := v13_real x wq wk (fun i => by
    obtain ⟨a', b', rfl⟩ : ∃ (a' b' : Fin 4096), i = ix2 a' b' := ⟨i 0, i 1, eq_ix2 i⟩
    rw [v10_apply]
    exact score_real _ _ hQ hK a' b') (ix1 a)
  -- the specification's side
  have hG : Cert.Spec.G x wq wk wv (ix2 a d) = ((Cert.LibOnlineSoftmax.avg (Cert.Spec.causal a) t v : ℝ) : EReal) := by
    have et : (fun j => (Cert.Spec.score (Cert.Spec.proj x wq) (Cert.Spec.proj x wk) a j).toReal) = t := funext fun j => by rw [ht j, EReal.toReal_coe]
    have ev : (fun j => (Cert.Spec.proj x wv (ix2 j d)).toReal) = v := funext fun j => by rw [hv' j, EReal.toReal_coe]
    show ((Cert.LibOnlineSoftmax.avg (Cert.Spec.causal a) (fun j => (Cert.Spec.score (Cert.Spec.proj x wq) (Cert.Spec.proj x wk) a j).toReal)
      (fun j => (Cert.Spec.proj x wv (ix2 j d)).toReal) : ℝ) : EReal) = _
    rw [et, ev]
  rw [hG, ← row_avg a t v _ μ hμ, val_main_v29_apply]
  refine Finset.sum_congr rfl fun j _ => ?_
  have e1 : lidx_main_v29 (ix2 a d) j = ix2 a j :=
    funext fun c => Fin.ext (by match c with | ⟨0, _⟩ => rfl | ⟨1, _⟩ => rfl)
  have e2 : ridx_main_v29 (ix2 a d) j = ix2 j d :=
    funext fun c => Fin.ext (by match c with | ⟨0, _⟩ => rfl | ⟨1, _⟩ => rfl)
  rw [e1, e2, v5_eq, hv' j, v28_apply]
  simp only [v24_apply, ht]

end Cert.ReferenceIdeal.RefValue

end
-- ==== Proof.lean ====
/-
  A causal attention head: the kernel projects x onto queries, keys and values, then accumulates, key block by key
  block, the softmax-weighted average of the values over the keys not after the query (running shift, normaliser and
  numerator; the masked keys of a diagonal block carry the score -∞). The reference takes the full softmax row, zeroes
  the keys after the query and renormalises. Both are, per query i and feature d,
      (∑_{j ≤ i} e^{t i j} v j d) / (∑_{j ≤ i} e^{t i j}),   t i j = (q i · k j) / 32.
  The three frames: each program runs to the end, nothing faulting, its arguments unchanged — the kernel's two regions
  by their body obligations and the launch of a list of regions, the reference by its run. The preserved rewrite: the
  kernel's mask fill, a large negative number, read as -∞.
-/
import proofs.«164044_j26826365731266_2_alg».proof.Defs
import proofs.«164044_j26826365731266_2_alg».proof.Proof.Gen.Kernel
import proofs.«164044_j26826365731266_2_alg».proof.Proof.Gen.KernelIdeal
import proofs.«164044_j26826365731266_2_alg».proof.Proof.Gen.ReferenceIdeal
import proofs.«164044_j26826365731266_2_alg».proof.Proof.Gen.Pre_finite_inputs
import proofs.«164044_j26826365731266_2_alg».proof.Proof.Gen.ReferenceIdeal.Run
import proofs.«164044_j26826365731266_2_alg».proof.Proof.Gen.ReferenceIdeal.Read
import proofs.«164044_j26826365731266_2_alg».proof.Proof.Run
import proofs.«164044_j26826365731266_2_alg».proof.Proof.KRun
import proofs.«164044_j26826365731266_2_alg».proof.Proof.KernelValue
import proofs.«164044_j26826365731266_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run_post (F := Bits) m ρ)

theorem frame_ki : Cert.frame_KernelIdeal := fun m ρ _ =>
  (θ_run Cert.KernelIdeal.defs _ _).mono (fun _ h c => (h c).2) (Cert.KernelIdeal.Hand.run_post (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill denotes -∞. -/
theorem preserves : Cert.preserves_Kernel_KernelIdeal :=
  IdealRules.named_const.statement Cert.KernelIdeal.κ "neg_big" .f32 0xFF333332#32 ⊥ rfl

/-- Both idealized programs end with the common function of the arguments: the kernel by its run and the value of its
    two regions, the reference by its run read operation by operation; the precondition makes the arguments real. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.kernel_value m hpre c), (h c).2⟩)
      (Cert.KernelIdeal.Hand.run_post (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hq, hk, hv⟩ := Cert.KernelIdeal.FiniteArgs.real_of_pre m hpre c
    rw [Cert.ReferenceIdeal.Read.val_main_v29_eq, (hagree c).1, (hagree c).2.1, (hagree c).2.2.1, (hagree c).2.2.2]
    exact Cert.ReferenceIdeal.RefValue.ref_eq _ _ _ _ hx hq hk hv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
